-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S100000x64 : Shape := ⟨2, ![100000, 64]⟩
abbrev S2400000 : Shape := ⟨1, ![2400000]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S100000x64 : S_.BroadcastsInDim S100000x64 (![] : Fin 0 → Fin S100000x64.rank)
  reducesTo_S100000x64_S_d0_1 : S100000x64.ReducesTo [0, 1] S_
  bcast_S_S2400000 : S_.BroadcastsInDim S2400000 (![] : Fin 0 → Fin S2400000.rank)
  reducesTo_S2400000_S_d0 : S2400000.ReducesTo [0] S_

variable [Facts]

def fn {F : FTy → Type} [FloatOps F] (main_arg0 : FVec F S50000x64 .f32) (main_arg1 : FVec F S100000x64 .f32) (main_arg2 : FVec F S2400000 .f32) (main_arg3 : IVec S2400000 32) (main_arg4 : IVec S2400000 32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S100000x64 .f32 := Host.absf main_arg1
  let main_cst_0 : FVec F S_ .f32 := constant S_ .f32 0x7F800000#32
  let main_v5 : FVec F S100000x64 .f32 := broadcastInDim S100000x64 ![] bcast_S_S100000x64 main_cst_0
  let main_v6 : IVec S100000x64 1 := cmpf .olt main_v4 main_v5
  let main_c_1 : IVec S_ 1 := constantI S_ 1 1#1
  let main_v7 : IVec S_ 1 := (fun x v => Host.reduce IntOp.andi x v reducesTo_S100000x64_S_d0_1 h_S_) main_v6 main_c_1
  let main_v8 : IVec S_ 1 := andi main_v3 main_v7
  let main_v9 : FVec F S2400000 .f32 := Host.absf main_arg2
  let main_cst_2 : FVec F S_ .f32 := constant S_ .f32 0x7F800000#32
  let main_v10 : FVec F S2400000 .f32 := broadcastInDim S2400000 ![] bcast_S_S2400000 main_cst_2
  let main_v11 : IVec S2400000 1 := cmpf .olt main_v9 main_v10
  let main_c_3 : IVec S_ 1 := constantI S_ 1 1#1
  let main_v12 : IVec S_ 1 := (fun x v => Host.reduce IntOp.andi x v reducesTo_S2400000_S_d0 h_S_) main_v11 main_c_3
  let main_v13 : IVec S_ 1 := andi main_v8 main_v12
  main_v13
-- ==== Kernel.lean ====
abbrev S50000x64 : Shape := ⟨2, ![50000, 64]⟩
abbrev S100000x64 : Shape := ⟨2, ![100000, 64]⟩
abbrev S2400000 : Shape := ⟨1, ![2400000]⟩
abbrev S_ : Shape := ⟨0, ![]⟩
abbrev S2400256 : Shape := ⟨1, ![2400256]⟩
abbrev S2400256x1 : Shape := ⟨2, ![2400256, 1]⟩
abbrev S150000x64 : Shape := ⟨2, ![150000, 64]⟩
abbrev S2400256x64 : Shape := ⟨2, ![2400256, 64]⟩
abbrev S8192x1 : Shape := ⟨2, ![8192, 1]⟩
abbrev S8192x64 : Shape := ⟨2, ![8192, 64]⟩
abbrev S6000x64 : Shape := ⟨2, ![6000, 64]⟩
abbrev S5000x64 : Shape := ⟨2, ![5000, 64]⟩

abbrev nBuf : Space → Nat
  | .hbm => 62
  | .vmem => 40
  | .smem => 0
  | _ => 0

abbrev bufTy : (tb : Table) → Fin (tcTables nBuf tb) → BufTy
  | .hbm, ⟨0, _⟩ => ⟨S50000x64, .f32⟩
  | .hbm, ⟨1, _⟩ => ⟨S100000x64, .f32⟩
  | .hbm, ⟨2, _⟩ => ⟨S2400000, .f32⟩
  | .hbm, ⟨3, _⟩ => ⟨S2400000, .i32⟩
  | .hbm, ⟨4, _⟩ => ⟨S2400000, .i32⟩
  | .hbm, ⟨5, _⟩ => ⟨S_, .i32⟩
  | .hbm, ⟨6, _⟩ => ⟨S_, .i32⟩
  | .hbm, ⟨7, _⟩ => ⟨S2400256, .i32⟩
  | .hbm, ⟨8, _⟩ => ⟨S_, .i32⟩
  | .hbm, ⟨9, _⟩ => ⟨S_, .i32⟩
  | .hbm, ⟨10, _⟩ => ⟨S2400256, .i32⟩
  | .hbm, ⟨11, _⟩ => ⟨S_, .i32⟩
  | .hbm, ⟨12, _⟩ => ⟨S_, .f32⟩
  | .hbm, ⟨13, _⟩ => ⟨S2400256, .f32⟩
  | .hbm, ⟨14, _⟩ => ⟨S2400256x1, .f32⟩
  | .hbm, ⟨15, _⟩ => ⟨S150000x64, .f32⟩
  | .hbm, ⟨16, _⟩ => ⟨S_, .i32⟩
  | .hbm, ⟨17, _⟩ => ⟨S2400256, .i32⟩
  | .hbm, ⟨18, _⟩ => ⟨S2400256, .i1⟩
  | .hbm, ⟨19, _⟩ => ⟨S_, .i32⟩
  | .hbm, ⟨20, _⟩ => ⟨S2400256, .i32⟩
  | .hbm, ⟨21, _⟩ => ⟨S2400256, .i32⟩
  | .hbm, ⟨22, _⟩ => ⟨S2400256, .i32⟩
  | .hbm, ⟨23, _⟩ => ⟨S2400256x1, .i32⟩
  | .hbm, ⟨24, _⟩ => ⟨S2400256x64, .f32⟩
  | .hbm, ⟨25, _⟩ => ⟨S2400256x64, .f32⟩
  | .hbm, ⟨26, _⟩ => ⟨S_, .f32⟩
  | .hbm, ⟨27, _⟩ => ⟨S150000x64, .f32⟩
  | .hbm, ⟨28, _⟩ => ⟨S2400256x1, .i32⟩
  | .hbm, ⟨29, _⟩ => ⟨S150000x64, .f32⟩
  | .hbm, ⟨30, _⟩ => ⟨S150000x64, .f32⟩
  | .hbm, ⟨31, _⟩ => ⟨S_, .i32⟩
  | .hbm, ⟨32, _⟩ => ⟨S2400256, .i32⟩
  | .hbm, ⟨33, _⟩ => ⟨S2400256, .i1⟩
  | .hbm, ⟨34, _⟩ => ⟨S_, .i32⟩
  | .hbm, ⟨35, _⟩ => ⟨S2400256, .i32⟩
  | .hbm, ⟨36, _⟩ => ⟨S2400256, .i32⟩
  | .hbm, ⟨37, _⟩ => ⟨S2400256, .i32⟩
  | .hbm, ⟨38, _⟩ => ⟨S2400256x1, .i32⟩
  | .hbm, ⟨39, _⟩ => ⟨S2400256x64, .f32⟩
  | .hbm, ⟨40, _⟩ => ⟨S2400256x64, .f32⟩
  | .hbm, ⟨41, _⟩ => ⟨S_, .f32⟩
  | .hbm, ⟨42, _⟩ => ⟨S150000x64, .f32⟩
  | .hbm, ⟨43, _⟩ => ⟨S2400256x1, .i32⟩
  | .hbm, ⟨44, _⟩ => ⟨S150000x64, .f32⟩
  | .hbm, ⟨45, _⟩ => ⟨S150000x64, .f32⟩
  | .hbm, ⟨46, _⟩ => ⟨S_, .i32⟩
  | .hbm, ⟨47, _⟩ => ⟨S2400256, .i32⟩
  | .hbm, ⟨48, _⟩ => ⟨S2400256, .i1⟩
  | .hbm, ⟨49, _⟩ => ⟨S_, .i32⟩
  | .hbm, ⟨50, _⟩ => ⟨S2400256, .i32⟩
  | .hbm, ⟨51, _⟩ => ⟨S2400256, .i32⟩
  | .hbm, ⟨52, _⟩ => ⟨S2400256, .i32⟩
  | .hbm, ⟨53, _⟩ => ⟨S2400256x1, .i32⟩
  | .hbm, ⟨54, _⟩ => ⟨S2400256x64, .f32⟩
  | .hbm, ⟨55, _⟩ => ⟨S2400256x64, .f32⟩
  | .hbm, ⟨56, _⟩ => ⟨S_, .f32⟩
  | .hbm, ⟨57, _⟩ => ⟨S150000x64, .f32⟩
  | .hbm, ⟨58, _⟩ => ⟨S2400256x1, .i32⟩
  | .hbm, ⟨59, _⟩ => ⟨S150000x64, .f32⟩
  | .hbm, ⟨60, _⟩ => ⟨S150000x64, .f32⟩
  | .hbm, ⟨61, _⟩ => ⟨S50000x64, .f32⟩
  | .local _ .vmem, ⟨0, _⟩ => ⟨S8192x1, .f32⟩
  | .local _ .vmem, ⟨1, _⟩ => ⟨S8192x1, .f32⟩
  | .local _ .vmem, ⟨2, _⟩ => ⟨S8192x64, .f32⟩
  | .local _ .vmem, ⟨3, _⟩ => ⟨S8192x64, .f32⟩
  | .local _ .vmem, ⟨4, _⟩ => ⟨S8192x64, .f32⟩
  | .local _ .vmem, ⟨5, _⟩ => ⟨S8192x64, .f32⟩
  | .local _ .vmem, ⟨6, _⟩ => ⟨S6000x64, .f32⟩
  | .local _ .vmem, ⟨7, _⟩ => ⟨S6000x64, .f32⟩
  | .local _ .vmem, ⟨8, _⟩ => ⟨S6000x64, .f32⟩
  | .local _ .vmem, ⟨9, _⟩ => ⟨S6000x64, .f32⟩
  | .local _ .vmem, ⟨10, _⟩ => ⟨S6000x64, .f32⟩
  | .local _ .vmem, ⟨11, _⟩ => ⟨S6000x64, .f32⟩
  | .local _ .vmem, ⟨12, _⟩ => ⟨S8192x1, .f32⟩
  | .local _ .vmem, ⟨13, _⟩ => ⟨S8192x1, .f32⟩
  | .local _ .vmem, ⟨14, _⟩ => ⟨S8192x64, .f32⟩
  | .local _ .vmem, ⟨15, _⟩ => ⟨S8192x64, .f32⟩
  | .local _ .vmem, ⟨16, _⟩ => ⟨S8192x64, .f32⟩
  | .local _ .vmem, ⟨17, _⟩ => ⟨S8192x64, .f32⟩
  | .local _ .vmem, ⟨18, _⟩ => ⟨S6000x64, .f32⟩
  | .local _ .vmem, ⟨19, _⟩ => ⟨S6000x64, .f32⟩
  | .local _ .vmem, ⟨20, _⟩ => ⟨S6000x64, .f32⟩
  | .local _ .vmem, ⟨21, _⟩ => ⟨S6000x64, .f32⟩
  | .local _ .vmem, ⟨22, _⟩ => ⟨S6000x64, .f32⟩
  | .local _ .vmem, ⟨23, _⟩ => ⟨S6000x64, .f32⟩
  | .local _ .vmem, ⟨24, _⟩ => ⟨S8192x1, .f32⟩
  | .local _ .vmem, ⟨25, _⟩ => ⟨S8192x1, .f32⟩
  | .local _ .vmem, ⟨26, _⟩ => ⟨S8192x64, .f32⟩
  | .local _ .vmem, ⟨27, _⟩ => ⟨S8192x64, .f32⟩
  | .local _ .vmem, ⟨28, _⟩ => ⟨S8192x64, .f32⟩
  | .local _ .vmem, ⟨29, _⟩ => ⟨S8192x64, .f32⟩
  | .local _ .vmem, ⟨30, _⟩ => ⟨S6000x64, .f32⟩
  | .local _ .vmem, ⟨31, _⟩ => ⟨S6000x64, .f32⟩
  | .local _ .vmem, ⟨32, _⟩ => ⟨S6000x64, .f32⟩
  | .local _ .vmem, ⟨33, _⟩ => ⟨S6000x64, .f32⟩
  | .local _ .vmem, ⟨34, _⟩ => ⟨S6000x64, .f32⟩
  | .local _ .vmem, ⟨35, _⟩ => ⟨S6000x64, .f32⟩
  | .local _ .vmem, ⟨36, _⟩ => ⟨S5000x64, .f32⟩
  | .local _ .vmem, ⟨37, _⟩ => ⟨S5000x64, .f32⟩
  | .local _ .vmem, ⟨38, _⟩ => ⟨S5000x64, .f32⟩
  | .local _ .vmem, ⟨39, _⟩ => ⟨S5000x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_c_0 : Ref sig .tc := ⟨.hbm, 8, rfl⟩
abbrev main_call1_v0 : Ref sig .tc := ⟨.hbm, 9, rfl⟩
abbrev main_v1 : Ref sig .tc := ⟨.hbm, 10, rfl⟩
abbrev main_c_1 : Ref sig .tc := ⟨.hbm, 11, rfl⟩
abbrev main_call2_v0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_c_2 : Ref sig .tc := ⟨.hbm, 16, rfl⟩
abbrev main_v5 : Ref sig .tc := ⟨.hbm, 17, rfl⟩
abbrev main_v6 : Ref sig .tc := ⟨.hbm, 18, rfl⟩
abbrev main_c_3 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_c_4 : Ref sig .tc := ⟨.hbm, 31, rfl⟩
abbrev main_v17 : Ref sig .tc := ⟨.hbm, 32, rfl⟩
abbrev main_v18 : Ref sig .tc := ⟨.hbm, 33, rfl⟩
abbrev main_c_5 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst_6 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_c_7 : Ref sig .tc := ⟨.hbm, 46, rfl⟩
abbrev main_v29 : Ref sig .tc := ⟨.hbm, 47, rfl⟩
abbrev main_v30 : Ref sig .tc := ⟨.hbm, 48, rfl⟩
abbrev main_c_8 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_cst_9 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg1_1 : Ref sig .tc := ⟨.vmem, 21, rfl⟩
abbrev cc3_stg2_0 : Ref sig .tc := ⟨.vmem, 22, rfl⟩
abbrev cc3_stg2_1 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg1_1 : Ref sig .tc := ⟨.vmem, 27, rfl⟩
abbrev cc4_stg2_0 : Ref sig .tc := ⟨.vmem, 28, rfl⟩
abbrev cc4_stg2_1 : Ref sig .tc := ⟨.vmem, 29, rfl⟩
abbrev cc5_stg0_0 : Ref sig .tc := ⟨.vmem, 30, rfl⟩
abbrev cc5_stg0_1 : Ref sig .tc := ⟨.vmem, 31, rfl⟩
abbrev cc5_stg1_0 : Ref sig .tc := ⟨.vmem, 32, rfl⟩
abbrev cc5_stg1_1 : Ref sig .tc := ⟨.vmem, 33, rfl⟩
abbrev cc5_stg2_0 : Ref sig .tc := ⟨.vmem, 34, rfl⟩
abbrev cc5_stg2_1 : Ref sig .tc := ⟨.vmem, 35, rfl⟩
abbrev cc6_stg0_0 : Ref sig .tc := ⟨.vmem, 36, rfl⟩
abbrev cc6_stg0_1 : Ref sig .tc := ⟨.vmem, 37, rfl⟩
abbrev cc6_stg1_0 : Ref sig .tc := ⟨.vmem, 38, rfl⟩
abbrev cc6_stg1_1 : Ref sig .tc := ⟨.vmem, 39, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc3_sem0_0 : DmaSem sig := 18
abbrev cc3_sem0_1 : DmaSem sig := 19
abbrev cc3_sem1_0 : DmaSem sig := 20
abbrev cc3_sem1_1 : DmaSem sig := 21
abbrev cc3_sem2_0 : DmaSem sig := 22
abbrev cc3_sem2_1 : DmaSem sig := 23
abbrev cc4_sem0_0 : DmaSem sig := 24
abbrev cc4_sem0_1 : DmaSem sig := 25
abbrev cc4_sem1_0 : DmaSem sig := 26
abbrev cc4_sem1_1 : DmaSem sig := 27
abbrev cc4_sem2_0 : DmaSem sig := 28
abbrev cc4_sem2_1 : DmaSem sig := 29
abbrev cc5_sem0_0 : DmaSem sig := 30
abbrev cc5_sem0_1 : DmaSem sig := 31
abbrev cc5_sem1_0 : DmaSem sig := 32
abbrev cc5_sem1_1 : DmaSem sig := 33
abbrev cc5_sem2_0 : DmaSem sig := 34
abbrev cc5_sem2_1 : DmaSem sig := 35
abbrev cc6_sem0_0 : DmaSem sig := 36
abbrev cc6_sem0_1 : DmaSem sig := 37
abbrev cc6_sem1_0 : DmaSem sig := 38
abbrev cc6_sem1_1 : DmaSem sig := 39

abbrev nD : Nat := 1
abbrev τ : Topo := Topo.v7x

variable {F : FTy → Type} [FloatOps F]

abbrev grid0 : Pipeline.Grid := ⟨1, ![293], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8192x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S6000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S6000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S6000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![293], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S8192x1 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S8192x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S8192x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S6000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S6000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S6000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![293], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S8192x1 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S8192x64 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S8192x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S6000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S6000x64 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S6000x64 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S5000x64 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

class Facts₀ : Prop where
  pads_S2400000_S2400256_02560 : S2400000.Pads (![0] : Fin 1 → Nat) ![256] ![0] S2400256
  h_S_ : 0 < S_.numel
  bcast_S2400256_S2400256x1_0 : S2400256.BroadcastsInDim S2400256x1 (![0] : Fin 1 → Fin S2400256x1.rank)
  concatenates_S50000x64_S100000x64_S150000x64_d0 : Shape.Concatenates [S50000x64, S100000x64] S150000x64 0
  bcast_S_S2400256 : S_.BroadcastsInDim S2400256 (![] : Fin 0 → Fin S2400256.rank)
  inb_S8192x1_S8192x1_0_0 : ∀ a, (![0, 0] : Fin 2 → Nat) a + S8192x1.size a ≤ S8192x1.size a
  h_S8192x1 : 0 < S8192x1.numel
  shapeCasts_S8192x1_S8192x1 : S8192x1.ShapeCasts S8192x1
  inb_S8192x64_S8192x64_0_0 : ∀ a, (![0, 0] : Fin 2 → Nat) a + S8192x64.size a ≤ S8192x64.size a
  h_S8192x64 : 0 < S8192x64.numel
  shapeCasts_S8192x64_S8192x64 : S8192x64.ShapeCasts S8192x64
  broadcasts_S8192x1_S8192x64 : S8192x1.Broadcasts S8192x64
  bcast_S_S150000x64 : S_.BroadcastsInDim S150000x64 (![] : Fin 0 → Fin S150000x64.rank)
  inb_S6000x64_S6000x64_0_0 : ∀ a, (![0, 0] : Fin 2 → Nat) a + S6000x64.size a ≤ S6000x64.size a
  h_S6000x64 : 0 < S6000x64.numel
  shapeCasts_S6000x64_S6000x64 : S6000x64.ShapeCasts S6000x64
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  gather_S150000x64_S2400256x1_S2400256x64_1_0_n_n_0_1_164_wf : GatherDims.WF S150000x64 S2400256x1 S2400256x64 [1] [0] [] [0] [] 1 ![1, 64]
  scatter_S150000x64_S2400256x1_S2400256x64_1_0_0_1_wf : ScatterDims.WF S150000x64 S2400256x1 S2400256x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x1.size a ≤ S2400256x1.size a
  hwx0_0 : ∀ i : grid0.Coords, EltTy.bits .f32 = 32 ∨ (Rect.block (s := S2400256x1) S8192x1.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x64.size a ≤ S2400256x64.size a
  hwx0_1 : ∀ i : grid0.Coords, EltTy.bits .f32 = 32 ∨ (Rect.block (s := S2400256x64) S8192x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8192x64.size a ≤ S2400256x64.size a
  hwx0_2 : ∀ i : grid0.Coords, EltTy.bits .f32 = 32 ∨ (Rect.block (s := S2400256x64) S8192x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S6000x64.size a ≤ S150000x64.size a
  hwx1_0 : ∀ i : grid1.Coords, EltTy.bits .f32 = 32 ∨ (Rect.block (s := S150000x64) S6000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S6000x64.size a ≤ S150000x64.size a
  hwx1_1 : ∀ i : grid1.Coords, EltTy.bits .f32 = 32 ∨ (Rect.block (s := S150000x64) S6000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S6000x64.size a ≤ S150000x64.size a
  hwx1_2 : ∀ i : grid1.Coords, EltTy.bits .f32 = 32 ∨ (Rect.block (s := S150000x64) S6000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S8192x1.size a ≤ S2400256x1.size a
  hwx2_0 : ∀ i : grid2.Coords, EltTy.bits .f32 = 32 ∨ (Rect.block (s := S2400256x1) S8192x1.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S8192x64.size a ≤ S2400256x64.size a
  hwx2_1 : ∀ i : grid2.Coords, EltTy.bits .f32 = 32 ∨ (Rect.block (s := S2400256x64) S8192x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S8192x64.size a ≤ S2400256x64.size a
  hwx2_2 : ∀ i : grid2.Coords, EltTy.bits .f32 = 32 ∨ (Rect.block (s := S2400256x64) S8192x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S6000x64.size a ≤ S150000x64.size a
  hwx3_0 : ∀ i : grid3.Coords, EltTy.bits .f32 = 32 ∨ (Rect.block (s := S150000x64) S6000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S6000x64.size a ≤ S150000x64.size a
  hwx3_1 : ∀ i : grid3.Coords, EltTy.bits .f32 = 32 ∨ (Rect.block (s := S150000x64) S6000x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S6000x64.size a ≤ S150000x64.size a
  hwx3_2 : ∀ i : grid3.Coords, EltTy.bits .f32 = 32 ∨ (Rect.block (s := S150000x64) S6000x64.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S8192x1.size a ≤ S2400256x1.size a
  hwx4_0 : ∀ i : grid4.Coords, EltTy.bits .f32 = 32 ∨ (Rect.block (s := S2400256x1) S8192x1.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S8192x64.size a ≤ S2400256x64.size a
  hwx4_1 : ∀ i : grid4.Coords, EltTy.bits .f32 = 32 ∨ (Rect.block (s := S2400256x64) S8192x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S8192x64.size a ≤ S2400256x64.size a
  hwx4_2 : ∀ i : grid4.Coords, EltTy.bits .f32 = 32 ∨ (Rect.block (s := S2400256x64) S8192x64.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S6000x64.size a ≤ S150000x64.size a
  hwx5_0 : ∀ i : grid5.Coords, EltTy.bits .f32 = 32 ∨ (Rect.block (s := S150000x64) S6000x64.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S6000x64.size a ≤ S150000x64.size a
  hwx5_1 : ∀ i : grid5.Coords, EltTy.bits .f32 = 32 ∨ (Rect.block (s := S150000x64) S6000x64.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S6000x64.size a ≤ S150000x64.size a
  hwx5_2 : ∀ i : grid5.Coords, EltTy.bits .f32 = 32 ∨ (Rect.block (s := S150000x64) S6000x64.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x64.size a ≤ S150000x64.size a
  hwx6_0 : ∀ i : grid6.Coords, EltTy.bits .f32 = 32 ∨ (Rect.block (s := S150000x64) S5000x64.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S5000x64.size a ≤ S50000x64.size a
  hwx6_1 : ∀ i : grid6.Coords, EltTy.bits .f32 = 32 ∨ (Rect.block (s := S50000x64) S5000x64.size (cc6_transform_1 i) (hinb6_1 i)).WholeWords (EltTy.packing .f32)

variable [Facts₀]

def gather_S150000x64_S2400256x1_S2400256x64_1_0_n_n_0_1_164 : GatherDims S150000x64 S2400256x1 S2400256x64 where
  offsetDims := [1]
  collapsedSliceDims := [0]
  operandBatchingDims := []
  startIndicesBatchingDims := []
  startIndexMap := [0]
  indexVectorDim := 1
  sliceSizes := ![1, 64]
  wf := gather_S150000x64_S2400256x1_S2400256x64_1_0_n_n_0_1_164_wf
def scatter_S150000x64_S2400256x1_S2400256x64_1_0_0_1 : ScatterDims S150000x64 S2400256x1 S2400256x64 where
  updateWindowDims := [1]
  insertedWindowDims := [0]
  scatterDimsToOperandDims := [0]
  indexVectorDim := 1
  wf := scatter_S150000x64_S2400256x1_S2400256x64_1_0_0_1_wf

abbrev win0_0 : Pipeline.Window sig grid0 :=
  Pipeline.Window.ofSpec (Memref.whole main_v3) S8192x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S8192x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v12) S8192x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v4) S6000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S6000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v16) S6000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v3) S8192x1.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v23) S8192x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v24) S8192x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v16) S6000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v27) S6000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v28) S6000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v3) S8192x1.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v35) S8192x64.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v36) S8192x64.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v28) S6000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v39) S6000x64.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v40) S6000x64.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v40) S5000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v41) S5000x64.size cc6_transform_1 reads6_1 true false 2 stage6_1 sem6_1
    hrank6 hreads6_1 hinb6_1 nbuf6_1 (Memref.isWhole_whole _) hwx6_1 hstage6_1

abbrev win6 : Fin 2 → Pipeline.Window sig grid6 := fun | 0 => win6_0 | 1 => win6_1 | ⟨_ + 2, h⟩ => absurd h (Nat.not_lt.2 (Nat.le_add_left _ _))
abbrev spec6 : Fin 2 → Pipeline.WinSpec sig grid6.rank := fun w => (win6 w).toWinSpec

class Facts : Prop extends Facts₀ where

variable [Facts]
-- ==== ReferenceIdeal.lean ====
abbrev S50000x64 : Shape := ⟨2, ![50000, 64]⟩
abbrev S100000x64 : Shape := ⟨2, ![100000, 64]⟩
abbrev S2400000 : Shape := ⟨1, ![2400000]⟩
abbrev S150000x64 : Shape := ⟨2, ![150000, 64]⟩
abbrev S2400000x1 : Shape := ⟨2, ![2400000, 1]⟩
abbrev S_ : Shape := ⟨0, ![]⟩
abbrev S2400000x64 : Shape := ⟨2, ![2400000, 64]⟩

abbrev nBuf : Space → Nat
  | .hbm => 61
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S100000x64, .f32⟩
  | .hbm, ⟨2, _⟩ => ⟨S2400000, .f32⟩
  | .hbm, ⟨3, _⟩ => ⟨S2400000, .i32⟩
  | .hbm, ⟨4, _⟩ => ⟨S2400000, .i32⟩
  | .hbm, ⟨5, _⟩ => ⟨S150000x64, .f32⟩
  | .hbm, ⟨6, _⟩ => ⟨S2400000x1, .f32⟩
  | .hbm, ⟨7, _⟩ => ⟨S_, .i32⟩
  | .hbm, ⟨8, _⟩ => ⟨S2400000, .i32⟩
  | .hbm, ⟨9, _⟩ => ⟨S2400000, .i1⟩
  | .hbm, ⟨10, _⟩ => ⟨S_, .i32⟩
  | .hbm, ⟨11, _⟩ => ⟨S2400000, .i32⟩
  | .hbm, ⟨12, _⟩ => ⟨S2400000, .i32⟩
  | .hbm, ⟨13, _⟩ => ⟨S2400000, .i32⟩
  | .hbm, ⟨14, _⟩ => ⟨S2400000x1, .i32⟩
  | .hbm, ⟨15, _⟩ => ⟨S2400000x64, .f32⟩
  | .hbm, ⟨16, _⟩ => ⟨S2400000x64, .f32⟩
  | .hbm, ⟨17, _⟩ => ⟨S2400000x64, .f32⟩
  | .hbm, ⟨18, _⟩ => ⟨S_, .f32⟩
  | .hbm, ⟨19, _⟩ => ⟨S150000x64, .f32⟩
  | .hbm, ⟨20, _⟩ => ⟨S2400000x1, .i32⟩
  | .hbm, ⟨21, _⟩ => ⟨S150000x64, .f32⟩
  | .hbm, ⟨22, _⟩ => ⟨S150000x64, .f32⟩
  | .hbm, ⟨23, _⟩ => ⟨S2400000x1, .f32⟩
  | .hbm, ⟨24, _⟩ => ⟨S_, .i32⟩
  | .hbm, ⟨25, _⟩ => ⟨S2400000, .i32⟩
  | .hbm, ⟨26, _⟩ => ⟨S2400000, .i1⟩
  | .hbm, ⟨27, _⟩ => ⟨S_, .i32⟩
  | .hbm, ⟨28, _⟩ => ⟨S2400000, .i32⟩
  | .hbm, ⟨29, _⟩ => ⟨S2400000, .i32⟩
  | .hbm, ⟨30, _⟩ => ⟨S2400000, .i32⟩
  | .hbm, ⟨31, _⟩ => ⟨S2400000x1, .i32⟩
  | .hbm, ⟨32, _⟩ => ⟨S2400000x64, .f32⟩
  | .hbm, ⟨33, _⟩ => ⟨S2400000x64, .f32⟩
  | .hbm, ⟨34, _⟩ => ⟨S2400000x64, .f32⟩
  | .hbm, ⟨35, _⟩ => ⟨S_, .f32⟩
  | .hbm, ⟨36, _⟩ => ⟨S150000x64, .f32⟩
  | .hbm, ⟨37, _⟩ => ⟨S2400000x1, .i32⟩
  | .hbm, ⟨38, _⟩ => ⟨S150000x64, .f32⟩
  | .hbm, ⟨39, _⟩ => ⟨S150000x64, .f32⟩
  | .hbm, ⟨40, _⟩ => ⟨S2400000x1, .f32⟩
  | .hbm, ⟨41, _⟩ => ⟨S_, .i32⟩
  | .hbm, ⟨42, _⟩ => ⟨S2400000, .i32⟩
  | .hbm, ⟨43, _⟩ => ⟨S2400000, .i1⟩
  | .hbm, ⟨44, _⟩ => ⟨S_, .i32⟩
  | .hbm, ⟨45, _⟩ => ⟨S2400000, .i32⟩
  | .hbm, ⟨46, _⟩ => ⟨S2400000, .i32⟩
  | .hbm, ⟨47, _⟩ => ⟨S2400000, .i32⟩
  | .hbm, ⟨48, _⟩ => ⟨S2400000x1, .i32⟩
  | .hbm, ⟨49, _⟩ => ⟨S2400000x64, .f32⟩
  | .hbm, ⟨50, _⟩ => ⟨S2400000x64, .f32⟩
  | .hbm, ⟨51, _⟩ => ⟨S2400000x64, .f32⟩
  | .hbm, ⟨52, _⟩ => ⟨S_, .f32⟩
  | .hbm, ⟨53, _⟩ => ⟨S150000x64, .f32⟩
  | .hbm, ⟨54, _⟩ => ⟨S2400000x1, .i32⟩
  | .hbm, ⟨55, _⟩ => ⟨S150000x64, .f32⟩
  | .hbm, ⟨56, _⟩ => ⟨S150000x64, .f32⟩
  | .hbm, ⟨57, _⟩ => ⟨S_, .f32⟩
  | .hbm, ⟨58, _⟩ => ⟨S150000x64, .f32⟩
  | .hbm, ⟨59, _⟩ => ⟨S150000x64, .f32⟩
  | .hbm, ⟨60, _⟩ => ⟨S50000x64, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_c_1 : Ref sig .tc := ⟨.hbm, 24, rfl⟩
abbrev main_v16 : Ref sig .tc := ⟨.hbm, 25, rfl⟩
abbrev main_v17 : Ref sig .tc := ⟨.hbm, 26, rfl⟩
abbrev main_c_2 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_3 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_c_4 : Ref sig .tc := ⟨.hbm, 41, rfl⟩
abbrev main_v30 : Ref sig .tc := ⟨.hbm, 42, rfl⟩
abbrev main_v31 : Ref sig .tc := ⟨.hbm, 43, rfl⟩
abbrev main_c_5 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_cst_6 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_cst_7 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩

abbrev nD : Nat := 1
abbrev τ : Topo := Topo.v7x

variable {F : FTy → Type} [FloatOps F]

class Facts₀ : Prop where
  concatenates_S50000x64_S100000x64_S150000x64_d0 : Shape.Concatenates [S50000x64, S100000x64] S150000x64 0
  bcast_S2400000_S2400000x1_0 : S2400000.BroadcastsInDim S2400000x1 (![0] : Fin 1 → Fin S2400000x1.rank)
  bcast_S_S2400000 : S_.BroadcastsInDim S2400000 (![] : Fin 0 → Fin S2400000.rank)
  bcast_S2400000x1_S2400000x64_0_1 : S2400000x1.BroadcastsInDim S2400000x64 (![0, 1] : Fin 2 → Fin S2400000x64.rank)
  bcast_S_S150000x64 : S_.BroadcastsInDim S150000x64 (![] : Fin 0 → Fin S150000x64.rank)
  slices_S150000x64_S50000x64_0_0 : S150000x64.Slices ![0, 0] S50000x64
  gather_S150000x64_S2400000x1_S2400000x64_1_0_n_n_0_1_164_wf : GatherDims.WF S150000x64 S2400000x1 S2400000x64 [1] [0] [] [0] [] 1 ![1, 64]
  scatter_S150000x64_S2400000x1_S2400000x64_1_0_0_1_wf : ScatterDims.WF S150000x64 S2400000x1 S2400000x64 [1] [0] [0] 1

variable [Facts₀]

def gather_S150000x64_S2400000x1_S2400000x64_1_0_n_n_0_1_164 : GatherDims S150000x64 S2400000x1 S2400000x64 where
  offsetDims := [1]
  collapsedSliceDims := [0]
  operandBatchingDims := []
  startIndicesBatchingDims := []
  startIndexMap := [0]
  indexVectorDim := 1
  sliceSizes := ![1, 64]
  wf := gather_S150000x64_S2400000x1_S2400000x64_1_0_n_n_0_1_164_wf
def scatter_S150000x64_S2400000x1_S2400000x64_1_0_0_1 : ScatterDims S150000x64 S2400000x1 S2400000x64 where
  updateWindowDims := [1]
  insertedWindowDims := [0]
  scatterDimsToOperandDims := [0]
  indexVectorDim := 1
  wf := scatter_S150000x64_S2400000x1_S2400000x64_1_0_0_1_wf

class Facts : Prop extends Facts₀ where

variable [Facts]
-- ==== Proof.Run.lean ====
/-
  The kernel's run, with its result.

  Every weakly fair execution of the kernel's program from a memory with zero counters terminates without a fault, and
  in every final state the result buffer holds what the last boundary's contents say and the five arguments are as
  launched.  This is the launch of the program's nineteen segments — host stretches and launches in order — read
  against the final state at the result buffer as well as at the arguments.
-/
import proofs.«124646_j1812476199038_1_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: it terminates, nothing faults, the result buffer ends at the last boundary's contents and the arguments
    end as launched. -/
theorem run_result : θ_run defs (onTc (τ := τ) (main (F := F))) ⟨m, fun _ => 0, ρ⟩ (fun r => ∀ c : Dev nD,
      r.2.mem ((c.tc : Thread nD τ).loc main_v41) = W19 m ρ c (Proc.devRef .tc main_v41)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W19 m ρ c b)
    (hfin := fun c s' => by
      iintro ⟨⟨Hh, -⟩, HSI⟩
      unfold StableHlo.held
      imodintro
      iapply (pointsTo_read_all (Pipeline.ucRefs τ sig) (fun b => (((c : Thread nD τ)).1, b)) (W19 m ρ c) s')
      isplitl [Hh] <;> iassumption)
    (hQ := fun s h c =>
      ⟨h c _ (mem_uc main_v41 (by decide)),
       (h c _ (mem_uc main_arg0 (by decide))).trans (W19_main_arg0 m ρ c),
       (h c _ (mem_uc main_arg1 (by decide))).trans (W19_main_arg1 m ρ c),
       (h c _ (mem_uc main_arg2 (by decide))).trans (W19_main_arg2 m ρ c),
       (h c _ (mem_uc main_arg3 (by decide))).trans (W19_main_arg3 m ρ c),
       (h c _ (mem_uc main_arg4 (by decide))).trans (W19_main_arg4 m ρ c)⟩)

end Cert.KernelIdeal.Run

end
-- ==== Proof.LibColumn.lean ====
/-
  Rank-2 "keepdims" forms read at an index given by coordinates, for any extents a × b:
  a vector [a] cast to a column [a, 1] (`shapeCast_a_a1_apply`), a column [a, 1] broadcast across b lanes
  (`broadcastTo_a1_ab_apply`), and the sum of a matrix along its last axis, on the extended reals, as a sum over
  the lane coordinate (`sum_last_apply`). Together with the row forms [a] → [1, a] → [b, a] of the layout library
  they read `sum(x·x, axis=-1, keepdims=True)`-style expressions entry by entry.
-/
import Idealize.ShloMosaic.Lib.ValueLayout
import Idealize.ShloMosaic.PureOps.Ideal.Laws

noncomputable section

namespace Cert.LibColumn

open Idealize.ShloMosaic Idealize.ShloMosaic.ValueIdx

variable {α : Type}

/-- An `[a]` array cast to `[a, 1]` reads, at `(i, u)`, the operand at `i`, whatever the unit coordinate `u`:
    both sit at row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry in row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum of an `[a, b]` matrix along its last axis, read at row `p` on the extended reals, is the sum over the
    lane coordinate of that row's entries (the accumulator word is the neutral one, zero). -/
theorem sum_last_apply {a b : ℕ} (x : FVec Ideal ⟨2, ![a, b]⟩ .f32) (h : (⟨2, ![a, b]⟩ : Shape).Reduces [1] ⟨1, ![a]⟩)
    (hφ : FKind.Formats .f32) (hacc : (0x00000000#32 : BitVec 32) = FKind.add.neutral .f32 hφ) (p : Fin a) :
    multiReduction .add [1] ⟨1, ![a]⟩ x 0x00000000#32 h hφ hacc (ix1 p) = ∑ d : Fin b, x (ix2 p d) := by
  refine (Ideal.multiReduction_add_single x 0x00000000#32 h hφ hacc (ix1 p)).trans ?_
  show ∑ d : Fin b, x (h.lift (ix1 p) d) = ∑ d : Fin b, x (ix2 p d)
  refine Finset.sum_congr rfl fun d _ => congrArg x (funext fun c => Fin.ext ?_)
  match c with
  | ⟨0, _⟩ => rfl
  | ⟨1, _⟩ => rfl

end Cert.LibColumn

end
-- ==== Proof.Scale0.lean ====
/-
  The first edge scale, read as one array.

  The launch walks the 2400256 padded edges in 293 blocks of 8192 edges; at block `t` it loads the block's column of
  edge weights (one weight per edge) and the block's 8192 gathered rows of 64 features, multiplies every feature of an
  edge's row by that edge's weight and writes the block back.  The 293 blocks tile the edge axis, so after the launch
  the result array holds, at edge `e` and feature `f`, the weight of edge `e` times the gathered entry `(e, f)` —
  whatever the two operands held when the launch was entered.
-/
import proofs.«124646_j1812476199038_1_alg».proof.Proof.Gen.KernelIdeal.Frame
import proofs.«124646_j1812476199038_1_alg».proof.Proof.LibColumn
import Idealize.ShloMosaic.Lib.Pipeline.Value
import Idealize.ShloMosaic.Lib.ValueIdx

set_option maxRecDepth 16384

noncomputable section

namespace Cert.KernelIdeal.Scale0

open Cert.KernelIdeal Cert.KernelIdeal.Gen Idealize.ShloMosaic Idealize.ShloMosaic.TcCoe Idealize.SL.Sem
open Idealize.ShloMosaic.ValueIdx
open Idealize.ShloMosaic.Pipeline (Dat)

variable {F : FTy → Type} [FloatOps F]
variable (V : (c : Dev nD) → (b : Ref sig .tc) → Buf (Elt F) ((c : Thread nD τ).loc b))

/-- The corner of every access of the body is the origin. -/
theorem corner_zero : (![0, 0] : Fin 2 → Nat) = fun _ => 0 := funext fun a => by fin_cases a <;> rfl

/-- Every feature of an edge's row times that edge's weight: the weights a column `[E, 1]`, the rows `[E, 64]`. -/
abbrev edgeScale (v : S2400256x1.Idx → Elt F .f32) (g : S2400256x64.Idx → Elt F .f32) : S2400256x64.Idx → Elt F .f32 :=
  fun i => FloatOps.mulf (v (ix2 (⟨(i 0).val, idx2_lt0 i⟩ : Fin 2400256) (0 : Fin 1))) (g i)

/-- The body's stored value at row `p`, lane `q` of the block: the block's weight in row `p` times the loaded entry. -/
theorem payload_apply (x0 : Vec F S8192x1 .f32) (x1 : Vec F S8192x64 .f32) (p : Fin 8192) (q : Fin 64) :
    k0_pay1 x0 x1 (ix2 p q) = FloatOps.mulf (x0 (ix2 p (0 : Fin 1))) (x1 (ix2 p q)) := by
  unfold k0_pay1
  simp only [shapeCast_self]
  show FloatOps.mulf (broadcastTo S8192x64 x0 broadcasts_S8192x1_S8192x64 (ix2 p q)) (x1 (ix2 p q)) = _
  rw [Cert.LibColumn.broadcastTo_a1_ab_apply]

/-- Block `t` of each of the three windows is block row `t`, block column `0`. -/
theorem block_index : ∀ t : Fin cfg0.N, win0_0.index t (0 : Fin 2) = win0_2.index t (0 : Fin 2)
    ∧ win0_0.index t (1 : Fin 2) = 0
    ∧ win0_1.index t (0 : Fin 2) = win0_2.index t (0 : Fin 2)
    ∧ win0_1.index t (1 : Fin 2) = win0_2.index t (1 : Fin 2)
    ∧ win0_2.index t (0 : Fin 2) = t.val ∧ win0_2.index t (1 : Fin 2) = 0 :=
  (by decide +kernel : ∀ t : Fin grid0.N, _)

/-- What block `t` writes back is block `t` of the scaled rows. -/
theorem flushed_eq (c : Dev nD) (t : Fin cfg0.N) :
    (dat0 V c).flushed 2 t = ((cfg0.win 2).blk t).view.read (Elt F) (edgeScale (V c main_v3) (V c main_v11)) := by
  show (cfg0.win 2).cut (grid0.coords t) ((dat0 V c).after 2 t) = _
  rw [after0_2]
  unfold out0_2
  rw [View.canon_unit_zero corner_zero]
  simp only [View.ld_unit_zero (S := S8192x1) corner_zero, View.ld_unit_zero (S := S8192x64) corner_zero]
  obtain ⟨e0, e1, e2, e3, e4, e5⟩ := block_index t
  funext j
  obtain ⟨p, q, rfl⟩ : ∃ (p : Fin 8192) (q : Fin 64), j = ix2 p q := ⟨j 0, j 1, eq_ix2 j⟩
  show k0_pay1 (iblk0 V c 0 t) (iblk0 V c 1 t) (ix2 p q) = _
  rw [payload_apply]
  show FloatOps.mulf (V c main_v3 (((cfg0.win 0).blk t).view.emb (ix2 p (0 : Fin 1))))
      (V c main_v11 (((cfg0.win 1).blk t).view.emb (ix2 p q)))
    = FloatOps.mulf (V c main_v3 (ix2 (⟨((((cfg0.win 2).blk t).view.emb (ix2 p q)) 0).val, idx2_lt0 _⟩ : Fin 2400256) (0 : Fin 1)))
      (V c main_v11 (((cfg0.win 2).blk t).view.emb (ix2 p q)))
  have h0 : ((cfg0.win 0).blk t).view.emb (ix2 p (0 : Fin 1))
      = ix2 (⟨((((cfg0.win 2).blk t).view.emb (ix2 p q)) 0).val, idx2_lt0 _⟩ : Fin 2400256) (0 : Fin 1) := by
    funext a; apply Fin.ext
    match a with
    | ⟨0, _⟩ => show win0_0.index t (0 : Fin 2) * 8192 + 1 * p.val = win0_2.index t (0 : Fin 2) * 8192 + 1 * p.val; omega
    | ⟨1, _⟩ => show win0_0.index t (1 : Fin 2) * 1 + 1 * 0 = 0; omega
  have h1 : ((cfg0.win 1).blk t).view.emb (ix2 p q) = ((cfg0.win 2).blk t).view.emb (ix2 p q) := by
    funext a; apply Fin.ext
    match a with
    | ⟨0, _⟩ => show win0_1.index t (0 : Fin 2) * 8192 + 1 * p.val = win0_2.index t (0 : Fin 2) * 8192 + 1 * p.val; omega
    | ⟨1, _⟩ => show win0_1.index t (1 : Fin 2) * 64 + 1 * q.val = win0_2.index t (1 : Fin 2) * 64 + 1 * q.val; omega
  rw [h0, h1]

/-- An index of the edge array lies in block `t` iff each coordinate lies in the block's range on its axis. -/
theorem mem_block (t : Fin cfg0.N) (i : S2400256x64.Idx) :
    i ∈ ((cfg0.win 2).blk t).view.set ↔ ∀ a : Fin 2, win0_2.index t a * S8192x64.size a ≤ (i a).val
      ∧ (i a).val < win0_2.index t a * S8192x64.size a + S8192x64.size a := by
  show i ∈ ((View.whole main_v12).slice (win0_2.rect t)).set ↔ _
  rw [View.set_slice_whole, Rect.mem_set_unit]
  exact Iff.rfl

/-- Edge `e` lies in block `e / 8192`: the blocks tile the edge axis. -/
theorem cover (i : S2400256x64.Idx) :
    ∃ t : Fin cfg0.N, (cfg0.win 2).flush t = true ∧ i ∈ ((cfg0.win 2).blk t).view.set := by
  have hi0 : (i 0).val < 2400256 := (i 0).isLt
  have hi1 : (i 1).val < 64 := (i 1).isLt
  have hN : (i 0).val / 8192 < cfg0.N := by show _ < grid0.N; rw [N_0]; omega
  obtain ⟨e0, e1, e2, e3, e4, e5⟩ := block_index ⟨(i 0).val / 8192, hN⟩
  refine ⟨⟨(i 0).val / 8192, hN⟩, flush0_2 _, ?_⟩
  rw [mem_block]
  intro a
  match a with
  | ⟨0, _⟩ =>
    show win0_2.index ⟨(i 0).val / 8192, hN⟩ (0 : Fin 2) * 8192 ≤ (i 0).val
      ∧ (i 0).val < win0_2.index ⟨(i 0).val / 8192, hN⟩ (0 : Fin 2) * 8192 + 8192
    rw [e4]; show (i 0).val / 8192 * 8192 ≤ (i 0).val ∧ (i 0).val < (i 0).val / 8192 * 8192 + 8192; omega
  | ⟨1, _⟩ =>
    show win0_2.index ⟨(i 0).val / 8192, hN⟩ (1 : Fin 2) * 64 ≤ (i 1).val
      ∧ (i 1).val < win0_2.index ⟨(i 0).val / 8192, hN⟩ (1 : Fin 2) * 64 + 64
    rw [e5]; omega

/-- THE RESULT ARRAY after the launch: every gathered row scaled by its edge's weight, over the operands as the
    launch found them. -/
theorem final (c : Dev nD) : (dat0 V c).arrAt 2 cfg0.N = edgeScale (V c main_v3) (V c main_v11) :=
  (dat0 V c).arrAt_eq_of_cover 2 _ (fun t _ => flushed_eq V c t) (cover)

end Cert.KernelIdeal.Scale0

end
-- ==== Proof.Tables.lean ====
/-
  The kernel's tables, named, and what the first launch finds.

  Before its first launch the kernel pads the three edge arrays with 256 zeros (row numbers, column numbers, weights),
  lays the weights out as a column, joins the two embedding tables into the node table, moves negative column numbers
  up by the table's length and gathers the node table's rows at the column numbers.  Each of these is named here as a
  function of the five argument arrays, and the first launch's entry contents are read back as those functions.
  One layer is then: gather at the column numbers, scale every gathered row by its edge's weight, scatter into zeros
  at the row numbers.
-/
import proofs.«124646_j1812476199038_1_alg».proof.Proof.Gen.KernelIdeal.Frame
import proofs.«124646_j1812476199038_1_alg».proof.Proof.Scale0

set_option maxRecDepth 16384

noncomputable section

namespace Cert.KernelIdeal.Tables

open Cert.KernelIdeal Cert.KernelIdeal.Gen Idealize.ShloMosaic Idealize.ShloMosaic.TcCoe Idealize.SL.Sem
open Idealize.ShloMosaic.StableHlo

variable {F : FTy → Type} [FloatOps F]

/-- An edge array of integers padded with 256 zeros. -/
def padI (a : (⟨S2400000, .i32⟩ : BufTy).Contents (Elt F)) : (⟨S2400256, .i32⟩ : BufTy).Contents (Elt F) :=
  pad S2400256 ![0] ![256] ![0] a (id (constantI S_ 32 0#32 : (⟨S_, .i32⟩ : BufTy).Contents (Elt F)))
    pads_S2400000_S2400256_02560 h_S_

/-- The edge weights padded with 256 zeros (the integer zero converted). -/
def padW (a : (⟨S2400000, .f32⟩ : BufTy).Contents (Elt F)) : (⟨S2400256, .f32⟩ : BufTy).Contents (Elt F) :=
  pad S2400256 ![0] ![256] ![0] a (sitofp .f32 (constantI S_ 32 0#32) : (⟨S_, .f32⟩ : BufTy).Contents (Elt F))
    pads_S2400000_S2400256_02560 h_S_

/-- The padded weights as a column. -/
def weights (a2 : (⟨S2400000, .f32⟩ : BufTy).Contents (Elt F)) : (⟨S2400256x1, .f32⟩ : BufTy).Contents (Elt F) :=
  broadcastInDim S2400256x1 ![0] bcast_S2400256_S2400256x1_0 (padW a2)

/-- The node table: the two embedding tables one above the other. -/
def nodeTable (a0 : (⟨S50000x64, .f32⟩ : BufTy).Contents (Elt F)) (a1 : (⟨S100000x64, .f32⟩ : BufTy).Contents (Elt F)) :
    (⟨S150000x64, .f32⟩ : BufTy).Contents (Elt F) :=
  concatenate S150000x64 0 [⟨S50000x64, a0⟩, ⟨S100000x64, a1⟩] concatenates_S50000x64_S100000x64_S150000x64_d0

/-- The column numbers as the gather's start indices: padded, a negative one moved up by the table's length, a column. -/
def gatherIdx (p : (⟨S2400256, .i32⟩ : BufTy).Contents (Elt F)) : (⟨S2400256x1, .i32⟩ : BufTy).Contents (Elt F) :=
  broadcastInDim S2400256x1 ![0] bcast_S2400256_S2400256x1_0
    (select (cmpi .slt p (broadcastInDim S2400256 ![] bcast_S_S2400256 (constantI S_ 32 0#32)))
      (addi p (broadcastInDim S2400256 ![] bcast_S_S2400256 (constantI S_ 32 150000#32))) p)

/-- The rows of a node table at the column numbers. -/
def gathered (p : (⟨S2400256, .i32⟩ : BufTy).Contents (Elt F)) (x : (⟨S150000x64, .f32⟩ : BufTy).Contents (Elt F)) :
    (⟨S2400256x64, .f32⟩ : BufTy).Contents (Elt F) :=
  Host.gather gather_S150000x64_S2400256x1_S2400256x64_1_0_n_n_0_1_164 x (gatherIdx p)

/-- The update rows scattered into a table of zeros at the row numbers. -/
def scattered (r : (⟨S2400256, .i32⟩ : BufTy).Contents (Elt F)) (u : (⟨S2400256x64, .f32⟩ : BufTy).Contents (Elt F)) :
    (⟨S150000x64, .f32⟩ : BufTy).Contents (Elt F) :=
  Host.scatterAdd scatter_S150000x64_S2400256x1_S2400256x64_1_0_0_1
    (broadcastInDim S150000x64 ![] bcast_S_S150000x64 (constant S_ .f32 0x00000000#32))
    (broadcastInDim S2400256x1 ![0] bcast_S2400256_S2400256x1_0 r) u

variable (m : (ℓ : Loc nD τ sig) → Buf (Elt F) ℓ) (ρ : Dev nD → PrngReg)

/-- The launch memory at the five arguments. -/
abbrev arg0 (c : Dev nD) : (⟨S50000x64, .f32⟩ : BufTy).Contents (Elt F) := W0 m ρ c (Proc.devRef .tc main_arg0)
abbrev arg1 (c : Dev nD) : (⟨S100000x64, .f32⟩ : BufTy).Contents (Elt F) := W0 m ρ c (Proc.devRef .tc main_arg1)
abbrev arg2 (c : Dev nD) : (⟨S2400000, .f32⟩ : BufTy).Contents (Elt F) := W0 m ρ c (Proc.devRef .tc main_arg2)
abbrev arg3 (c : Dev nD) : (⟨S2400000, .i32⟩ : BufTy).Contents (Elt F) := W0 m ρ c (Proc.devRef .tc main_arg3)
abbrev arg4 (c : Dev nD) : (⟨S2400000, .i32⟩ : BufTy).Contents (Elt F) := W0 m ρ c (Proc.devRef .tc main_arg4)

/-! ## What the first launch finds -/

set_option maxHeartbeats 4000000 in
/-- The padded row numbers. -/
theorem entry_rows (c : Dev nD) : W7 m ρ c (Proc.devRef .tc main_v0) = padI (arg3 m ρ c) := by
  show StableHlo.after hostOps0_6 (W6 m ρ c) (Proc.devRef .tc main_v0) = _
  simp only [hostOps0_6]
  after_results
  rfl

set_option maxHeartbeats 4000000 in
/-- The padded column numbers. -/
theorem entry_cols (c : Dev nD) : W7 m ρ c (Proc.devRef .tc main_v1) = padI (arg4 m ρ c) := by
  show StableHlo.after hostOps0_6 (W6 m ρ c) (Proc.devRef .tc main_v1) = _
  simp only [hostOps0_6]
  after_results
  rfl

set_option maxHeartbeats 4000000 in
/-- The weights as a column. -/
theorem entry_weights (c : Dev nD) : W7 m ρ c (Proc.devRef .tc main_v3) = weights (arg2 m ρ c) := by
  show StableHlo.after hostOps0_6 (W6 m ρ c) (Proc.devRef .tc main_v3) = _
  simp only [hostOps0_6]
  after_results
  rfl

set_option maxHeartbeats 4000000 in
/-- The node table. -/
theorem entry_table (c : Dev nD) : W7 m ρ c (Proc.devRef .tc main_v4) = nodeTable (arg0 m ρ c) (arg1 m ρ c) := by
  show StableHlo.after hostOps0_6 (W6 m ρ c) (Proc.devRef .tc main_v4) = _
  simp only [hostOps0_6]
  after_results
  rfl

set_option maxHeartbeats 8000000 in
/-- The node table's rows at the column numbers. -/
theorem entry_gathered (c : Dev nD) :
    W7 m ρ c (Proc.devRef .tc main_v11) = gathered (padI (arg4 m ρ c)) (nodeTable (arg0 m ρ c) (arg1 m ρ c)) := by
  show StableHlo.after hostOps0_6 (W6 m ρ c) (Proc.devRef .tc main_v11) = _
  simp only [hostOps0_6]
  after_results
  rfl

end Cert.KernelIdeal.Tables

end
-- ==== Proof.Scale2.lean ====
/-
  The second edge scale, read as one array.

  The launch walks the 2400256 padded edges in 293 blocks of 8192 edges; at block `t` it loads the block's column of
  edge weights (one weight per edge) and the block's 8192 gathered rows of 64 features, multiplies every feature of an
  edge's row by that edge's weight and writes the block back.  The 293 blocks tile the edge axis, so after the launch
  the result array holds, at edge `e` and feature `f`, the weight of edge `e` times the gathered entry `(e, f)` —
  whatever the two operands held when the launch was entered.
-/
import proofs.«124646_j1812476199038_1_alg».proof.Proof.Gen.KernelIdeal.Frame
import proofs.«124646_j1812476199038_1_alg».proof.Proof.LibColumn
import Idealize.ShloMosaic.Lib.Pipeline.Value
import Idealize.ShloMosaic.Lib.ValueIdx

set_option maxRecDepth 16384

noncomputable section

namespace Cert.KernelIdeal.Scale2

open Cert.KernelIdeal Cert.KernelIdeal.Gen Idealize.ShloMosaic Idealize.ShloMosaic.TcCoe Idealize.SL.Sem
open Idealize.ShloMosaic.ValueIdx
open Idealize.ShloMosaic.Pipeline (Dat)

variable {F : FTy → Type} [FloatOps F]
variable (V : (c : Dev nD) → (b : Ref sig .tc) → Buf (Elt F) ((c : Thread nD τ).loc b))

/-- The corner of every access of the body is the origin. -/
theorem corner_zero : (![0, 0] : Fin 2 → Nat) = fun _ => 0 := funext fun a => by fin_cases a <;> rfl

/-- Every feature of an edge's row times that edge's weight: the weights a column `[E, 1]`, the rows `[E, 64]`. -/
abbrev edgeScale (v : S2400256x1.Idx → Elt F .f32) (g : S2400256x64.Idx → Elt F .f32) : S2400256x64.Idx → Elt F .f32 :=
  fun i => FloatOps.mulf (v (ix2 (⟨(i 0).val, idx2_lt0 i⟩ : Fin 2400256) (0 : Fin 1))) (g i)

/-- The body's stored value at row `p`, lane `q` of the block: the block's weight in row `p` times the loaded entry. -/
theorem payload_apply (x0 : Vec F S8192x1 .f32) (x1 : Vec F S8192x64 .f32) (p : Fin 8192) (q : Fin 64) :
    k2_pay1 x0 x1 (ix2 p q) = FloatOps.mulf (x0 (ix2 p (0 : Fin 1))) (x1 (ix2 p q)) := by
  unfold k2_pay1
  simp only [shapeCast_self]
  show FloatOps.mulf (broadcastTo S8192x64 x0 broadcasts_S8192x1_S8192x64 (ix2 p q)) (x1 (ix2 p q)) = _
  rw [Cert.LibColumn.broadcastTo_a1_ab_apply]

/-- Block `t` of each of the three windows is block row `t`, block column `0`. -/
theorem block_index : ∀ t : Fin cfg2.N, win2_0.index t (0 : Fin 2) = win2_2.index t (0 : Fin 2)
    ∧ win2_0.index t (1 : Fin 2) = 0
    ∧ win2_1.index t (0 : Fin 2) = win2_2.index t (0 : Fin 2)
    ∧ win2_1.index t (1 : Fin 2) = win2_2.index t (1 : Fin 2)
    ∧ win2_2.index t (0 : Fin 2) = t.val ∧ win2_2.index t (1 : Fin 2) = 0 :=
  (by decide +kernel : ∀ t : Fin grid2.N, _)

/-- What block `t` writes back is block `t` of the scaled rows. -/
theorem flushed_eq (c : Dev nD) (t : Fin cfg2.N) :
    (dat2 V c).flushed 2 t = ((cfg2.win 2).blk t).view.read (Elt F) (edgeScale (V c main_v3) (V c main_v23)) := by
  show (cfg2.win 2).cut (grid2.coords t) ((dat2 V c).after 2 t) = _
  rw [after2_2]
  unfold out2_2
  rw [View.canon_unit_zero corner_zero]
  simp only [View.ld_unit_zero (S := S8192x1) corner_zero, View.ld_unit_zero (S := S8192x64) corner_zero]
  obtain ⟨e0, e1, e2, e3, e4, e5⟩ := block_index t
  funext j
  obtain ⟨p, q, rfl⟩ : ∃ (p : Fin 8192) (q : Fin 64), j = ix2 p q := ⟨j 0, j 1, eq_ix2 j⟩
  show k2_pay1 (iblk2 V c 0 t) (iblk2 V c 1 t) (ix2 p q) = _
  rw [payload_apply]
  show FloatOps.mulf (V c main_v3 (((cfg2.win 0).blk t).view.emb (ix2 p (0 : Fin 1))))
      (V c main_v23 (((cfg2.win 1).blk t).view.emb (ix2 p q)))
    = FloatOps.mulf (V c main_v3 (ix2 (⟨((((cfg2.win 2).blk t).view.emb (ix2 p q)) 0).val, idx2_lt0 _⟩ : Fin 2400256) (0 : Fin 1)))
      (V c main_v23 (((cfg2.win 2).blk t).view.emb (ix2 p q)))
  have h0 : ((cfg2.win 0).blk t).view.emb (ix2 p (0 : Fin 1))
      = ix2 (⟨((((cfg2.win 2).blk t).view.emb (ix2 p q)) 0).val, idx2_lt0 _⟩ : Fin 2400256) (0 : Fin 1) := by
    funext a; apply Fin.ext
    match a with
    | ⟨0, _⟩ => show win2_0.index t (0 : Fin 2) * 8192 + 1 * p.val = win2_2.index t (0 : Fin 2) * 8192 + 1 * p.val; omega
    | ⟨1, _⟩ => show win2_0.index t (1 : Fin 2) * 1 + 1 * 0 = 0; omega
  have h1 : ((cfg2.win 1).blk t).view.emb (ix2 p q) = ((cfg2.win 2).blk t).view.emb (ix2 p q) := by
    funext a; apply Fin.ext
    match a with
    | ⟨0, _⟩ => show win2_1.index t (0 : Fin 2) * 8192 + 1 * p.val = win2_2.index t (0 : Fin 2) * 8192 + 1 * p.val; omega
    | ⟨1, _⟩ => show win2_1.index t (1 : Fin 2) * 64 + 1 * q.val = win2_2.index t (1 : Fin 2) * 64 + 1 * q.val; omega
  rw [h0, h1]

/-- An index of the edge array lies in block `t` iff each coordinate lies in the block's range on its axis. -/
theorem mem_block (t : Fin cfg2.N) (i : S2400256x64.Idx) :
    i ∈ ((cfg2.win 2).blk t).view.set ↔ ∀ a : Fin 2, win2_2.index t a * S8192x64.size a ≤ (i a).val
      ∧ (i a).val < win2_2.index t a * S8192x64.size a + S8192x64.size a := by
  show i ∈ ((View.whole main_v24).slice (win2_2.rect t)).set ↔ _
  rw [View.set_slice_whole, Rect.mem_set_unit]
  exact Iff.rfl

/-- Edge `e` lies in block `e / 8192`: the blocks tile the edge axis. -/
theorem cover (i : S2400256x64.Idx) :
    ∃ t : Fin cfg2.N, (cfg2.win 2).flush t = true ∧ i ∈ ((cfg2.win 2).blk t).view.set := by
  have hi0 : (i 0).val < 2400256 := (i 0).isLt
  have hi1 : (i 1).val < 64 := (i 1).isLt
  have hN : (i 0).val / 8192 < cfg2.N := by show _ < grid2.N; rw [N_2]; omega
  obtain ⟨e0, e1, e2, e3, e4, e5⟩ := block_index ⟨(i 0).val / 8192, hN⟩
  refine ⟨⟨(i 0).val / 8192, hN⟩, flush2_2 _, ?_⟩
  rw [mem_block]
  intro a
  match a with
  | ⟨0, _⟩ =>
    show win2_2.index ⟨(i 0).val / 8192, hN⟩ (0 : Fin 2) * 8192 ≤ (i 0).val
      ∧ (i 0).val < win2_2.index ⟨(i 0).val / 8192, hN⟩ (0 : Fin 2) * 8192 + 8192
    rw [e4]; show (i 0).val / 8192 * 8192 ≤ (i 0).val ∧ (i 0).val < (i 0).val / 8192 * 8192 + 8192; omega
  | ⟨1, _⟩ =>
    show win2_2.index ⟨(i 0).val / 8192, hN⟩ (1 : Fin 2) * 64 ≤ (i 1).val
      ∧ (i 1).val < win2_2.index ⟨(i 0).val / 8192, hN⟩ (1 : Fin 2) * 64 + 64
    rw [e5]; omega

/-- THE RESULT ARRAY after the launch: every gathered row scaled by its edge's weight, over the operands as the
    launch found them. -/
theorem final (c : Dev nD) : (dat2 V c).arrAt 2 cfg2.N = edgeScale (V c main_v3) (V c main_v23) :=
  (dat2 V c).arrAt_eq_of_cover 2 _ (fun t _ => flushed_eq V c t) (cover)

end Cert.KernelIdeal.Scale2

end
-- ==== Proof.Scale4.lean ====
/-
  The third edge scale, read as one array.

  The launch walks the 2400256 padded edges in 293 blocks of 8192 edges; at block `t` it loads the block's column of
  edge weights (one weight per edge) and the block's 8192 gathered rows of 64 features, multiplies every feature of an
  edge's row by that edge's weight and writes the block back.  The 293 blocks tile the edge axis, so after the launch
  the result array holds, at edge `e` and feature `f`, the weight of edge `e` times the gathered entry `(e, f)` —
  whatever the two operands held when the launch was entered.
-/
import proofs.«124646_j1812476199038_1_alg».proof.Proof.Gen.KernelIdeal.Frame
import proofs.«124646_j1812476199038_1_alg».proof.Proof.LibColumn
import Idealize.ShloMosaic.Lib.Pipeline.Value
import Idealize.ShloMosaic.Lib.ValueIdx

set_option maxRecDepth 16384

noncomputable section

namespace Cert.KernelIdeal.Scale4

open Cert.KernelIdeal Cert.KernelIdeal.Gen Idealize.ShloMosaic Idealize.ShloMosaic.TcCoe Idealize.SL.Sem
open Idealize.ShloMosaic.ValueIdx
open Idealize.ShloMosaic.Pipeline (Dat)

variable {F : FTy → Type} [FloatOps F]
variable (V : (c : Dev nD) → (b : Ref sig .tc) → Buf (Elt F) ((c : Thread nD τ).loc b))

/-- The corner of every access of the body is the origin. -/
theorem corner_zero : (![0, 0] : Fin 2 → Nat) = fun _ => 0 := funext fun a => by fin_cases a <;> rfl

/-- Every feature of an edge's row times that edge's weight: the weights a column `[E, 1]`, the rows `[E, 64]`. -/
abbrev edgeScale (v : S2400256x1.Idx → Elt F .f32) (g : S2400256x64.Idx → Elt F .f32) : S2400256x64.Idx → Elt F .f32 :=
  fun i => FloatOps.mulf (v (ix2 (⟨(i 0).val, idx2_lt0 i⟩ : Fin 2400256) (0 : Fin 1))) (g i)

/-- The body's stored value at row `p`, lane `q` of the block: the block's weight in row `p` times the loaded entry. -/
theorem payload_apply (x0 : Vec F S8192x1 .f32) (x1 : Vec F S8192x64 .f32) (p : Fin 8192) (q : Fin 64) :
    k4_pay1 x0 x1 (ix2 p q) = FloatOps.mulf (x0 (ix2 p (0 : Fin 1))) (x1 (ix2 p q)) := by
  unfold k4_pay1
  simp only [shapeCast_self]
  show FloatOps.mulf (broadcastTo S8192x64 x0 broadcasts_S8192x1_S8192x64 (ix2 p q)) (x1 (ix2 p q)) = _
  rw [Cert.LibColumn.broadcastTo_a1_ab_apply]

/-- Block `t` of each of the three windows is block row `t`, block column `0`. -/
theorem block_index : ∀ t : Fin cfg4.N, win4_0.index t (0 : Fin 2) = win4_2.index t (0 : Fin 2)
    ∧ win4_0.index t (1 : Fin 2) = 0
    ∧ win4_1.index t (0 : Fin 2) = win4_2.index t (0 : Fin 2)
    ∧ win4_1.index t (1 : Fin 2) = win4_2.index t (1 : Fin 2)
    ∧ win4_2.index t (0 : Fin 2) = t.val ∧ win4_2.index t (1 : Fin 2) = 0 :=
  (by decide +kernel : ∀ t : Fin grid4.N, _)

/-- What block `t` writes back is block `t` of the scaled rows. -/
theorem flushed_eq (c : Dev nD) (t : Fin cfg4.N) :
    (dat4 V c).flushed 2 t = ((cfg4.win 2).blk t).view.read (Elt F) (edgeScale (V c main_v3) (V c main_v35)) := by
  show (cfg4.win 2).cut (grid4.coords t) ((dat4 V c).after 2 t) = _
  rw [after4_2]
  unfold out4_2
  rw [View.canon_unit_zero corner_zero]
  simp only [View.ld_unit_zero (S := S8192x1) corner_zero, View.ld_unit_zero (S := S8192x64) corner_zero]
  obtain ⟨e0, e1, e2, e3, e4, e5⟩ := block_index t
  funext j
  obtain ⟨p, q, rfl⟩ : ∃ (p : Fin 8192) (q : Fin 64), j = ix2 p q := ⟨j 0, j 1, eq_ix2 j⟩
  show k4_pay1 (iblk4 V c 0 t) (iblk4 V c 1 t) (ix2 p q) = _
  rw [payload_apply]
  show FloatOps.mulf (V c main_v3 (((cfg4.win 0).blk t).view.emb (ix2 p (0 : Fin 1))))
      (V c main_v35 (((cfg4.win 1).blk t).view.emb (ix2 p q)))
    = FloatOps.mulf (V c main_v3 (ix2 (⟨((((cfg4.win 2).blk t).view.emb (ix2 p q)) 0).val, idx2_lt0 _⟩ : Fin 2400256) (0 : Fin 1)))
      (V c main_v35 (((cfg4.win 2).blk t).view.emb (ix2 p q)))
  have h0 : ((cfg4.win 0).blk t).view.emb (ix2 p (0 : Fin 1))
      = ix2 (⟨((((cfg4.win 2).blk t).view.emb (ix2 p q)) 0).val, idx2_lt0 _⟩ : Fin 2400256) (0 : Fin 1) := by
    funext a; apply Fin.ext
    match a with
    | ⟨0, _⟩ => show win4_0.index t (0 : Fin 2) * 8192 + 1 * p.val = win4_2.index t (0 : Fin 2) * 8192 + 1 * p.val; omega
    | ⟨1, _⟩ => show win4_0.index t (1 : Fin 2) * 1 + 1 * 0 = 0; omega
  have h1 : ((cfg4.win 1).blk t).view.emb (ix2 p q) = ((cfg4.win 2).blk t).view.emb (ix2 p q) := by
    funext a; apply Fin.ext
    match a with
    | ⟨0, _⟩ => show win4_1.index t (0 : Fin 2) * 8192 + 1 * p.val = win4_2.index t (0 : Fin 2) * 8192 + 1 * p.val; omega
    | ⟨1, _⟩ => show win4_1.index t (1 : Fin 2) * 64 + 1 * q.val = win4_2.index t (1 : Fin 2) * 64 + 1 * q.val; omega
  rw [h0, h1]

/-- An index of the edge array lies in block `t` iff each coordinate lies in the block's range on its axis. -/
theorem mem_block (t : Fin cfg4.N) (i : S2400256x64.Idx) :
    i ∈ ((cfg4.win 2).blk t).view.set ↔ ∀ a : Fin 2, win4_2.index t a * S8192x64.size a ≤ (i a).val
      ∧ (i a).val < win4_2.index t a * S8192x64.size a + S8192x64.size a := by
  show i ∈ ((View.whole main_v36).slice (win4_2.rect t)).set ↔ _
  rw [View.set_slice_whole, Rect.mem_set_unit]
  exact Iff.rfl

/-- Edge `e` lies in block `e / 8192`: the blocks tile the edge axis. -/
theorem cover (i : S2400256x64.Idx) :
    ∃ t : Fin cfg4.N, (cfg4.win 2).flush t = true ∧ i ∈ ((cfg4.win 2).blk t).view.set := by
  have hi0 : (i 0).val < 2400256 := (i 0).isLt
  have hi1 : (i 1).val < 64 := (i 1).isLt
  have hN : (i 0).val / 8192 < cfg4.N := by show _ < grid4.N; rw [N_4]; omega
  obtain ⟨e0, e1, e2, e3, e4, e5⟩ := block_index ⟨(i 0).val / 8192, hN⟩
  refine ⟨⟨(i 0).val / 8192, hN⟩, flush4_2 _, ?_⟩
  rw [mem_block]
  intro a
  match a with
  | ⟨0, _⟩ =>
    show win4_2.index ⟨(i 0).val / 8192, hN⟩ (0 : Fin 2) * 8192 ≤ (i 0).val
      ∧ (i 0).val < win4_2.index ⟨(i 0).val / 8192, hN⟩ (0 : Fin 2) * 8192 + 8192
    rw [e4]; show (i 0).val / 8192 * 8192 ≤ (i 0).val ∧ (i 0).val < (i 0).val / 8192 * 8192 + 8192; omega
  | ⟨1, _⟩ =>
    show win4_2.index ⟨(i 0).val / 8192, hN⟩ (1 : Fin 2) * 64 ≤ (i 1).val
      ∧ (i 1).val < win4_2.index ⟨(i 0).val / 8192, hN⟩ (1 : Fin 2) * 64 + 64
    rw [e5]; omega

/-- THE RESULT ARRAY after the launch: every gathered row scaled by its edge's weight, over the operands as the
    launch found them. -/
theorem final (c : Dev nD) : (dat4 V c).arrAt 2 cfg4.N = edgeScale (V c main_v3) (V c main_v35) :=
  (dat4 V c).arrAt_eq_of_cover 2 _ (fun t _ => flushed_eq V c t) (cover)

end Cert.KernelIdeal.Scale4

end
-- ==== Proof.Accumulate1.lean ====
/-
  The first node-table accumulate, read as one array.

  The launch walks the 150000 rows of the table in 25 blocks of 6000 rows; at block `t` it loads rows
  `6000·t … 6000·t + 5999` of both operands, adds them entry by entry and writes the block back to the same rows
  of the result.  The 25 blocks tile the table, so after the launch the result array is, at every index, the sum
  of the two operand arrays at that index — whatever the operands held when the launch was entered.
-/
import proofs.«124646_j1812476199038_1_alg».proof.Proof.Gen.KernelIdeal.Frame
import Idealize.ShloMosaic.Lib.Pipeline.Value

set_option maxRecDepth 16384

noncomputable section

namespace Cert.KernelIdeal.Accumulate1

open Cert.KernelIdeal Cert.KernelIdeal.Gen Idealize.ShloMosaic Idealize.ShloMosaic.TcCoe Idealize.SL.Sem
open Idealize.ShloMosaic.Pipeline (Dat)

variable {F : FTy → Type} [FloatOps F]
variable (V : (c : Dev nD) → (b : Ref sig .tc) → Buf (Elt F) ((c : Thread nD τ).loc b))

/-- The corner of every access of the body is the origin. -/
theorem corner_zero : (![0, 0] : Fin 2 → Nat) = fun _ => 0 := funext fun a => by fin_cases a <;> rfl

/-- The entrywise sum of two node tables. -/
abbrev tableSum (a b : S150000x64.Idx → Elt F .f32) : S150000x64.Idx → Elt F .f32 := fun i => FloatOps.addf (a i) (b i)

/-- The body stores the entrywise sum of its two loaded blocks. -/
theorem payload_eq (x0 x1 : Vec F S6000x64 .f32) : k1_pay1 x0 x1 = addf x0 x1 := by
  unfold k1_pay1
  simp only [shapeCast_self]

/-- Block `t` of each of the three windows is block row `t`, block column `0`. -/
theorem block_index : ∀ t : Fin cfg1.N, win1_0.index t (0 : Fin 2) = win1_2.index t (0 : Fin 2)
    ∧ win1_0.index t (1 : Fin 2) = win1_2.index t (1 : Fin 2)
    ∧ win1_1.index t (0 : Fin 2) = win1_2.index t (0 : Fin 2)
    ∧ win1_1.index t (1 : Fin 2) = win1_2.index t (1 : Fin 2)
    ∧ win1_2.index t (0 : Fin 2) = t.val ∧ win1_2.index t (1 : Fin 2) = 0 :=
  (by decide +kernel : ∀ t : Fin grid1.N, _)

/-- What block `t` writes back is block `t` of the sum of the two operand arrays. -/
theorem flushed_eq (c : Dev nD) (t : Fin cfg1.N) :
    (dat1 V c).flushed 2 t = ((cfg1.win 2).blk t).view.read (Elt F) (tableSum (V c main_v4) (V c main_v15)) := by
  show (cfg1.win 2).cut (grid1.coords t) ((dat1 V c).after 2 t) = _
  rw [after1_2]
  unfold out1_2
  rw [View.canon_unit_zero corner_zero]
  simp only [View.ld_unit_zero (S := S6000x64) corner_zero]
  rw [payload_eq]
  obtain ⟨e0, e1, e2, e3, e4, e5⟩ := block_index t
  funext j
  show FloatOps.addf (V c main_v4 (((cfg1.win 0).blk t).view.emb j)) (V c main_v15 (((cfg1.win 1).blk t).view.emb j))
    = FloatOps.addf (V c main_v4 (((cfg1.win 2).blk t).view.emb j)) (V c main_v15 (((cfg1.win 2).blk t).view.emb j))
  have h0 : ((cfg1.win 0).blk t).view.emb j = ((cfg1.win 2).blk t).view.emb j := by
    funext a; apply Fin.ext
    match a with
    | ⟨0, _⟩ => show win1_0.index t (0 : Fin 2) * 6000 + 1 * (j 0).val = win1_2.index t (0 : Fin 2) * 6000 + 1 * (j 0).val; omega
    | ⟨1, _⟩ => show win1_0.index t (1 : Fin 2) * 64 + 1 * (j 1).val = win1_2.index t (1 : Fin 2) * 64 + 1 * (j 1).val; omega
  have h1 : ((cfg1.win 1).blk t).view.emb j = ((cfg1.win 2).blk t).view.emb j := by
    funext a; apply Fin.ext
    match a with
    | ⟨0, _⟩ => show win1_1.index t (0 : Fin 2) * 6000 + 1 * (j 0).val = win1_2.index t (0 : Fin 2) * 6000 + 1 * (j 0).val; omega
    | ⟨1, _⟩ => show win1_1.index t (1 : Fin 2) * 64 + 1 * (j 1).val = win1_2.index t (1 : Fin 2) * 64 + 1 * (j 1).val; omega
  rw [h0, h1]

/-- An index of the table lies in block `t` iff each coordinate lies in the block's range on its axis. -/
theorem mem_block (t : Fin cfg1.N) (i : S150000x64.Idx) :
    i ∈ ((cfg1.win 2).blk t).view.set ↔ ∀ a : Fin 2, win1_2.index t a * S6000x64.size a ≤ (i a).val
      ∧ (i a).val < win1_2.index t a * S6000x64.size a + S6000x64.size a := by
  show i ∈ ((View.whole main_v16).slice (win1_2.rect t)).set ↔ _
  rw [View.set_slice_whole, Rect.mem_set_unit]
  exact Iff.rfl

/-- Row `r` of the table lies in block `r / 6000`: the blocks tile the table. -/
theorem cover (i : S150000x64.Idx) :
    ∃ t : Fin cfg1.N, (cfg1.win 2).flush t = true ∧ i ∈ ((cfg1.win 2).blk t).view.set := by
  have hi0 : (i 0).val < 150000 := (i 0).isLt
  have hi1 : (i 1).val < 64 := (i 1).isLt
  have hN : (i 0).val / 6000 < cfg1.N := by show _ < grid1.N; rw [N_1]; omega
  obtain ⟨e0, e1, e2, e3, e4, e5⟩ := block_index ⟨(i 0).val / 6000, hN⟩
  refine ⟨⟨(i 0).val / 6000, hN⟩, flush1_2 _, ?_⟩
  rw [mem_block]
  intro a
  match a with
  | ⟨0, _⟩ =>
    show win1_2.index ⟨(i 0).val / 6000, hN⟩ (0 : Fin 2) * 6000 ≤ (i 0).val
      ∧ (i 0).val < win1_2.index ⟨(i 0).val / 6000, hN⟩ (0 : Fin 2) * 6000 + 6000
    rw [e4]; show (i 0).val / 6000 * 6000 ≤ (i 0).val ∧ (i 0).val < (i 0).val / 6000 * 6000 + 6000; omega
  | ⟨1, _⟩ =>
    show win1_2.index ⟨(i 0).val / 6000, hN⟩ (1 : Fin 2) * 64 ≤ (i 1).val
      ∧ (i 1).val < win1_2.index ⟨(i 0).val / 6000, hN⟩ (1 : Fin 2) * 64 + 64
    rw [e5]; omega

/-- THE RESULT ARRAY after the launch: the entrywise sum of the two operand arrays as the launch found them. -/
theorem final (c : Dev nD) : (dat1 V c).arrAt 2 cfg1.N = tableSum (V c main_v4) (V c main_v15) :=
  (dat1 V c).arrAt_eq_of_cover 2 _ (fun t _ => flushed_eq V c t) (cover)

end Cert.KernelIdeal.Accumulate1

end
-- ==== Proof.Accumulate3.lean ====
/-
  The second node-table accumulate, read as one array.

  The launch walks the 150000 rows of the table in 25 blocks of 6000 rows; at block `t` it loads rows
  `6000·t … 6000·t + 5999` of both operands, adds them entry by entry and writes the block back to the same rows
  of the result.  The 25 blocks tile the table, so after the launch the result array is, at every index, the sum
  of the two operand arrays at that index — whatever the operands held when the launch was entered.
-/
import proofs.«124646_j1812476199038_1_alg».proof.Proof.Gen.KernelIdeal.Frame
import Idealize.ShloMosaic.Lib.Pipeline.Value

set_option maxRecDepth 16384

noncomputable section

namespace Cert.KernelIdeal.Accumulate3

open Cert.KernelIdeal Cert.KernelIdeal.Gen Idealize.ShloMosaic Idealize.ShloMosaic.TcCoe Idealize.SL.Sem
open Idealize.ShloMosaic.Pipeline (Dat)

variable {F : FTy → Type} [FloatOps F]
variable (V : (c : Dev nD) → (b : Ref sig .tc) → Buf (Elt F) ((c : Thread nD τ).loc b))

/-- The corner of every access of the body is the origin. -/
theorem corner_zero : (![0, 0] : Fin 2 → Nat) = fun _ => 0 := funext fun a => by fin_cases a <;> rfl

/-- The entrywise sum of two node tables. -/
abbrev tableSum (a b : S150000x64.Idx → Elt F .f32) : S150000x64.Idx → Elt F .f32 := fun i => FloatOps.addf (a i) (b i)

/-- The body stores the entrywise sum of its two loaded blocks. -/
theorem payload_eq (x0 x1 : Vec F S6000x64 .f32) : k3_pay1 x0 x1 = addf x0 x1 := by
  unfold k3_pay1
  simp only [shapeCast_self]

/-- Block `t` of each of the three windows is block row `t`, block column `0`. -/
theorem block_index : ∀ t : Fin cfg3.N, win3_0.index t (0 : Fin 2) = win3_2.index t (0 : Fin 2)
    ∧ win3_0.index t (1 : Fin 2) = win3_2.index t (1 : Fin 2)
    ∧ win3_1.index t (0 : Fin 2) = win3_2.index t (0 : Fin 2)
    ∧ win3_1.index t (1 : Fin 2) = win3_2.index t (1 : Fin 2)
    ∧ win3_2.index t (0 : Fin 2) = t.val ∧ win3_2.index t (1 : Fin 2) = 0 :=
  (by decide +kernel : ∀ t : Fin grid3.N, _)

/-- What block `t` writes back is block `t` of the sum of the two operand arrays. -/
theorem flushed_eq (c : Dev nD) (t : Fin cfg3.N) :
    (dat3 V c).flushed 2 t = ((cfg3.win 2).blk t).view.read (Elt F) (tableSum (V c main_v16) (V c main_v27)) := by
  show (cfg3.win 2).cut (grid3.coords t) ((dat3 V c).after 2 t) = _
  rw [after3_2]
  unfold out3_2
  rw [View.canon_unit_zero corner_zero]
  simp only [View.ld_unit_zero (S := S6000x64) corner_zero]
  rw [payload_eq]
  obtain ⟨e0, e1, e2, e3, e4, e5⟩ := block_index t
  funext j
  show FloatOps.addf (V c main_v16 (((cfg3.win 0).blk t).view.emb j)) (V c main_v27 (((cfg3.win 1).blk t).view.emb j))
    = FloatOps.addf (V c main_v16 (((cfg3.win 2).blk t).view.emb j)) (V c main_v27 (((cfg3.win 2).blk t).view.emb j))
  have h0 : ((cfg3.win 0).blk t).view.emb j = ((cfg3.win 2).blk t).view.emb j := by
    funext a; apply Fin.ext
    match a with
    | ⟨0, _⟩ => show win3_0.index t (0 : Fin 2) * 6000 + 1 * (j 0).val = win3_2.index t (0 : Fin 2) * 6000 + 1 * (j 0).val; omega
    | ⟨1, _⟩ => show win3_0.index t (1 : Fin 2) * 64 + 1 * (j 1).val = win3_2.index t (1 : Fin 2) * 64 + 1 * (j 1).val; omega
  have h1 : ((cfg3.win 1).blk t).view.emb j = ((cfg3.win 2).blk t).view.emb j := by
    funext a; apply Fin.ext
    match a with
    | ⟨0, _⟩ => show win3_1.index t (0 : Fin 2) * 6000 + 1 * (j 0).val = win3_2.index t (0 : Fin 2) * 6000 + 1 * (j 0).val; omega
    | ⟨1, _⟩ => show win3_1.index t (1 : Fin 2) * 64 + 1 * (j 1).val = win3_2.index t (1 : Fin 2) * 64 + 1 * (j 1).val; omega
  rw [h0, h1]

/-- An index of the table lies in block `t` iff each coordinate lies in the block's range on its axis. -/
theorem mem_block (t : Fin cfg3.N) (i : S150000x64.Idx) :
    i ∈ ((cfg3.win 2).blk t).view.set ↔ ∀ a : Fin 2, win3_2.index t a * S6000x64.size a ≤ (i a).val
      ∧ (i a).val < win3_2.index t a * S6000x64.size a + S6000x64.size a := by
  show i ∈ ((View.whole main_v28).slice (win3_2.rect t)).set ↔ _
  rw [View.set_slice_whole, Rect.mem_set_unit]
  exact Iff.rfl

/-- Row `r` of the table lies in block `r / 6000`: the blocks tile the table. -/
theorem cover (i : S150000x64.Idx) :
    ∃ t : Fin cfg3.N, (cfg3.win 2).flush t = true ∧ i ∈ ((cfg3.win 2).blk t).view.set := by
  have hi0 : (i 0).val < 150000 := (i 0).isLt
  have hi1 : (i 1).val < 64 := (i 1).isLt
  have hN : (i 0).val / 6000 < cfg3.N := by show _ < grid3.N; rw [N_3]; omega
  obtain ⟨e0, e1, e2, e3, e4, e5⟩ := block_index ⟨(i 0).val / 6000, hN⟩
  refine ⟨⟨(i 0).val / 6000, hN⟩, flush3_2 _, ?_⟩
  rw [mem_block]
  intro a
  match a with
  | ⟨0, _⟩ =>
    show win3_2.index ⟨(i 0).val / 6000, hN⟩ (0 : Fin 2) * 6000 ≤ (i 0).val
      ∧ (i 0).val < win3_2.index ⟨(i 0).val / 6000, hN⟩ (0 : Fin 2) * 6000 + 6000
    rw [e4]; show (i 0).val / 6000 * 6000 ≤ (i 0).val ∧ (i 0).val < (i 0).val / 6000 * 6000 + 6000; omega
  | ⟨1, _⟩ =>
    show win3_2.index ⟨(i 0).val / 6000, hN⟩ (1 : Fin 2) * 64 ≤ (i 1).val
      ∧ (i 1).val < win3_2.index ⟨(i 0).val / 6000, hN⟩ (1 : Fin 2) * 64 + 64
    rw [e5]; omega

/-- THE RESULT ARRAY after the launch: the entrywise sum of the two operand arrays as the launch found them. -/
theorem final (c : Dev nD) : (dat3 V c).arrAt 2 cfg3.N = tableSum (V c main_v16) (V c main_v27) :=
  (dat3 V c).arrAt_eq_of_cover 2 _ (fun t _ => flushed_eq V c t) (cover)

end Cert.KernelIdeal.Accumulate3

end
-- ==== Proof.Accumulate5.lean ====
/-
  The third node-table accumulate, read as one array.

  The launch walks the 150000 rows of the table in 25 blocks of 6000 rows; at block `t` it loads rows
  `6000·t … 6000·t + 5999` of both operands, adds them entry by entry and writes the block back to the same rows
  of the result.  The 25 blocks tile the table, so after the launch the result array is, at every index, the sum
  of the two operand arrays at that index — whatever the operands held when the launch was entered.
-/
import proofs.«124646_j1812476199038_1_alg».proof.Proof.Gen.KernelIdeal.Frame
import Idealize.ShloMosaic.Lib.Pipeline.Value

set_option maxRecDepth 16384

noncomputable section

namespace Cert.KernelIdeal.Accumulate5

open Cert.KernelIdeal Cert.KernelIdeal.Gen Idealize.ShloMosaic Idealize.ShloMosaic.TcCoe Idealize.SL.Sem
open Idealize.ShloMosaic.Pipeline (Dat)

variable {F : FTy → Type} [FloatOps F]
variable (V : (c : Dev nD) → (b : Ref sig .tc) → Buf (Elt F) ((c : Thread nD τ).loc b))

/-- The corner of every access of the body is the origin. -/
theorem corner_zero : (![0, 0] : Fin 2 → Nat) = fun _ => 0 := funext fun a => by fin_cases a <;> rfl

/-- The entrywise sum of two node tables. -/
abbrev tableSum (a b : S150000x64.Idx → Elt F .f32) : S150000x64.Idx → Elt F .f32 := fun i => FloatOps.addf (a i) (b i)

/-- The body stores the entrywise sum of its two loaded blocks. -/
theorem payload_eq (x0 x1 : Vec F S6000x64 .f32) : k5_pay1 x0 x1 = addf x0 x1 := by
  unfold k5_pay1
  simp only [shapeCast_self]

/-- Block `t` of each of the three windows is block row `t`, block column `0`. -/
theorem block_index : ∀ t : Fin cfg5.N, win5_0.index t (0 : Fin 2) = win5_2.index t (0 : Fin 2)
    ∧ win5_0.index t (1 : Fin 2) = win5_2.index t (1 : Fin 2)
    ∧ win5_1.index t (0 : Fin 2) = win5_2.index t (0 : Fin 2)
    ∧ win5_1.index t (1 : Fin 2) = win5_2.index t (1 : Fin 2)
    ∧ win5_2.index t (0 : Fin 2) = t.val ∧ win5_2.index t (1 : Fin 2) = 0 :=
  (by decide +kernel : ∀ t : Fin grid5.N, _)

/-- What block `t` writes back is block `t` of the sum of the two operand arrays. -/
theorem flushed_eq (c : Dev nD) (t : Fin cfg5.N) :
    (dat5 V c).flushed 2 t = ((cfg5.win 2).blk t).view.read (Elt F) (tableSum (V c main_v28) (V c main_v39)) := by
  show (cfg5.win 2).cut (grid5.coords t) ((dat5 V c).after 2 t) = _
  rw [after5_2]
  unfold out5_2
  rw [View.canon_unit_zero corner_zero]
  simp only [View.ld_unit_zero (S := S6000x64) corner_zero]
  rw [payload_eq]
  obtain ⟨e0, e1, e2, e3, e4, e5⟩ := block_index t
  funext j
  show FloatOps.addf (V c main_v28 (((cfg5.win 0).blk t).view.emb j)) (V c main_v39 (((cfg5.win 1).blk t).view.emb j))
    = FloatOps.addf (V c main_v28 (((cfg5.win 2).blk t).view.emb j)) (V c main_v39 (((cfg5.win 2).blk t).view.emb j))
  have h0 : ((cfg5.win 0).blk t).view.emb j = ((cfg5.win 2).blk t).view.emb j := by
    funext a; apply Fin.ext
    match a with
    | ⟨0, _⟩ => show win5_0.index t (0 : Fin 2) * 6000 + 1 * (j 0).val = win5_2.index t (0 : Fin 2) * 6000 + 1 * (j 0).val; omega
    | ⟨1, _⟩ => show win5_0.index t (1 : Fin 2) * 64 + 1 * (j 1).val = win5_2.index t (1 : Fin 2) * 64 + 1 * (j 1).val; omega
  have h1 : ((cfg5.win 1).blk t).view.emb j = ((cfg5.win 2).blk t).view.emb j := by
    funext a; apply Fin.ext
    match a with
    | ⟨0, _⟩ => show win5_1.index t (0 : Fin 2) * 6000 + 1 * (j 0).val = win5_2.index t (0 : Fin 2) * 6000 + 1 * (j 0).val; omega
    | ⟨1, _⟩ => show win5_1.index t (1 : Fin 2) * 64 + 1 * (j 1).val = win5_2.index t (1 : Fin 2) * 64 + 1 * (j 1).val; omega
  rw [h0, h1]

/-- An index of the table lies in block `t` iff each coordinate lies in the block's range on its axis. -/
theorem mem_block (t : Fin cfg5.N) (i : S150000x64.Idx) :
    i ∈ ((cfg5.win 2).blk t).view.set ↔ ∀ a : Fin 2, win5_2.index t a * S6000x64.size a ≤ (i a).val
      ∧ (i a).val < win5_2.index t a * S6000x64.size a + S6000x64.size a := by
  show i ∈ ((View.whole main_v40).slice (win5_2.rect t)).set ↔ _
  rw [View.set_slice_whole, Rect.mem_set_unit]
  exact Iff.rfl

/-- Row `r` of the table lies in block `r / 6000`: the blocks tile the table. -/
theorem cover (i : S150000x64.Idx) :
    ∃ t : Fin cfg5.N, (cfg5.win 2).flush t = true ∧ i ∈ ((cfg5.win 2).blk t).view.set := by
  have hi0 : (i 0).val < 150000 := (i 0).isLt
  have hi1 : (i 1).val < 64 := (i 1).isLt
  have hN : (i 0).val / 6000 < cfg5.N := by show _ < grid5.N; rw [N_5]; omega
  obtain ⟨e0, e1, e2, e3, e4, e5⟩ := block_index ⟨(i 0).val / 6000, hN⟩
  refine ⟨⟨(i 0).val / 6000, hN⟩, flush5_2 _, ?_⟩
  rw [mem_block]
  intro a
  match a with
  | ⟨0, _⟩ =>
    show win5_2.index ⟨(i 0).val / 6000, hN⟩ (0 : Fin 2) * 6000 ≤ (i 0).val
      ∧ (i 0).val < win5_2.index ⟨(i 0).val / 6000, hN⟩ (0 : Fin 2) * 6000 + 6000
    rw [e4]; show (i 0).val / 6000 * 6000 ≤ (i 0).val ∧ (i 0).val < (i 0).val / 6000 * 6000 + 6000; omega
  | ⟨1, _⟩ =>
    show win5_2.index ⟨(i 0).val / 6000, hN⟩ (1 : Fin 2) * 64 ≤ (i 1).val
      ∧ (i 1).val < win5_2.index ⟨(i 0).val / 6000, hN⟩ (1 : Fin 2) * 64 + 64
    rw [e5]; omega

/-- THE RESULT ARRAY after the launch: the entrywise sum of the two operand arrays as the launch found them. -/
theorem final (c : Dev nD) : (dat5 V c).arrAt 2 cfg5.N = tableSum (V c main_v28) (V c main_v39) :=
  (dat5 V c).arrAt_eq_of_cover 2 _ (fun t _ => flushed_eq V c t) (cover)

end Cert.KernelIdeal.Accumulate5

end
-- ==== Proof.Closing6.lean ====
/-
  The closing launch, read as one array.

  The launch walks the first 50000 rows of the accumulated node table in 10 blocks of 5000 rows; at block `t` it loads
  rows `5000·t … 5000·t + 4999` of the table, multiplies every entry by the constant whose word is `0x3E800000`
  and writes the block to the same rows of the result.  The 10 blocks tile the result, so after the launch the result
  holds, at row `r < 50000` and feature `f`, the table's entry `(r, f)` times that constant.
-/
import proofs.«124646_j1812476199038_1_alg».proof.Proof.Gen.KernelIdeal.Frame
import Idealize.ShloMosaic.Lib.Pipeline.Value
import Idealize.ShloMosaic.Lib.ValueIdx

set_option maxRecDepth 16384

noncomputable section

namespace Cert.KernelIdeal.Closing6

open Cert.KernelIdeal Cert.KernelIdeal.Gen Idealize.ShloMosaic Idealize.ShloMosaic.TcCoe Idealize.SL.Sem
open Idealize.ShloMosaic.ValueIdx
open Idealize.ShloMosaic.Pipeline (Dat)

variable {F : FTy → Type} [FloatOps F]
variable (V : (c : Dev nD) → (b : Ref sig .tc) → Buf (Elt F) ((c : Thread nD τ).loc b))

/-- The corner of every access of the body is the origin. -/
theorem corner_zero : (![0, 0] : Fin 2 → Nat) = fun _ => 0 := funext fun a => by fin_cases a <;> rfl

/-- The leading 50000 rows of a node table, every entry times the constant of word `0x3E800000`. -/
abbrev scaledHead (a : S150000x64.Idx → Elt F .f32) : S50000x64.Idx → Elt F .f32 :=
  fun i => FloatOps.mulf (a (ix2 (⟨(i 0).val, by have := idx2_lt0 i; omega⟩ : Fin 150000) (⟨(i 1).val, idx2_lt1 i⟩ : Fin 64)))
    (Scalar.ofBits .f32 0x3E800000#32)

/-- The body's stored value at an index: the loaded entry times the constant. -/
theorem payload_apply (x0 : Vec F S5000x64 .f32) (j : S5000x64.Idx) :
    k6_pay1 x0 j = FloatOps.mulf (x0 j) (Scalar.ofBits .f32 0x3E800000#32) := by
  unfold k6_pay1
  simp only [shapeCast_self]
  rfl

/-- Block `t` of both windows is block row `t`, block column `0`. -/
theorem block_index : ∀ t : Fin cfg6.N, win6_0.index t (0 : Fin 2) = win6_1.index t (0 : Fin 2)
    ∧ win6_0.index t (1 : Fin 2) = win6_1.index t (1 : Fin 2)
    ∧ win6_1.index t (0 : Fin 2) = t.val ∧ win6_1.index t (1 : Fin 2) = 0 :=
  (by decide +kernel : ∀ t : Fin grid6.N, _)

/-- What block `t` writes back is block `t` of the scaled leading rows. -/
theorem flushed_eq (c : Dev nD) (t : Fin cfg6.N) :
    (dat6 V c).flushed 1 t = ((cfg6.win 1).blk t).view.read (Elt F) (scaledHead (V c main_v40)) := by
  show (cfg6.win 1).cut (grid6.coords t) ((dat6 V c).after 1 t) = _
  rw [after6_1]
  unfold out6_1
  rw [View.canon_unit_zero corner_zero]
  simp only [View.ld_unit_zero (S := S5000x64) corner_zero]
  obtain ⟨e0, e1, e2, e3⟩ := block_index t
  funext j
  show k6_pay1 (iblk6 V c 0 t) j = _
  rw [payload_apply]
  show FloatOps.mulf (V c main_v40 (((cfg6.win 0).blk t).view.emb j)) (Scalar.ofBits .f32 0x3E800000#32)
    = FloatOps.mulf (V c main_v40 (ix2 (⟨((((cfg6.win 1).blk t).view.emb j) 0).val, by have := idx2_lt0 (((cfg6.win 1).blk t).view.emb j); omega⟩ : Fin 150000)
        (⟨((((cfg6.win 1).blk t).view.emb j) 1).val, idx2_lt1 _⟩ : Fin 64))) (Scalar.ofBits .f32 0x3E800000#32)
  have h0 : ((cfg6.win 0).blk t).view.emb j
      = ix2 (⟨((((cfg6.win 1).blk t).view.emb j) 0).val, by have := idx2_lt0 (((cfg6.win 1).blk t).view.emb j); omega⟩ : Fin 150000)
        (⟨((((cfg6.win 1).blk t).view.emb j) 1).val, idx2_lt1 _⟩ : Fin 64) := by
    funext a; apply Fin.ext
    match a with
    | ⟨0, _⟩ => show win6_0.index t (0 : Fin 2) * 5000 + 1 * (j 0).val = win6_1.index t (0 : Fin 2) * 5000 + 1 * (j 0).val; omega
    | ⟨1, _⟩ => show win6_0.index t (1 : Fin 2) * 64 + 1 * (j 1).val = win6_1.index t (1 : Fin 2) * 64 + 1 * (j 1).val; omega
  rw [h0]

/-- An index of the result lies in block `t` iff each coordinate lies in the block's range on its axis. -/
theorem mem_block (t : Fin cfg6.N) (i : S50000x64.Idx) :
    i ∈ ((cfg6.win 1).blk t).view.set ↔ ∀ a : Fin 2, win6_1.index t a * S5000x64.size a ≤ (i a).val
      ∧ (i a).val < win6_1.index t a * S5000x64.size a + S5000x64.size a := by
  show i ∈ ((View.whole main_v41).slice (win6_1.rect t)).set ↔ _
  rw [View.set_slice_whole, Rect.mem_set_unit]
  exact Iff.rfl

/-- Row `r` of the result lies in block `r / 5000`: the blocks tile the result. -/
theorem cover (i : S50000x64.Idx) :
    ∃ t : Fin cfg6.N, (cfg6.win 1).flush t = true ∧ i ∈ ((cfg6.win 1).blk t).view.set := by
  have hi0 : (i 0).val < 50000 := (i 0).isLt
  have hi1 : (i 1).val < 64 := (i 1).isLt
  have hN : (i 0).val / 5000 < cfg6.N := by show _ < grid6.N; rw [N_6]; omega
  obtain ⟨e0, e1, e2, e3⟩ := block_index ⟨(i 0).val / 5000, hN⟩
  refine ⟨⟨(i 0).val / 5000, hN⟩, flush6_1 _, ?_⟩
  rw [mem_block]
  intro a
  match a with
  | ⟨0, _⟩ =>
    show win6_1.index ⟨(i 0).val / 5000, hN⟩ (0 : Fin 2) * 5000 ≤ (i 0).val
      ∧ (i 0).val < win6_1.index ⟨(i 0).val / 5000, hN⟩ (0 : Fin 2) * 5000 + 5000
    rw [e2]; show (i 0).val / 5000 * 5000 ≤ (i 0).val ∧ (i 0).val < (i 0).val / 5000 * 5000 + 5000; omega
  | ⟨1, _⟩ =>
    show win6_1.index ⟨(i 0).val / 5000, hN⟩ (1 : Fin 2) * 64 ≤ (i 1).val
      ∧ (i 1).val < win6_1.index ⟨(i 0).val / 5000, hN⟩ (1 : Fin 2) * 64 + 64
    rw [e3]; omega

/-- THE RESULT ARRAY after the launch: the leading rows of the table as the launch found it, scaled. -/
theorem final (c : Dev nD) : (dat6 V c).arrAt 1 cfg6.N = scaledHead (V c main_v40) :=
  (dat6 V c).arrAt_eq_of_cover 1 _ (fun t _ => flushed_eq V c t) (cover)

end Cert.KernelIdeal.Closing6

end
-- ==== Proof.Boundary.lean ====
/-
  The kernel's buffers at every boundary between its launches and the host operations around them.

  Seven launches alternate with stretches of host operations.  A launch changes only its result array, a host
  operation only its own result, so a buffer written once keeps its contents until the end: the padded row numbers,
  column numbers and weights and the node table are carried from the first launch's entry to where they are last read.
  Walking the boundaries in order gives the three layers `x₁ = L x₀`, `x₂ = L x₁`, `x₃ = L x₂` of the node table
  `x₀`, the running sums `x₀ + x₁`, `(x₀ + x₁) + x₂`, `((x₀ + x₁) + x₂) + x₃`, and the result: the leading 50000
  rows of the last sum, every entry times the closing constant.
-/
import proofs.«124646_j1812476199038_1_alg».proof.Proof.Tables
import proofs.«124646_j1812476199038_1_alg».proof.Proof.Scale2
import proofs.«124646_j1812476199038_1_alg».proof.Proof.Scale4
import proofs.«124646_j1812476199038_1_alg».proof.Proof.Accumulate1
import proofs.«124646_j1812476199038_1_alg».proof.Proof.Accumulate3
import proofs.«124646_j1812476199038_1_alg».proof.Proof.Accumulate5
import proofs.«124646_j1812476199038_1_alg».proof.Proof.Closing6

set_option maxRecDepth 16384
set_option maxHeartbeats 4000000

noncomputable section

namespace Cert.KernelIdeal.Boundary

open Cert.KernelIdeal Cert.KernelIdeal.Gen Cert.KernelIdeal.Tables Idealize.ShloMosaic Idealize.ShloMosaic.TcCoe Idealize.SL.Sem
open Idealize.ShloMosaic.StableHlo

variable {F : FTy → Type} [FloatOps F]
variable (m : (ℓ : Loc nD τ sig) → Buf (Elt F) ℓ) (ρ : Dev nD → PrngReg)

/-- The node table `x₀`. -/
abbrev x0 (c : Dev nD) : (⟨S150000x64, .f32⟩ : BufTy).Contents (Elt F) := nodeTable (arg0 m ρ c) (arg1 m ρ c)

/-- One layer over the argument arrays: the table's rows gathered at the column numbers, each scaled by its edge's
    weight, scattered into zeros at the row numbers. -/
def layerOf (a2 : (⟨S2400000, .f32⟩ : BufTy).Contents (Elt F)) (a3 a4 : (⟨S2400000, .i32⟩ : BufTy).Contents (Elt F))
    (x : (⟨S150000x64, .f32⟩ : BufTy).Contents (Elt F)) : (⟨S150000x64, .f32⟩ : BufTy).Contents (Elt F) :=
  scattered (padI a3) (Scale0.edgeScale (weights a2) (gathered (padI a4) x))

/-- The kernel's result as one function of the five argument arrays: three layers of the node table, their running
    sum with the table, the leading rows scaled. -/
def resultOf (a0 : (⟨S50000x64, .f32⟩ : BufTy).Contents (Elt F)) (a1 : (⟨S100000x64, .f32⟩ : BufTy).Contents (Elt F))
    (a2 : (⟨S2400000, .f32⟩ : BufTy).Contents (Elt F)) (a3 a4 : (⟨S2400000, .i32⟩ : BufTy).Contents (Elt F)) :
    (⟨S50000x64, .f32⟩ : BufTy).Contents (Elt F) :=
  Closing6.scaledHead (Accumulate1.tableSum (Accumulate1.tableSum (Accumulate1.tableSum (nodeTable a0 a1)
    (layerOf a2 a3 a4 (nodeTable a0 a1))) (layerOf a2 a3 a4 (layerOf a2 a3 a4 (nodeTable a0 a1))))
    (layerOf a2 a3 a4 (layerOf a2 a3 a4 (layerOf a2 a3 a4 (nodeTable a0 a1)))))

/-- One layer over the launch memory's arguments. -/
abbrev layer (c : Dev nD) (x : (⟨S150000x64, .f32⟩ : BufTy).Contents (Elt F)) : (⟨S150000x64, .f32⟩ : BufTy).Contents (Elt F) :=
  layerOf (arg2 m ρ c) (arg3 m ρ c) (arg4 m ρ c) x

abbrev x1 (c : Dev nD) := layer m ρ c (x0 m ρ c)
abbrev x2 (c : Dev nD) := layer m ρ c (x1 m ρ c)
abbrev x3 (c : Dev nD) := layer m ρ c (x2 m ρ c)
abbrev s1 (c : Dev nD) := Accumulate1.tableSum (x0 m ρ c) (x1 m ρ c)
abbrev s2 (c : Dev nD) := Accumulate1.tableSum (s1 m ρ c) (x2 m ρ c)
abbrev s3 (c : Dev nD) := Accumulate1.tableSum (s2 m ρ c) (x3 m ρ c)

theorem rows7 (c : Dev nD) : W7 m ρ c (Proc.devRef .tc main_v0) = padI (arg3 m ρ c) := entry_rows m ρ c
theorem cols7 (c : Dev nD) : W7 m ρ c (Proc.devRef .tc main_v1) = padI (arg4 m ρ c) := entry_cols m ρ c
theorem wts7 (c : Dev nD) : W7 m ρ c (Proc.devRef .tc main_v3) = weights (arg2 m ρ c) := entry_weights m ρ c
theorem tab7 (c : Dev nD) : W7 m ρ c (Proc.devRef .tc main_v4) = x0 m ρ c := entry_table m ρ c

/-! ## The padded row numbers, carried to the last scatter -/

theorem rows8 (c : Dev nD) : W8 m ρ c (Proc.devRef .tc main_v0) = padI (arg3 m ρ c) :=
  (W8_of_ne m ρ c main_v0 (by decide)).trans (rows7 m ρ c)
theorem rows9 (c : Dev nD) : W9 m ρ c (Proc.devRef .tc main_v0) = padI (arg3 m ρ c) := by
  refine Eq.trans ?_ (rows8 m ρ c)
  show StableHlo.after hostOps1 (W8 m ρ c) (Proc.devRef .tc main_v0) = _
  simp only [hostOps1]
  after_results
theorem rows10 (c : Dev nD) : W10 m ρ c (Proc.devRef .tc main_v0) = padI (arg3 m ρ c) :=
  (W10_of_ne m ρ c main_v0 (by decide)).trans (rows9 m ρ c)
theorem rows11 (c : Dev nD) : W11 m ρ c (Proc.devRef .tc main_v0) = padI (arg3 m ρ c) := by
  refine Eq.trans ?_ (rows10 m ρ c)
  show StableHlo.after hostOps2 (W10 m ρ c) (Proc.devRef .tc main_v0) = _
  simp only [hostOps2]
  after_results
theorem rows12 (c : Dev nD) : W12 m ρ c (Proc.devRef .tc main_v0) = padI (arg3 m ρ c) :=
  (W12_of_ne m ρ c main_v0 (by decide)).trans (rows11 m ρ c)
theorem rows13 (c : Dev nD) : W13 m ρ c (Proc.devRef .tc main_v0) = padI (arg3 m ρ c) := by
  refine Eq.trans ?_ (rows12 m ρ c)
  show StableHlo.after hostOps3 (W12 m ρ c) (Proc.devRef .tc main_v0) = _
  simp only [hostOps3]
  after_results
theorem rows14 (c : Dev nD) : W14 m ρ c (Proc.devRef .tc main_v0) = padI (arg3 m ρ c) :=
  (W14_of_ne m ρ c main_v0 (by decide)).trans (rows13 m ρ c)
theorem rows15 (c : Dev nD) : W15 m ρ c (Proc.devRef .tc main_v0) = padI (arg3 m ρ c) := by
  refine Eq.trans ?_ (rows14 m ρ c)
  show StableHlo.after hostOps4 (W14 m ρ c) (Proc.devRef .tc main_v0) = _
  simp only [hostOps4]
  after_results
theorem rows16 (c : Dev nD) : W16 m ρ c (Proc.devRef .tc main_v0) = padI (arg3 m ρ c) :=
  (W16_of_ne m ρ c main_v0 (by decide)).trans (rows15 m ρ c)

/-! ## The padded column numbers, carried to the last gather -/

theorem cols8 (c : Dev nD) : W8 m ρ c (Proc.devRef .tc main_v1) = padI (arg4 m ρ c) :=
  (W8_of_ne m ρ c main_v1 (by decide)).trans (cols7 m ρ c)
theorem cols9 (c : Dev nD) : W9 m ρ c (Proc.devRef .tc main_v1) = padI (arg4 m ρ c) := by
  refine Eq.trans ?_ (cols8 m ρ c)
  show StableHlo.after hostOps1 (W8 m ρ c) (Proc.devRef .tc main_v1) = _
  simp only [hostOps1]
  after_results
theorem cols10 (c : Dev nD) : W10 m ρ c (Proc.devRef .tc main_v1) = padI (arg4 m ρ c) :=
  (W10_of_ne m ρ c main_v1 (by decide)).trans (cols9 m ρ c)
theorem cols11 (c : Dev nD) : W11 m ρ c (Proc.devRef .tc main_v1) = padI (arg4 m ρ c) := by
  refine Eq.trans ?_ (cols10 m ρ c)
  show StableHlo.after hostOps2 (W10 m ρ c) (Proc.devRef .tc main_v1) = _
  simp only [hostOps2]
  after_results
theorem cols12 (c : Dev nD) : W12 m ρ c (Proc.devRef .tc main_v1) = padI (arg4 m ρ c) :=
  (W12_of_ne m ρ c main_v1 (by decide)).trans (cols11 m ρ c)
theorem cols13 (c : Dev nD) : W13 m ρ c (Proc.devRef .tc main_v1) = padI (arg4 m ρ c) := by
  refine Eq.trans ?_ (cols12 m ρ c)
  show StableHlo.after hostOps3 (W12 m ρ c) (Proc.devRef .tc main_v1) = _
  simp only [hostOps3]
  after_results
theorem cols14 (c : Dev nD) : W14 m ρ c (Proc.devRef .tc main_v1) = padI (arg4 m ρ c) :=
  (W14_of_ne m ρ c main_v1 (by decide)).trans (cols13 m ρ c)

/-! ## The weight column, carried to the last scale -/

theorem wts8 (c : Dev nD) : W8 m ρ c (Proc.devRef .tc main_v3) = weights (arg2 m ρ c) :=
  (W8_arr m ρ c 0).trans (((dat0 (V7 m ρ) c).arrAt_in 0 rfl _).trans
    ((A_eq0 (V7 m ρ) c 0).trans (wts7 m ρ c)))
theorem wts9 (c : Dev nD) : W9 m ρ c (Proc.devRef .tc main_v3) = weights (arg2 m ρ c) := by
  refine Eq.trans ?_ (wts8 m ρ c)
  show StableHlo.after hostOps1 (W8 m ρ c) (Proc.devRef .tc main_v3) = _
  simp only [hostOps1]
  after_results
theorem wts10 (c : Dev nD) : W10 m ρ c (Proc.devRef .tc main_v3) = weights (arg2 m ρ c) :=
  (W10_of_ne m ρ c main_v3 (by decide)).trans (wts9 m ρ c)
theorem wts11 (c : Dev nD) : W11 m ρ c (Proc.devRef .tc main_v3) = weights (arg2 m ρ c) := by
  refine Eq.trans ?_ (wts10 m ρ c)
  show StableHlo.after hostOps2 (W10 m ρ c) (Proc.devRef .tc main_v3) = _
  simp only [hostOps2]
  after_results
theorem wts12 (c : Dev nD) : W12 m ρ c (Proc.devRef .tc main_v3) = weights (arg2 m ρ c) :=
  (W12_arr m ρ c 0).trans (((dat2 (V11 m ρ) c).arrAt_in 0 rfl _).trans
    ((A_eq2 (V11 m ρ) c 0).trans (wts11 m ρ c)))
theorem wts13 (c : Dev nD) : W13 m ρ c (Proc.devRef .tc main_v3) = weights (arg2 m ρ c) := by
  refine Eq.trans ?_ (wts12 m ρ c)
  show StableHlo.after hostOps3 (W12 m ρ c) (Proc.devRef .tc main_v3) = _
  simp only [hostOps3]
  after_results
theorem wts14 (c : Dev nD) : W14 m ρ c (Proc.devRef .tc main_v3) = weights (arg2 m ρ c) :=
  (W14_of_ne m ρ c main_v3 (by decide)).trans (wts13 m ρ c)
theorem wts15 (c : Dev nD) : W15 m ρ c (Proc.devRef .tc main_v3) = weights (arg2 m ρ c) := by
  refine Eq.trans ?_ (wts14 m ρ c)
  show StableHlo.after hostOps4 (W14 m ρ c) (Proc.devRef .tc main_v3) = _
  simp only [hostOps4]
  after_results

/-! ## The node table, carried to the first accumulate -/

theorem tab8 (c : Dev nD) : W8 m ρ c (Proc.devRef .tc main_v4) = x0 m ρ c :=
  (W8_of_ne m ρ c main_v4 (by decide)).trans (tab7 m ρ c)
theorem tab9 (c : Dev nD) : W9 m ρ c (Proc.devRef .tc main_v4) = x0 m ρ c := by
  refine Eq.trans ?_ (tab8 m ρ c)
  show StableHlo.after hostOps1 (W8 m ρ c) (Proc.devRef .tc main_v4) = _
  simp only [hostOps1]
  after_results

/-! ## The first layer and the first sum -/

theorem msgs8 (c : Dev nD) : W8 m ρ c (Proc.devRef .tc main_v12)
    = Scale0.edgeScale (weights (arg2 m ρ c)) (gathered (padI (arg4 m ρ c)) (x0 m ρ c)) :=
  (W8_arr m ρ c 2).trans ((Scale0.final (V7 m ρ) c).trans
    (congrArg₂ Scale0.edgeScale (entry_weights m ρ c) (entry_gathered m ρ c)))

theorem lay9 (c : Dev nD) : W9 m ρ c (Proc.devRef .tc main_v15) = x1 m ρ c := by
  show StableHlo.after hostOps1 (W8 m ρ c) (Proc.devRef .tc main_v15) = _
  simp only [hostOps1]
  after_results
  rw [rows8 m ρ c, msgs8 m ρ c]
  rfl

/-! The first layer is read again by the second gather -/

theorem lay10 (c : Dev nD) : W10 m ρ c (Proc.devRef .tc main_v15) = x1 m ρ c :=
  (W10_arr m ρ c 1).trans (((dat1 (V9 m ρ) c).arrAt_in 1 rfl _).trans
    ((A_eq1 (V9 m ρ) c 1).trans (lay9 m ρ c)))

theorem sum10 (c : Dev nD) : W10 m ρ c (Proc.devRef .tc main_v16) = s1 m ρ c :=
  (W10_arr m ρ c 2).trans ((Accumulate1.final (V9 m ρ) c).trans
    (congrArg₂ Accumulate1.tableSum (tab9 m ρ c) (lay9 m ρ c)))

/-! The first sum is read by the second accumulate -/

theorem sum11 (c : Dev nD) : W11 m ρ c (Proc.devRef .tc main_v16) = s1 m ρ c := by
  refine Eq.trans ?_ (sum10 m ρ c)
  show StableHlo.after hostOps2 (W10 m ρ c) (Proc.devRef .tc main_v16) = _
  simp only [hostOps2]
  after_results
theorem sum12 (c : Dev nD) : W12 m ρ c (Proc.devRef .tc main_v16) = s1 m ρ c :=
  (W12_of_ne m ρ c main_v16 (by decide)).trans (sum11 m ρ c)
theorem sum13 (c : Dev nD) : W13 m ρ c (Proc.devRef .tc main_v16) = s1 m ρ c := by
  refine Eq.trans ?_ (sum12 m ρ c)
  show StableHlo.after hostOps3 (W12 m ρ c) (Proc.devRef .tc main_v16) = _
  simp only [hostOps3]
  after_results

/-! ## The second layer and the second sum -/

theorem gat11 (c : Dev nD) : W11 m ρ c (Proc.devRef .tc main_v23) = gathered (padI (arg4 m ρ c)) (x1 m ρ c) := by
  show StableHlo.after hostOps2 (W10 m ρ c) (Proc.devRef .tc main_v23) = _
  simp only [hostOps2]
  after_results
  rw [lay10 m ρ c, cols10 m ρ c]
  rfl

theorem msgs12 (c : Dev nD) : W12 m ρ c (Proc.devRef .tc main_v24)
    = Scale0.edgeScale (weights (arg2 m ρ c)) (gathered (padI (arg4 m ρ c)) (x1 m ρ c)) :=
  (W12_arr m ρ c 2).trans ((Scale2.final (V11 m ρ) c).trans
    (congrArg₂ Scale0.edgeScale (wts11 m ρ c) (gat11 m ρ c)))

theorem sec13 (c : Dev nD) : W13 m ρ c (Proc.devRef .tc main_v27) = x2 m ρ c := by
  show StableHlo.after hostOps3 (W12 m ρ c) (Proc.devRef .tc main_v27) = _
  simp only [hostOps3]
  after_results
  rw [rows12 m ρ c, msgs12 m ρ c]
  rfl

/-! The second layer is read again by the third gather -/

theorem sec14 (c : Dev nD) : W14 m ρ c (Proc.devRef .tc main_v27) = x2 m ρ c :=
  (W14_arr m ρ c 1).trans (((dat3 (V13 m ρ) c).arrAt_in 1 rfl _).trans
    ((A_eq3 (V13 m ρ) c 1).trans (sec13 m ρ c)))

theorem tot14 (c : Dev nD) : W14 m ρ c (Proc.devRef .tc main_v28) = s2 m ρ c :=
  (W14_arr m ρ c 2).trans ((Accumulate3.final (V13 m ρ) c).trans
    (congrArg₂ Accumulate1.tableSum (sum13 m ρ c) (sec13 m ρ c)))

/-! The second sum is read by the third accumulate -/

theorem tot15 (c : Dev nD) : W15 m ρ c (Proc.devRef .tc main_v28) = s2 m ρ c := by
  refine Eq.trans ?_ (tot14 m ρ c)
  show StableHlo.after hostOps4 (W14 m ρ c) (Proc.devRef .tc main_v28) = _
  simp only [hostOps4]
  after_results
theorem tot16 (c : Dev nD) : W16 m ρ c (Proc.devRef .tc main_v28) = s2 m ρ c :=
  (W16_of_ne m ρ c main_v28 (by decide)).trans (tot15 m ρ c)
theorem tot17 (c : Dev nD) : W17 m ρ c (Proc.devRef .tc main_v28) = s2 m ρ c := by
  refine Eq.trans ?_ (tot16 m ρ c)
  show StableHlo.after hostOps5 (W16 m ρ c) (Proc.devRef .tc main_v28) = _
  simp only [hostOps5]
  after_results

/-! ## The third layer, the third sum and the result -/

theorem gat15 (c : Dev nD) : W15 m ρ c (Proc.devRef .tc main_v35) = gathered (padI (arg4 m ρ c)) (x2 m ρ c) := by
  show StableHlo.after hostOps4 (W14 m ρ c) (Proc.devRef .tc main_v35) = _
  simp only [hostOps4]
  after_results
  rw [sec14 m ρ c, cols14 m ρ c]
  rfl

theorem msgs16 (c : Dev nD) : W16 m ρ c (Proc.devRef .tc main_v36)
    = Scale0.edgeScale (weights (arg2 m ρ c)) (gathered (padI (arg4 m ρ c)) (x2 m ρ c)) :=
  (W16_arr m ρ c 2).trans ((Scale4.final (V15 m ρ) c).trans
    (congrArg₂ Scale0.edgeScale (wts15 m ρ c) (gat15 m ρ c)))

theorem thi17 (c : Dev nD) : W17 m ρ c (Proc.devRef .tc main_v39) = x3 m ρ c := by
  show StableHlo.after hostOps5 (W16 m ρ c) (Proc.devRef .tc main_v39) = _
  simp only [hostOps5]
  after_results
  rw [rows16 m ρ c, msgs16 m ρ c]
  rfl

theorem all18 (c : Dev nD) : W18 m ρ c (Proc.devRef .tc main_v40) = s3 m ρ c :=
  (W18_arr m ρ c 2).trans ((Accumulate5.final (V17 m ρ) c).trans
    (congrArg₂ Accumulate1.tableSum (tot17 m ρ c) (thi17 m ρ c)))

/-- THE RESULT BUFFER at the return: the leading rows of `((x₀ + x₁) + x₂) + x₃`, every entry times the closing
    constant. -/
theorem result (c : Dev nD) : W19 m ρ c (Proc.devRef .tc main_v41)
    = resultOf (arg0 m ρ c) (arg1 m ρ c) (arg2 m ρ c) (arg3 m ρ c) (arg4 m ρ c) :=
  (W19_arr m ρ c 1).trans ((Closing6.final (V18 m ρ) c).trans (congrArg Closing6.scaledHead (all18 m ρ c)))

end Cert.KernelIdeal.Boundary

end
-- ==== Proof.LibRowGather.lean ====
/-
  `stablehlo.gather` of WHOLE ROWS of a matrix, read at an index.

  What `x[idx]` lowers to for a matrix `x : [N, C]` and an integer array `idx` of row numbers: a gather whose one offset
  axis is the result's last axis, with collapsed_slice_dims `[0]`, start_index_map `[0]`, slice_sizes `[1, C]` and the
  index vector on the start indices' last axis, of extent one. The operand has two axes. Axis 0 is collapsed and named by
  the start index map: its coordinate is the start index, read as a signed integer and clamped into `[0, N − 1]` (the
  clamp that makes the one-row slice fit), with no batching and no offset part. Axis 1 is the one offset axis: it is not
  in the start index map, so its slice starts at `0`, it is not a batching axis, and its offset coordinate is the
  result's coordinate on the offset axis, that is the result's last coordinate. So result element `(…, k)` is `x` at the
  clamped row and column `k`. Stated for start indices `[R, 1]` with result `[R, C]` (`rowsDims`, `gather_rows_apply`)
  and for start indices `[P, A, 1]` with result `[P, A, C]` (`rowsDims3`, `gather_rows3_apply`).
-/
import Idealize.ShloMosaic.PureOps.Ideal
import Idealize.ShloMosaic.Lib.ValueIdx

noncomputable section

namespace Idealize.ShloMosaic.RowGather

open Idealize.ShloMosaic Idealize.ShloMosaic.ValueIdx

/-- The dimension numbers of a gather of whole rows, for an operand `[N, C]`, start indices `[R, 1]` and result `[R, C]`:
    the result's axis 1 is the offset axis, the operand's axis 0 is collapsed and is the one axis the start index names,
    the index vector is the start indices' axis 1, and a slice is one row, `[1, C]`. Their conditions `wf` are decided on
    a program's literal shapes. -/
abbrev rowsDims (N C R : Nat) (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- THE GATHER OF ROWS READ AT `(r, k)`: the operand at the row `idx[r, 0]`, read signed and clamped into `[0, N − 1]`,
    and column `k`. On the operand's axis 0 the start is the clamped index and the batching and offset parts are zero; on
    its axis 1 the start and the batching part are zero and the offset part is the result's coordinate `k`. -/
theorem gather_rows_apply {α : Type} {N C R w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (r : Fin R) (k : Fin C) :
    Host.gather (rowsDims N C R wf) x idx (ix2 r k)
      = x (ix2 (⟨min (idx (ix2 r (0 : Fin 1))).toInt.toNat (N - 1), by omega⟩ : Fin N) k) := by
  unfold Host.gather
  congr 1
  funext a
  refine Fin.ext ?_
  match a with
  | ⟨0, _⟩ =>
    show (rowsDims N C R wf).start (ix2 r k) idx 0 + (rowsDims N C R wf).batchCoord (ix2 r k) 0
      + (rowsDims N C R wf).offCoord (ix2 r k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N C R wf).startIndexMap from List.mem_singleton.mpr rfl)]
    have hsi : (rowsDims N C R wf).siIdx (ix2 r k) ⟨List.idxOf (0 : Fin 2) (rowsDims N C R wf).startIndexMap,
        List.idxOf_lt_length_iff.2 (List.mem_singleton.mpr rfl)⟩ = ix2 r (0 : Fin 1) := by
      funext b; refine Fin.ext ?_
      match b with
      | ⟨0, _⟩ => rfl
      | ⟨1, _⟩ => rfl
    rw [hsi]
    rfl
  | ⟨1, _⟩ =>
    show (rowsDims N C R wf).start (ix2 r k) idx 1 + (rowsDims N C R wf).batchCoord (ix2 r k) 1
      + (rowsDims N C R wf).offCoord (ix2 r k) 1 = k.val
    have hstart : (rowsDims N C R wf).start (ix2 r k) idx 1 = 0 := by
      unfold GatherDims.start
      rw [dif_neg (show (1 : Fin 2) ∉ (rowsDims N C R wf).startIndexMap from
        fun h => absurd (List.mem_singleton.mp h) (show ¬ ((1 : Fin 2) = 0) by decide))]
    have hbatch : (rowsDims N C R wf).batchCoord (ix2 r k) 1 = 0 :=
      GatherDims.batchCoord_eq_zero _ _ _ List.not_mem_nil
    have hoff : (rowsDims N C R wf).offCoord (ix2 r k) 1 = k.val := by
      unfold GatherDims.offCoord
      rw [dif_pos ((GatherDims.mem_sKept _ _).mpr
        ⟨fun h => absurd (List.mem_singleton.mp h) (show ¬ ((1 : Fin 2) = 0) by decide), List.not_mem_nil⟩)]
      rfl
    omega

/-- The dimension numbers of a gather of whole rows, for an operand `[N, C]`, start indices `[P, A, 1]` and result
    `[P, A, C]`: the result's axis 2 is the offset axis, the operand's axis 0 is collapsed and is the one axis the start
    index names, the index vector is the start indices' axis 2, and a slice is one row, `[1, C]`. Their conditions `wf`
    are decided on a program's literal shapes. -/
abbrev rowsDims3 (N C P A : Nat)
    (wf : GatherDims.WF ⟨2, ![N, C]⟩ ⟨3, ![P, A, 1]⟩ ⟨3, ![P, A, C]⟩ [2] [0] [] [0] [] 2 ![1, C]) :
    GatherDims ⟨2, ![N, C]⟩ ⟨3, ![P, A, 1]⟩ ⟨3, ![P, A, C]⟩ where
  offsetDims := [2]
  collapsedSliceDims := [0]
  operandBatchingDims := []
  startIndicesBatchingDims := []
  startIndexMap := [0]
  indexVectorDim := 2
  sliceSizes := ![1, C]
  wf := wf

/-- THE GATHER OF ROWS READ AT `(p, a, k)`: the operand at the row `idx[p, a, 0]`, read signed and clamped into
    `[0, N − 1]`, and column `k`. -/
theorem gather_rows3_apply {α : Type} {N C P A w : Nat} (hN : 0 < N)
    (wf : GatherDims.WF ⟨2, ![N, C]⟩ ⟨3, ![P, A, 1]⟩ ⟨3, ![P, A, C]⟩ [2] [0] [] [0] [] 2 ![1, C])
    (x : (⟨2, ![N, C]⟩ : Shape).Idx → α) (idx : IVec ⟨3, ![P, A, 1]⟩ w) (p : Fin P) (a : Fin A) (k : Fin C) :
    Host.gather (rowsDims3 N C P A wf) x idx (ix3 p a k)
      = x (ix2 (⟨min (idx (ix3 p a (0 : Fin 1))).toInt.toNat (N - 1), by omega⟩ : Fin N) k) := by
  unfold Host.gather
  congr 1
  funext c
  refine Fin.ext ?_
  match c with
  | ⟨0, _⟩ =>
    show (rowsDims3 N C P A wf).start (ix3 p a k) idx 0 + (rowsDims3 N C P A wf).batchCoord (ix3 p a k) 0
      + (rowsDims3 N C P A wf).offCoord (ix3 p a k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims3 N C P A wf).startIndexMap from List.mem_singleton.mpr rfl)]
    have hsi : (rowsDims3 N C P A wf).siIdx (ix3 p a k) ⟨List.idxOf (0 : Fin 2) (rowsDims3 N C P A wf).startIndexMap,
        List.idxOf_lt_length_iff.2 (List.mem_singleton.mpr rfl)⟩ = ix3 p a (0 : Fin 1) := by
      funext b; refine Fin.ext ?_
      match b with
      | ⟨0, _⟩ => rfl
      | ⟨1, _⟩ => rfl
      | ⟨2, _⟩ => rfl
    rw [hsi]
    rfl
  | ⟨1, _⟩ =>
    show (rowsDims3 N C P A wf).start (ix3 p a k) idx 1 + (rowsDims3 N C P A wf).batchCoord (ix3 p a k) 1
      + (rowsDims3 N C P A wf).offCoord (ix3 p a k) 1 = k.val
    have hstart : (rowsDims3 N C P A wf).start (ix3 p a k) idx 1 = 0 := by
      unfold GatherDims.start
      rw [dif_neg (show (1 : Fin 2) ∉ (rowsDims3 N C P A wf).startIndexMap from
        fun h => absurd (List.mem_singleton.mp h) (show ¬ ((1 : Fin 2) = 0) by decide))]
    have hbatch : (rowsDims3 N C P A wf).batchCoord (ix3 p a k) 1 = 0 :=
      GatherDims.batchCoord_eq_zero _ _ _ List.not_mem_nil
    have hoff : (rowsDims3 N C P A wf).offCoord (ix3 p a k) 1 = k.val := by
      unfold GatherDims.offCoord
      rw [dif_pos ((GatherDims.mem_sKept _ _).mpr
        ⟨fun h => absurd (List.mem_singleton.mp h) (show ¬ ((1 : Fin 2) = 0) by decide), List.not_mem_nil⟩)]
      rfl
    omega

end Idealize.ShloMosaic.RowGather

end
-- ==== Proof.LibRowMax.lean ====
/-
  Reading a "subtract the column maximum" expression over a matrix at an index given by its coordinates, for any
  extents a × b.

  * The index over the column coordinate `q` with row coordinate `k` inserted on the first axis is `(k, q)`; hence, on
    the extended reals, a vector maximum along the FIRST axis of an `[a, b]` matrix is the fold of `max` over the row
    coordinate, and the host's maximum along the first axis is the same fold from its initial value; the vector maxima
    kept as a row `[1, b]` and broadcast down the rows again read the column's maximum at every row.
  * The host's keepdims forms: a `[b]` vector placed as the one row of `[1, b]`, that row broadcast down `a` rows, and
    a column `[a, 1]` broadcast across `b` columns.
  * A plain matrix product `[a, k] × [k, b] → [a, b]` (the left operand's last axis contracted with the right
    operand's first): its sum over the contraction index is the sum over `e : Fin k` of `lhs (i, e) * rhs (e, j)`, for
    the vector unit's product into a zero accumulator and for the host's.
-/
import Idealize.ShloMosaic.Lib.ValueLayout
import Idealize.ShloMosaic.Lib.Pipeline.Value
import Idealize.ShloMosaic.PureOps.Ideal.Laws

noncomputable section

namespace Cert.LibRowMax

open Idealize.ShloMosaic Idealize.ShloMosaic.ValueIdx

variable {α : Type} {a b : ℕ}

/-! ## The maximum along the first axis -/

/-- Over the column coordinate `q`, with `k` inserted on the first axis: `(k, q)`. -/
theorem lift_first (h : (⟨2, ![a, b]⟩ : Shape).Reduces [0] ⟨1, ![b]⟩) (q : Fin b) (k : Fin a) :
    h.lift (ix1 q) k = ix2 k q := by
  funext ax
  apply Fin.ext
  match ax with
  | ⟨0, _⟩ => rfl
  | ⟨1, _⟩ => rfl

variable {φ : FTy}

/-- A vector maximum along the first axis, at column `q`: the fold of `max` from the accumulator's value over the rows. -/
theorem multiReduction_max_first (src : FVec Ideal ⟨2, ![a, b]⟩ φ) (acc : BitVec φ.bits)
    (h : (⟨2, ![a, b]⟩ : Shape).Reduces [0] ⟨1, ![b]⟩) (hφ : FKind.Formats φ) (hacc : acc = FKind.maximumf.neutral φ hφ)
    (q : Fin b) :
    multiReduction .maximumf [0] ⟨1, ![b]⟩ src acc h hφ hacc (ix1 q)
      = (Finset.univ : Finset (Fin a)).fold max (Ideal.ofBits φ acc) fun k => src (ix2 k q) := by
  refine (Ideal.multiReduction_maximumf_single src acc h hφ hacc (ix1 q)).trans ?_
  refine congrArg (Finset.fold max (Ideal.ofBits φ acc) · Finset.univ) (funext fun k => ?_)
  exact congrArg src (lift_first h q k)

/-- The host's maximum along the first axis, at column `q`: the fold of `max` from the initial value over the rows. -/
theorem hostReduce_max_first {u : Shape} (x : (⟨2, ![a, b]⟩ : Shape).Idx → Ideal φ) (init : u.Idx → Ideal φ)
    (h' : (⟨2, ![a, b]⟩ : Shape).ReducesTo [0] ⟨1, ![b]⟩) (h : (⟨2, ![a, b]⟩ : Shape).Reduces [0] ⟨1, ![b]⟩)
    (hu : 0 < u.numel) (q : Fin b) :
    Host.reduce (FloatOps.maximumf (F := Ideal) (φ := φ)) x init h' hu (ix1 q)
      = (Finset.univ : Finset (Fin a)).fold max (init (Shape.Idx.first hu)) fun k => x (ix2 k q) := by
  refine (Host.reduce_eq_fold_single (FloatOps.maximumf (F := Ideal) (φ := φ)) x init h' h hu (ix1 q)).trans ?_
  refine congrArg (Finset.fold max (init (Shape.Idx.first hu)) · Finset.univ) (funext fun k => ?_)
  exact congrArg x (lift_first h q k)

/-- The column maxima kept as one row `[1, b]` and broadcast down `a` rows again read, at `(p, q)`, the maximum of
    column `q`. -/
theorem colMax_broadcastTo_apply (src : FVec Ideal ⟨2, ![a, b]⟩ φ) (acc : BitVec φ.bits)
    (h : (⟨2, ![a, b]⟩ : Shape).Reduces [0] ⟨1, ![b]⟩) (hφ : FKind.Formats φ) (hacc : acc = FKind.maximumf.neutral φ hφ)
    (hc : (⟨1, ![b]⟩ : Shape).ShapeCasts ⟨2, ![1, b]⟩) (hb : (⟨2, ![1, b]⟩ : Shape).Broadcasts ⟨2, ![a, b]⟩)
    (p : Fin a) (q : Fin b) :
    broadcastTo ⟨2, ![a, b]⟩ (shapeCast ⟨2, ![1, b]⟩ (multiReduction .maximumf [0] ⟨1, ![b]⟩ src acc h hφ hacc) hc) hb (ix2 p q)
      = (Finset.univ : Finset (Fin a)).fold max (Ideal.ofBits φ acc) fun k => src (ix2 k q) :=
  (broadcastTo_1b_ab_apply _ hb p q).trans
    ((shapeCast_a_1a_apply _ hc (0 : Fin 1) q).trans (multiReduction_max_first src acc h hφ hacc q))

/-! ## The host's keepdims forms -/

/-- A `[b]` vector placed as the row of `[1, b]` reads, at `(u, q)`, the vector at `q`. -/
theorem broadcastInDim_b_1b_apply (x : (⟨1, ![b]⟩ : Shape).Idx → α)
    (h : (⟨1, ![b]⟩ : Shape).BroadcastsInDim ⟨2, ![1, b]⟩ ![1]) (u : Fin 1) (q : Fin b) :
    broadcastInDim ⟨2, ![1, b]⟩ ![1] h x (ix2 u q) = x (ix1 q) := by
  refine broadcastInDim_apply _ h x (ix2 u q) (ix1 q) fun ax => ?_
  match ax with
  | ⟨0, _⟩ =>
    show q.val = if b = 1 then 0 else q.val
    split
    · have := q.isLt; omega
    · rfl

/-- A `[1, b]` row broadcast down `a` rows reads, at `(p, q)`, the row at `q`. -/
theorem broadcastInDim_1b_ab_apply (v : (⟨2, ![1, b]⟩ : Shape).Idx → α)
    (h : (⟨2, ![1, b]⟩ : Shape).BroadcastsInDim ⟨2, ![a, b]⟩ ![0, 1]) (p : Fin a) (q : Fin b) :
    broadcastInDim ⟨2, ![a, b]⟩ ![0, 1] h v (ix2 p q) = v (ix2 (0 : Fin 1) q) := by
  refine broadcastInDim_apply _ h v (ix2 p q) (ix2 (0 : Fin 1) q) fun ax => ?_
  match ax with
  | ⟨0, _⟩ =>
    show 0 = if (1 : ℕ) = 1 then 0 else p.val
    rw [if_pos rfl]
  | ⟨1, _⟩ =>
    show q.val = if b = 1 then 0 else q.val
    split
    · have := q.isLt; omega
    · rfl

/-- An `[a, 1]` column broadcast across `b` columns reads, at `(p, q)`, the column's entry in row `p`. -/
theorem broadcastInDim_a1_ab_apply (v : (⟨2, ![a, 1]⟩ : Shape).Idx → α)
    (h : (⟨2, ![a, 1]⟩ : Shape).BroadcastsInDim ⟨2, ![a, b]⟩ ![0, 1]) (p : Fin a) (q : Fin b) :
    broadcastInDim ⟨2, ![a, b]⟩ ![0, 1] h v (ix2 p q) = v (ix2 p (0 : Fin 1)) := by
  refine broadcastInDim_apply _ h v (ix2 p q) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else q.val
    rw [if_pos rfl]

/-! ## A plain matrix product -/

variable {k : ℕ}

/-- The dimension numbers of a plain product `[a, k] × [k, b] → [a, b]`: no batch axis, the left operand's last axis
    contracted with the right operand's first. -/
abbrev plainDims (a k b : ℕ)
    (wf : DotDims.WF ⟨2, ![a, k]⟩ ⟨2, ![k, b]⟩ ⟨2, ![a, b]⟩ [1] [0] [0] [1] [] []) :
    DotDims ⟨2, ![a, k]⟩ ⟨2, ![k, b]⟩ ⟨2, ![a, b]⟩ where
  lhsContracting := [1]
  rhsContracting := [0]
  lhsNonContracting := [0]
  rhsNonContracting := [1]
  lhsBatch := []
  rhsBatch := []
  wf := wf

/-- The left operand's index at output `(i, j)` and contraction coordinate `e` is `(i, e)`. -/
theorem plain_lhsIdx (wf : DotDims.WF ⟨2, ![a, k]⟩ ⟨2, ![k, b]⟩ ⟨2, ![a, b]⟩ [1] [0] [0] [1] [] [])
    (i : Fin a) (j : Fin b) (e : Fin k) :
    (plainDims a k b wf).lhsIdx (ix2 i j) ((contrEquiv1 (plainDims a k b wf) k rfl rfl).symm e) = ix2 i e := by
  funext ax
  apply Fin.ext
  match ax with
  | ⟨0, _⟩ => rfl
  | ⟨1, _⟩ =>
    exact ((plainDims a k b wf).lhsIdx_val_of_single rfl (ix2 i j) _).trans
      (contrEquiv1_symm_val (plainDims a k b wf) k rfl rfl e)

/-- The right operand's index at output `(i, j)` and contraction coordinate `e` is `(e, j)`. -/
theorem plain_rhsIdx (wf : DotDims.WF ⟨2, ![a, k]⟩ ⟨2, ![k, b]⟩ ⟨2, ![a, b]⟩ [1] [0] [0] [1] [] [])
    (i : Fin a) (j : Fin b) (e : Fin k) :
    (plainDims a k b wf).rhsIdx (ix2 i j) ((contrEquiv1 (plainDims a k b wf) k rfl rfl).symm e) = ix2 e j := by
  funext ax
  apply Fin.ext
  match ax with
  | ⟨0, _⟩ =>
    exact ((plainDims a k b wf).rhsIdx_val_of_single rfl (ix2 i j) _).trans
      (contrEquiv1_symm_val (plainDims a k b wf) k rfl rfl e)
  | ⟨1, _⟩ => rfl

/-- The contraction's sum of products, over the contracted coordinate. -/
theorem plain_sum (wf : DotDims.WF ⟨2, ![a, k]⟩ ⟨2, ![k, b]⟩ ⟨2, ![a, b]⟩ [1] [0] [0] [1] [] [])
    (lhs : (⟨2, ![a, k]⟩ : Shape).Idx → EReal) (rhs : (⟨2, ![k, b]⟩ : Shape).Idx → EReal) (i : Fin a) (j : Fin b) :
    ∑ kk : (plainDims a k b wf).contr.Idx,
        lhs ((plainDims a k b wf).lhsIdx (ix2 i j) kk) * rhs ((plainDims a k b wf).rhsIdx (ix2 i j) kk)
      = ∑ e : Fin k, lhs (ix2 i e) * rhs (ix2 e j) := by
  rw [← Equiv.sum_comp (contrEquiv1 (plainDims a k b wf) k rfl rfl).symm]
  refine Finset.sum_congr rfl fun e _ => ?_
  rw [plain_lhsIdx wf i j e, plain_rhsIdx wf i j e]

/-- The vector unit's plain product into a zero accumulator, at `(i, j)`: the sum over `e` of `lhs (i, e) * rhs (e, j)`. -/
theorem matmul_plain_apply {φ₁ φ₂ : FTy} (wf : DotDims.WF ⟨2, ![a, k]⟩ ⟨2, ![k, b]⟩ ⟨2, ![a, b]⟩ [1] [0] [0] [1] [] [])
    (prec : Option ContractPrecision) (lhs : FVec Ideal ⟨2, ![a, k]⟩ φ₁) (rhs : FVec Ideal ⟨2, ![k, b]⟩ φ₂)
    (i : Fin a) (j : Fin b) :
    FloatOps.matmul (plainDims a k b wf) prec lhs rhs (constant ⟨2, ![a, b]⟩ .f32 0x00000000#32) (ix2 i j)
      = ∑ e : Fin k, lhs (ix2 i e) * rhs (ix2 e j) :=
  (Ideal.matmul_constant_zero_apply (plainDims a k b wf) prec lhs rhs (ix2 i j)).trans (plain_sum wf lhs rhs i j)

/-- The host's plain product, at `(i, j)`: the same sum. -/
theorem dotGeneral_plain_apply {φ₁ φ₂ : FTy} (wf : DotDims.WF ⟨2, ![a, k]⟩ ⟨2, ![k, b]⟩ ⟨2, ![a, b]⟩ [1] [0] [0] [1] [] [])
    (prec : Option ContractPrecision) (sched : HostSchedule) (lhs : FVec Ideal ⟨2, ![a, k]⟩ φ₁)
    (rhs : FVec Ideal ⟨2, ![k, b]⟩ φ₂) (i : Fin a) (j : Fin b) :
    FloatOps.dotGeneral (plainDims a k b wf) prec sched lhs rhs (ix2 i j)
      = ∑ e : Fin k, lhs (ix2 i e) * rhs (ix2 e j) :=
  (Ideal.dotGeneral_apply (plainDims a k b wf) prec sched lhs rhs (ix2 i j)).trans (plain_sum wf lhs rhs i j)

end Cert.LibRowMax

end
-- ==== Proof.LibGcnAggregate.lean ====
/-
  Scaling a segment sum of gathered rows by a per-node factor, before or after the sum.

  Nodes are numbered 0 … N − 1 and carry a weight `dis i` that is a nonnegative REAL (as an extended real: `0 ≤ dis i`,
  `dis i ≠ ⊤`).  Edge `e` (of R edges) is aggregated at node `row e` and gathers from node `col e`.  For features
  `h : [N, C]` the two arrangements

      agg₁[i, f] = ∑ over the edges e with row e = i of (dis[row e] · dis[col e]) · h[col e, f]      (weights per edge)
      agg₂[i, f] = dis[i] · ∑ over the edges e with row e = i of (dis · h)[col e, f]                 (weights per node)

  are equal entry by entry WHATEVER `h` holds, infinities included: on the edges of segment `i` the first factor
  `dis[row e]` is the constant `dis[i]`, multiplication of extended reals is associative, and a nonnegative finite factor
  distributes over every finite sum of extended reals.  The statement is over the host's operations: an accumulating
  scatter of whole rows (an update whose start index is outside `[0, N)` is dropped; the index is read signed and not
  clamped), gathers of whole rows and of single entries (the index read signed and CLAMPED into `[0, N − 1]`), and the
  "negative index counts from the end" select in front of a gather, which is the identity on the nonnegative indices a
  segment's edges have.

  Also here: the guarded reciprocal square root `if d > 0 then d^(-1/2) else 0` is a nonnegative real for every
  extended real `d` (`⊤ ↦ 0`), which is what makes `dis` such a weight with no assumption on the degrees.
-/
import Idealize.ShloMosaic.PureOps.Ideal
import Idealize.ShloMosaic.PureOps.Ideal.Laws
import Idealize.ShloMosaic.Lib.ValueIdx
import Idealize.ShloMosaic.Lib.Pipeline.Value
import proofs.«124646_j1812476199038_1_alg».proof.Proof.LibRowGather
import proofs.«124646_j1812476199038_1_alg».proof.Proof.LibRowMax

noncomputable section

namespace Cert.LibGcnAggregate

open Idealize.ShloMosaic Idealize.ShloMosaic.ValueIdx

/-! ## Extended reals -/

/-- A nonnegative finite factor distributes over a finite sum of extended reals, whatever the summands. -/
theorem mul_sum_of_nonneg {ι : Type} (s : Finset ι) (f : ι → EReal) {c : EReal} (hc : 0 ≤ c) (hc' : c ≠ ⊤) :
    c * ∑ i ∈ s, f i = ∑ i ∈ s, c * f i := by
  classical
  induction s using Finset.induction_on with
  | empty => simp
  | insert a s ha ih =>
    rw [Finset.sum_insert ha, Finset.sum_insert ha, EReal.left_distrib_of_nonneg_of_ne_top hc hc', ih]

/-- `if d > 0 then d^(-1/2) else 0` is a nonnegative real, for every extended real `d`. -/
theorem rsqrt_guard (d : EReal) :
    (0 : EReal) ≤ Scalar.select (Ideal.cmp .ogt d 0) (Ideal.rsqrt d) 0
      ∧ Scalar.select (Ideal.cmp .ogt d 0) (Ideal.rsqrt d) (0 : EReal) ≠ ⊤ := by
  show (0 : EReal) ≤ (if BitVec.ofBool (decide ((0 : EReal) < d)) = 1 then Ideal.rsqrt d else 0)
      ∧ (if BitVec.ofBool (decide ((0 : EReal) < d)) = 1 then Ideal.rsqrt d else (0 : EReal)) ≠ ⊤
  by_cases h : (0 : EReal) < d
  · have h1 : BitVec.ofBool (decide ((0 : EReal) < d)) = 1 := by simp [h]
    rw [if_pos h1]
    induction d using EReal.rec with
    | bot => exact absurd h (by simp)
    | top => exact ⟨by rw [Ideal.rsqrt_top], by rw [Ideal.rsqrt_top]; exact EReal.zero_ne_top⟩
    | coe r =>
      have hr : 0 < r := by exact_mod_cast h
      rw [Ideal.rsqrt_coe, if_neg (not_lt.mpr hr.le), if_neg hr.ne']
      exact ⟨by exact_mod_cast (inv_nonneg.mpr (Real.sqrt_nonneg r)), EReal.coe_ne_top _⟩
  · have h0 : ¬ BitVec.ofBool (decide ((0 : EReal) < d)) = 1 := by simp [h]
    rw [if_neg h0]
    exact ⟨le_refl _, EReal.zero_ne_top⟩

/-- The host's guarded reciprocal square root of an array, `where(deg > 0, rsqrt(deg), 0)`, is a nonnegative real at
    every index. -/
theorem guarded_rsqrt_weight {s : Shape} (deg z : FVec Ideal s .f32) (hz : ∀ i, z i = 0) (i : s.Idx) :
    0 ≤ select (cmpf .ogt deg z) (Host.rsqrt deg) z i ∧ select (cmpf .ogt deg z) (Host.rsqrt deg) z i ≠ ⊤ := by
  show (0 : EReal) ≤ Scalar.select (Ideal.cmp .ogt (deg i) (z i)) (Ideal.rsqrt (deg i)) (z i)
      ∧ Scalar.select (Ideal.cmp .ogt (deg i) (z i)) (Ideal.rsqrt (deg i)) (z i) ≠ ⊤
  rw [hz i]
  exact rsqrt_guard _

/-! ## The host's layout operations read at an index -/

variable {α : Type}

/-- An `[a]` vector placed as the column `[a, 1]` reads, at `(p, u)`, the vector at `p`. -/
theorem broadcastInDim_a_a1_apply {a : ℕ} (x : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h x (ix2 p u) = x (ix1 p) := by
  refine broadcastInDim_apply _ h x (ix2 p u) (ix1 p) fun ax => ?_
  match ax with
  | ⟨0, _⟩ =>
    show p.val = if a = 1 then 0 else p.val
    split
    · have := p.isLt; omega
    · rfl

/-- An `[a]` vector as a column across `b` lanes reads, at `(p, q)`, the vector at `p`. -/
theorem column_apply {a b : ℕ} (x : (⟨1, ![a]⟩ : Shape).Idx → α)
    (h1 : (⟨1, ![a]⟩ : Shape).BroadcastsInDim ⟨2, ![a, 1]⟩ ![0])
    (h2 : (⟨2, ![a, 1]⟩ : Shape).BroadcastsInDim ⟨2, ![a, b]⟩ ![0, 1]) (p : Fin a) (q : Fin b) :
    broadcastInDim ⟨2, ![a, b]⟩ ![0, 1] h2 (broadcastInDim ⟨2, ![a, 1]⟩ ![0] h1 x) (ix2 p q) = x (ix1 p) :=
  (Cert.LibRowMax.broadcastInDim_a1_ab_apply _ h2 p q).trans (broadcastInDim_a_a1_apply x h1 p 0)

/-! ## A gather of single entries of a vector -/

/-- The dimension numbers of `x[idx]` for a vector `x : [N]` and start indices `[R, 1]`, result `[R]`: no offset
    axis, the operand's one axis collapsed and named by the start index. -/
abbrev entriesDims (N R : Nat) (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

/-- The gather of entries read at `r`: the vector at `idx[r, 0]`, read signed and clamped into `[0, N − 1]`. -/
theorem gather_entries_apply {N R w : Nat} (hN : 0 < N)
    (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ w) (r : Fin R) :
    Host.gather (entriesDims N R wf) x idx (ix1 r)
      = x (ix1 (⟨min (idx (ix2 r (0 : Fin 1))).toInt.toNat (N - 1), by omega⟩ : Fin N)) := by
  unfold Host.gather
  congr 1
  funext a
  refine Fin.ext ?_
  match a with
  | ⟨0, _⟩ =>
    show (entriesDims N R wf).start (ix1 r) idx 0 + (entriesDims N R wf).batchCoord (ix1 r) 0
      + (entriesDims N R wf).offCoord (ix1 r) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 1) ∈ (entriesDims N R wf).startIndexMap from List.mem_singleton.mpr rfl)]
    have hsi : (entriesDims N R wf).siIdx (ix1 r) ⟨List.idxOf (0 : Fin 1) (entriesDims N R wf).startIndexMap,
        List.idxOf_lt_length_iff.2 (List.mem_singleton.mpr rfl)⟩ = ix2 r (0 : Fin 1) := by
      funext b; refine Fin.ext ?_
      match b with
      | ⟨0, _⟩ => rfl
      | ⟨1, _⟩ => rfl
    rw [hsi]
    rfl

/-! ## An accumulating scatter of whole rows -/

/-- The dimension numbers of `zeros([N, C]).at[idx].add(updates)` for start indices `[R, 1]` and updates `[R, C]`: the
    updates' axis 1 is the window axis, the operand's axis 0 is inserted and is the one axis the start index names. -/
abbrev rowsScatter (N C R : Nat) (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

/-- An update row `e` that lands on the operand's row `t 0` has start index `t 0`, read signed. -/
theorem scatter_rows_hit {N C R w : Nat} (wf : ScatterDims.WF ⟨2, ![N, C]⟩ ⟨2, ![R, 1]⟩ ⟨2, ![R, C]⟩ [1] [0] [0] 1)
    (idx : IVec ⟨2, ![R, 1]⟩ w) (e : Fin R) (f : Fin C) (t : (⟨2, ![N, C]⟩ : Shape).Idx)
    (h : (rowsScatter N C R wf).resultIdx? (ix2 e f) idx = some t) :
    (idx (ix2 e (0 : Fin 1))).toInt = ((t 0).val : ℤ) := by
  have hs : (rowsScatter N C R wf).start (ix2 e f) idx 0 = (idx (ix2 e (0 : Fin 1))).toInt := by
    unfold ScatterDims.start
    rw [dif_pos (show (0 : Fin 2) ∈ (rowsScatter N C R wf).scatterDimsToOperandDims from List.mem_singleton.mpr rfl)]
    have hsi : (rowsScatter N C R wf).siIdx (ix2 e f) ⟨List.idxOf (0 : Fin 2) (rowsScatter N C R wf).scatterDimsToOperandDims,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
  have hw : (rowsScatter N C R wf).window (ix2 e f) 0 = 0 := by
    unfold ScatterDims.window
    rw [dif_neg]
    intro hmem
    have := (List.mem_filter.mp hmem).2
    simp at this
  unfold ScatterDims.resultIdx? at h
  split at h
  · rename_i hall
    have ht := Option.some.inj h
    have h0 : ((rowsScatter N C R wf).start (ix2 e f) idx 0 + ((rowsScatter N C R wf).window (ix2 e f) 0 : ℤ)).toNat
        = (t 0).val := congrArg Fin.val (congrFun ht 0)
    have hpos := (hall 0).1
    rw [hs, hw] at h0 hpos
    omega
  · exact absurd h (by simp)

/-- An accumulating scatter into zeros, entry `t`: if every update that lands on `t` is `c` times the matching update
    of a second scatter, `c` a nonnegative real, then the entry is `c` times the second scatter's entry. -/
theorem scatterAdd_scaled {s si su : Shape} (d : ScatterDims s si su) {w : Nat} (idx : IVec si w)
    (A B : su.Idx → EReal) (t : s.Idx) {c : EReal} (hc : 0 ≤ c) (hc' : c ≠ ⊤)
    (hAB : ∀ u, d.resultIdx? u idx = some t → A u = c * B u) :
    Ideal.hostScatterAdd d (fun _ => 0) idx A t = c * Ideal.hostScatterAdd d (fun _ => 0) idx B t := by
  unfold Ideal.hostScatterAdd
  rw [zero_add, zero_add, mul_sum_of_nonneg _ _ hc hc']
  exact Finset.sum_congr rfl fun u hu => hAB u (Finset.mem_filter.mp hu).2

/-- A start index that is a node number, read signed and clamped into `[0, N − 1]`, is that node. -/
theorem clamp_eq {N : ℕ} (b : BitVec 32) (i : Fin N) (hb : b.toInt = (i.val : ℤ))
    (hlt : min b.toInt.toNat (N - 1) < N) : (⟨min b.toInt.toNat (N - 1), hlt⟩ : Fin N) = i := by
  apply Fin.ext
  show min b.toInt.toNat (N - 1) = i.val
  rw [hb]
  have := i.isLt
  omega

/-! ## The two arrangements of the aggregation -/

section Aggregate

variable {N C R : ℕ}

/-- THE AGGREGATION, WEIGHTED PER EDGE OR PER NODE.  `dis` a nonnegative real weight per node; `row` the node each edge
    is aggregated at (used as it is by the scatter; in front of the gather of `dis` it passes the select that replaces
    a negative index by `X`, which no edge of a segment meets); `colw` the start indices every gather by column uses.
    Scattering the rows `(dis[row e] · dis[col e]) · h[col e, ·]` is, entry by entry, `dis[i]` times scattering the rows
    `(dis · h)[col e, ·]`. -/
theorem aggregate_eq (hN : 0 < N)
    (wfs : ScatterDims.WF ⟨2, ![N, C]⟩ ⟨2, ![R, 1]⟩ ⟨2, ![R, C]⟩ [1] [0] [0] 1)
    (wfg : GatherDims.WF ⟨2, ![N, C]⟩ ⟨2, ![R, 1]⟩ ⟨2, ![R, C]⟩ [1] [0] [] [0] [] 1 ![1, C])
    (wfe : GatherDims.WF ⟨1, ![N]⟩ ⟨2, ![R, 1]⟩ ⟨1, ![R]⟩ [] [0] [] [0] [] 1 ![1])
    (hb0 : (⟨0, ![]⟩ : Shape).BroadcastsInDim ⟨2, ![N, C]⟩ ![])
    (hbz : (⟨0, ![]⟩ : Shape).BroadcastsInDim ⟨1, ![R]⟩ ![])
    (hbR : (⟨1, ![R]⟩ : Shape).BroadcastsInDim ⟨2, ![R, 1]⟩ ![0])
    (hbRC : (⟨2, ![R, 1]⟩ : Shape).BroadcastsInDim ⟨2, ![R, C]⟩ ![0, 1])
    (hbN : (⟨1, ![N]⟩ : Shape).BroadcastsInDim ⟨2, ![N, 1]⟩ ![0])
    (hbNC : (⟨2, ![N, 1]⟩ : Shape).BroadcastsInDim ⟨2, ![N, C]⟩ ![0, 1])
    (dis : FVec Ideal ⟨1, ![N]⟩ .f32) (hdis : ∀ i, 0 ≤ dis i ∧ dis i ≠ ⊤)
    (row X : IVec ⟨1, ![R]⟩ 32) (colw : IVec ⟨2, ![R, 1]⟩ 32) (h : FVec Ideal ⟨2, ![N, C]⟩ .f32) :
    Host.scatterAdd (F := Ideal) (rowsScatter N C R wfs)
        (broadcastInDim ⟨2, ![N, C]⟩ ![] hb0 (constant ⟨0, ![]⟩ .f32 0x00000000#32))
        (broadcastInDim ⟨2, ![R, 1]⟩ ![0] hbR row)
        (mulf
          (broadcastInDim ⟨2, ![R, C]⟩ ![0, 1] hbRC
            (broadcastInDim ⟨2, ![R, 1]⟩ ![0] hbR
              (mulf
                (Host.gather (entriesDims N R wfe) dis
                  (broadcastInDim ⟨2, ![R, 1]⟩ ![0] hbR
                    (select (cmpi .slt row (broadcastInDim ⟨1, ![R]⟩ ![] hbz (constantI ⟨0, ![]⟩ 32 0#32))) X row)))
                (Host.gather (entriesDims N R wfe) dis colw))))
          (Host.gather (Idealize.ShloMosaic.RowGather.rowsDims N C R wfg) h colw))
      = mulf (broadcastInDim ⟨2, ![N, C]⟩ ![0, 1] hbNC (broadcastInDim ⟨2, ![N, 1]⟩ ![0] hbN dis))
          (Host.scatterAdd (F := Ideal) (rowsScatter N C R wfs)
            (broadcastInDim ⟨2, ![N, C]⟩ ![] hb0 (constant ⟨0, ![]⟩ .f32 0x00000000#32))
            (broadcastInDim ⟨2, ![R, 1]⟩ ![0] hbR row)
            (Host.gather (Idealize.ShloMosaic.RowGather.rowsDims N C R wfg)
              (mulf (broadcastInDim ⟨2, ![N, C]⟩ ![0, 1] hbNC (broadcastInDim ⟨2, ![N, 1]⟩ ![0] hbN dis)) h) colw)) := by
  funext j
  obtain ⟨i, f, rfl⟩ : ∃ (i : Fin N) (f : Fin C), j = ix2 i f := ⟨j 0, j 1, eq_ix2 j⟩
  have hz : (broadcastInDim ⟨2, ![N, C]⟩ ![] hb0 (constant (F := Ideal) ⟨0, ![]⟩ .f32 0x00000000#32))
      = fun _ => (0 : EReal) := funext fun _ => Ideal.ofBits_zero_f32
  rw [hz]
  show Ideal.hostScatterAdd (rowsScatter N C R wfs) (fun _ => 0) _ _ (ix2 i f)
    = (broadcastInDim ⟨2, ![N, C]⟩ ![0, 1] hbNC (broadcastInDim ⟨2, ![N, 1]⟩ ![0] hbN dis)) (ix2 i f)
      * Ideal.hostScatterAdd (rowsScatter N C R wfs) (fun _ => 0) _ _ (ix2 i f)
  rw [column_apply dis hbN hbNC i f]
  refine scatterAdd_scaled _ _ _ _ _ (hdis _).1 (hdis _).2 fun u hu => ?_
  obtain ⟨e, g, rfl⟩ : ∃ (e : Fin R) (g : Fin C), u = ix2 e g := ⟨u 0, u 1, eq_ix2 u⟩
  -- the segment's node is the edge's row, read signed
  have hrow : (row (ix1 e)).toInt = (i.val : ℤ) := by
    have := scatter_rows_hit wfs _ e g _ hu
    rwa [broadcastInDim_a_a1_apply row hbR e 0] at this
  -- so the negative-index select keeps it, and the clamp keeps it
  have hsel : (select (cmpi .slt row (broadcastInDim ⟨1, ![R]⟩ ![] hbz (constantI ⟨0, ![]⟩ 32 0#32))) X row) (ix1 e)
      = row (ix1 e) := by
    show Scalar.select (BitVec.ofBool ((row (ix1 e)).slt 0#32)) (X (ix1 e)) (row (ix1 e)) = row (ix1 e)
    have hns : (row (ix1 e)).slt 0#32 = false := by
      rw [BitVec.slt_eq_decide, BitVec.toInt_zero, hrow]
      exact decide_eq_false (by omega)
    rw [hns]
    rfl
  show _ * _ = _ * _
  rw [Cert.LibRowMax.broadcastInDim_a1_ab_apply _ hbRC e g, broadcastInDim_a_a1_apply _ hbR e 0,
    Idealize.ShloMosaic.RowGather.gather_rows_apply hN wfg h colw e g,
    Idealize.ShloMosaic.RowGather.gather_rows_apply hN wfg _ colw e g]
  show (_ * _) * _ = _ * (_ * _)
  rw [gather_entries_apply hN wfe dis _ e, gather_entries_apply hN wfe dis colw e, column_apply dis hbN hbNC]
  have hval : ((broadcastInDim ⟨2, ![R, 1]⟩ ![0] hbR
      (select (cmpi .slt row (broadcastInDim ⟨1, ![R]⟩ ![] hbz (constantI ⟨0, ![]⟩ 32 0#32))) X row))
        (ix2 e (0 : Fin 1))).toInt = (i.val : ℤ) := by
    rw [broadcastInDim_a_a1_apply _ hbR e 0, hsel]; exact hrow
  rw [clamp_eq _ i hval]
  exact mul_assoc _ _ _

end Aggregate

end Cert.LibGcnAggregate

end
-- ==== Proof.LibScatterEdges.lean ====
/-
  The accumulating scatter of whole rows into zeros, read entry by entry.

  The operand is `zeros([N, C])`, the start indices are one row number per edge (`[R, 1]`, read signed and not
  clamped) and the updates are one row of `C` features per edge (`[R, C]`).  Update element `(e, g)` lands on
  operand element `(idx[e, 0], g)` when that row number is in `[0, N)`, and is dropped otherwise: on the operand's
  row axis the start is the edge's index and the window coordinate is `0`; on the feature axis the start is `0` and
  the window coordinate is `g`.  So update `(e, g)` lands on `(i, f)` exactly when `idx[e, 0] = i` and `g = f`,
  and entry `(i, f)` of the result is the sum, over the edges whose start index reads `i`, of the update at `(e, f)`.
-/
import proofs.«124646_j1812476199038_1_alg».proof.Proof.LibGcnAggregate

noncomputable section

namespace Cert.Sgc.ScatterEdges

open Idealize.ShloMosaic Idealize.ShloMosaic.ValueIdx Cert.LibGcnAggregate

variable {N C R w : ℕ}

/-- On the operand's row axis the window of update `(e, g)` starts at the edge's start index, read signed. -/
theorem start_row (wf : ScatterDims.WF ⟨2, ![N, C]⟩ ⟨2, ![R, 1]⟩ ⟨2, ![R, C]⟩ [1] [0] [0] 1)
    (idx : IVec ⟨2, ![R, 1]⟩ w) (e : Fin R) (g : Fin C) :
    (rowsScatter N C R wf).start (ix2 e g) idx 0 = (idx (ix2 e (0 : Fin 1))).toInt := by
  unfold ScatterDims.start
  rw [dif_pos (show (0 : Fin 2) ∈ (rowsScatter N C R wf).scatterDimsToOperandDims from List.mem_singleton.mpr rfl)]
  have hsi : (rowsScatter N C R wf).siIdx (ix2 e g) ⟨List.idxOf (0 : Fin 2) (rowsScatter N C R wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On the feature axis, which the start index does not name, the window starts at `0`. -/
theorem start_col (wf : ScatterDims.WF ⟨2, ![N, C]⟩ ⟨2, ![R, 1]⟩ ⟨2, ![R, C]⟩ [1] [0] [0] 1)
    (idx : IVec ⟨2, ![R, 1]⟩ w) (e : Fin R) (g : Fin C) :
    (rowsScatter N C R wf).start (ix2 e g) idx 1 = 0 := by
  unfold ScatterDims.start
  rw [dif_neg (show (1 : Fin 2) ∉ (rowsScatter N C R wf).scatterDimsToOperandDims from
    fun h => absurd (List.mem_singleton.mp h) (show ¬ ((1 : Fin 2) = 0) by decide))]

/-- The row axis is an inserted window axis: its window coordinate is `0`. -/
theorem window_row (wf : ScatterDims.WF ⟨2, ![N, C]⟩ ⟨2, ![R, 1]⟩ ⟨2, ![R, C]⟩ [1] [0] [0] 1)
    (e : Fin R) (g : Fin C) : (rowsScatter N C R wf).window (ix2 e g) 0 = 0 := by
  unfold ScatterDims.window
  rw [dif_neg]
  intro hmem
  have := (List.mem_filter.mp hmem).2
  simp at this

/-- The feature axis is the operand's one kept axis: its window coordinate is the update's feature coordinate. -/
theorem window_col (wf : ScatterDims.WF ⟨2, ![N, C]⟩ ⟨2, ![R, 1]⟩ ⟨2, ![R, C]⟩ [1] [0] [0] 1)
    (e : Fin R) (g : Fin C) : (rowsScatter N C R wf).window (ix2 e g) 1 = g.val := by
  unfold ScatterDims.window
  have hmem : (1 : Fin 2) ∈ (rowsScatter N C R wf).sKept := by
    refine List.mem_filter.mpr ⟨List.mem_finRange _, ?_⟩
    simp
  rw [dif_pos hmem]
  rfl

/-- WHERE AN UPDATE LANDS.  Update `(e, g)` lands on operand element `(i, f)` exactly when the edge's start index,
    read signed, is the row `i`, and the feature coordinates agree. -/
theorem resultIdx_eq_some_iff (wf : ScatterDims.WF ⟨2, ![N, C]⟩ ⟨2, ![R, 1]⟩ ⟨2, ![R, C]⟩ [1] [0] [0] 1)
    (idx : IVec ⟨2, ![R, 1]⟩ w) (e : Fin R) (g : Fin C) (i : Fin N) (f : Fin C) :
    (rowsScatter N C R wf).resultIdx? (ix2 e g) idx = some (ix2 i f)
      ↔ (idx (ix2 e (0 : Fin 1))).toInt = (i.val : ℤ) ∧ g = f := by
  have hs0 := start_row wf idx e g
  have hs1 := start_col wf idx e g
  have hw0 := window_row wf e g
  have hw1 := window_col wf e g
  constructor
  · intro h
    unfold ScatterDims.resultIdx? at h
    split at h
    · rename_i hall
      have ht := Option.some.inj h
      have h0 : ((rowsScatter N C R wf).start (ix2 e g) idx 0
          + ((rowsScatter N C R wf).window (ix2 e g) 0 : ℤ)).toNat = i.val := congrArg Fin.val (congrFun ht 0)
      have h1 : ((rowsScatter N C R wf).start (ix2 e g) idx 1
          + ((rowsScatter N C R wf).window (ix2 e g) 1 : ℤ)).toNat = f.val := congrArg Fin.val (congrFun ht 1)
      have hpos := (hall 0).1
      rw [hs0, hw0] at h0 hpos
      rw [hs1, hw1] at h1
      refine ⟨by omega, Fin.ext ?_⟩
      omega
    · exact absurd h (by simp)
  · rintro ⟨hi, rfl⟩
    have hall : ∀ a, 0 ≤ (rowsScatter N C R wf).start (ix2 e g) idx a + ((rowsScatter N C R wf).window (ix2 e g) a : ℤ)
        ∧ (rowsScatter N C R wf).start (ix2 e g) idx a + ((rowsScatter N C R wf).window (ix2 e g) a : ℤ)
          < ((⟨2, ![N, C]⟩ : Shape).size a : ℤ) := by
      intro a
      match a with
      | ⟨0, _⟩ =>
        show 0 ≤ (rowsScatter N C R wf).start (ix2 e g) idx 0 + ((rowsScatter N C R wf).window (ix2 e g) 0 : ℤ)
          ∧ (rowsScatter N C R wf).start (ix2 e g) idx 0 + ((rowsScatter N C R wf).window (ix2 e g) 0 : ℤ) < (N : ℤ)
        rw [hs0, hw0, hi]
        have := i.isLt
        omega
      | ⟨1, _⟩ =>
        show 0 ≤ (rowsScatter N C R wf).start (ix2 e g) idx 1 + ((rowsScatter N C R wf).window (ix2 e g) 1 : ℤ)
          ∧ (rowsScatter N C R wf).start (ix2 e g) idx 1 + ((rowsScatter N C R wf).window (ix2 e g) 1 : ℤ) < (C : ℤ)
        rw [hs1, hw1]
        have := g.isLt
        omega
    unfold ScatterDims.resultIdx?
    rw [dif_pos hall]
    congr 1
    funext a
    refine Fin.ext ?_
    match a with
    | ⟨0, _⟩ =>
      show ((rowsScatter N C R wf).start (ix2 e g) idx 0
          + ((rowsScatter N C R wf).window (ix2 e g) 0 : ℤ)).toNat = i.val
      rw [hs0, hw0, hi]
      omega
    | ⟨1, _⟩ =>
      show ((rowsScatter N C R wf).start (ix2 e g) idx 1
          + ((rowsScatter N C R wf).window (ix2 e g) 1 : ℤ)).toNat = g.val
      rw [hs1, hw1]
      omega

/-- THE SCATTER READ AT `(i, f)`: the sum, over the edges whose start index reads `i`, of the update at `(e, f)`. -/
theorem scatter_rows_entry (wf : ScatterDims.WF ⟨2, ![N, C]⟩ ⟨2, ![R, 1]⟩ ⟨2, ![R, C]⟩ [1] [0] [0] 1)
    (idx : IVec ⟨2, ![R, 1]⟩ w) (upd : (⟨2, ![R, C]⟩ : Shape).Idx → EReal) (i : Fin N) (f : Fin C) :
    Ideal.hostScatterAdd (rowsScatter N C R wf) (fun _ => 0) idx upd (ix2 i f)
      = 0 + ∑ e ∈ Finset.univ.filter (fun e : Fin R => (idx (ix2 e (0 : Fin 1))).toInt = (i.val : ℤ)),
          upd (ix2 e f) := by
  unfold Ideal.hostScatterAdd
  congr 1
  refine Finset.sum_nbij' (fun u => u 0) (fun e => ix2 e f) ?_ ?_ ?_ ?_ ?_
  · intro u hu
    have hu' := (Finset.mem_filter.mp hu).2
    rw [eq_ix2 u] at hu'
    exact Finset.mem_filter.mpr ⟨Finset.mem_univ _, ((resultIdx_eq_some_iff wf idx _ _ i f).mp hu').1⟩
  · intro e he
    have he' := (Finset.mem_filter.mp he).2
    exact Finset.mem_filter.mpr ⟨Finset.mem_univ _, (resultIdx_eq_some_iff wf idx e f i f).mpr ⟨he', rfl⟩⟩
  · intro u hu
    have hu' := (Finset.mem_filter.mp hu).2
    rw [eq_ix2 u] at hu'
    have hg := ((resultIdx_eq_some_iff wf idx _ _ i f).mp hu').2
    show ix2 (u 0) f = u
    rw [← hg]
    exact (eq_ix2 u).symm
  · intro e _
    rfl
  · intro u hu
    have hu' := (Finset.mem_filter.mp hu).2
    rw [eq_ix2 u] at hu'
    have hg := ((resultIdx_eq_some_iff wf idx _ _ i f).mp hu').2
    show upd u = upd (ix2 (u 0) f)
    rw [← hg]
    exact congrArg upd (eq_ix2 u)

end Cert.Sgc.ScatterEdges

end
-- ==== Proof.LibPaddedEdges.lean ====
/-
  One propagation layer over padded edges is the layer over the edges themselves.

  A layer sends a node table `x` to the table whose row `r` is the sum, over the edges `e` whose row number is `r`,
  of `w(e) · x[col(e)]`.  One program lists `E` edges.  The other lists `E' ≥ E` of them: the first `E` are the same
  edges, and every further one has row number `0`, column number `0` and weight `0`.  A padding edge contributes
  `0 · x[0] = 0` to row `0` — on the extended reals `0 · y = 0` for every `y`, infinite or not — so both programs
  compute the same table.  The sum for row `r` runs over a set of edges cut out of `Fin E'` by the row numbers;
  it splits into the edges below `E`, which are the other program's, and the padding edges, whose terms are zero.
-/
import proofs.«124646_j1812476199038_1_alg».proof.Proof.LibScatterEdges
import Idealize.ShloMosaic.Lib.KernelVsHost
import Idealize.ShloMosaic.Lib.IdealHost

noncomputable section

namespace Cert.EdgeLayer

open Idealize.ShloMosaic Idealize.ShloMosaic.ValueIdx Idealize.ShloMosaic.RowGather
open Cert.LibGcnAggregate Cert.Sgc.ScatterEdges
open scoped BigOperators

/-! ## A filtered sum whose terms vanish past `N` -/

/-- A sum over the members of `Fin M` that satisfy `PK`, when every term from position `N` on is zero, is the
    sum over the members of `Fin N` that satisfy the same condition read through the inclusion. -/
theorem sum_filter_head {β : Type*} [AddCommMonoid β] {N M : ℕ} (h : N ≤ M) (PK : Fin M → Prop) (PR : Fin N → Prop)
    [DecidablePred PK] [DecidablePred PR] (TK : Fin M → β) (TR : Fin N → β)
    (htail : ∀ e : Fin M, N ≤ e.val → TK e = 0)
    (hP : ∀ e : Fin N, PK (Fin.castLE h e) ↔ PR e) (hT : ∀ e : Fin N, TK (Fin.castLE h e) = TR e) :
    ∑ e ∈ Finset.univ.filter PK, TK e = ∑ e ∈ Finset.univ.filter PR, TR e := by
  have hmap : ∑ e ∈ Finset.univ.filter PR, TR e = ∑ e ∈ (Finset.univ.filter PR).map (Fin.castLEEmb h), TK e := by
    rw [Finset.sum_map]
    exact Finset.sum_congr rfl fun e _ => (hT e).symm
  rw [hmap]
  symm
  refine Finset.sum_subset ?_ ?_
  · intro y hy
    obtain ⟨e, he, rfl⟩ := Finset.mem_map.mp hy
    exact Finset.mem_filter.mpr ⟨Finset.mem_univ _, (hP e).mpr (Finset.mem_filter.mp he).2⟩
  · intro y hy hnot
    by_cases hlt : y.val < N
    · exfalso
      apply hnot
      have hcast : Fin.castLE h ⟨y.val, hlt⟩ = y := Fin.ext rfl
      refine Finset.mem_map.mpr ⟨⟨y.val, hlt⟩, Finset.mem_filter.mpr ⟨Finset.mem_univ _, ?_⟩, hcast⟩
      exact (hP ⟨y.val, hlt⟩).mp (by rw [hcast]; exact (Finset.mem_filter.mp hy).2)
    · exact htail y (by omega)

/-! ## A vector padded at its end, read at an entry -/

section Pad
variable {α : Type} {N K M : ℕ}

/-- Below the operand's length the padded vector reads the operand. -/
theorem pad_head (x : (⟨1, ![N]⟩ : Shape).Idx → α) {u : Shape} (v : u.Idx → α)
    (hp : (⟨1, ![N]⟩ : Shape).Pads (![0] : Fin 1 → Nat) ![K] ![0] ⟨1, ![M]⟩) (hu : 0 < u.numel) (e : Fin M) (he : e.val < N) :
    pad ⟨1, ![M]⟩ ![0] ![K] ![0] x v hp hu (ix1 e) = x (ix1 (⟨e.val, he⟩ : Fin N)) :=
  pad_apply_of_inside _ _ _ x v hp hu _ (ix1 (⟨e.val, he⟩ : Fin N)) (by
    intro a
    have ha : a = 0 := Subsingleton.elim _ _
    subst ha
    show e.val = 0 + e.val * (0 + 1)
    omega)

/-- From the operand's length on it reads the padding value. -/
theorem pad_tail (x : (⟨1, ![N]⟩ : Shape).Idx → α) {u : Shape} (v : u.Idx → α)
    (hp : (⟨1, ![N]⟩ : Shape).Pads (![0] : Fin 1 → Nat) ![K] ![0] ⟨1, ![M]⟩) (hu : 0 < u.numel) (e : Fin M) (he : N ≤ e.val) :
    pad ⟨1, ![M]⟩ ![0] ![K] ![0] x v hp hu (ix1 e) = v (Shape.Idx.first hu) :=
  pad_apply_of_not_inside _ _ _ x v hp hu _ (0 : Fin 1) (by
    show ¬(0 ≤ e.val ∧ (e.val - 0) % (0 + 1) = 0 ∧ (e.val - 0) / (0 + 1) < N)
    omega)

end Pad

variable {Nn C E K Ep : ℕ}

/-! ## The accumulating scatter of padded updates -/

/-- Scattering `E'` update rows into zeros, when the first `E` rows and their row numbers are another scatter's and
    the remaining update rows are zero, gives that other scatter's table. -/
theorem scatter_padded (h : E ≤ Ep)
    (wfK : ScatterDims.WF ⟨2, ![Nn, C]⟩ ⟨2, ![Ep, 1]⟩ ⟨2, ![Ep, C]⟩ [1] [0] [0] 1)
    (wfR : ScatterDims.WF ⟨2, ![Nn, C]⟩ ⟨2, ![E, 1]⟩ ⟨2, ![E, C]⟩ [1] [0] [0] 1)
    (idxK : IVec ⟨2, ![Ep, 1]⟩ 32) (idxR : IVec ⟨2, ![E, 1]⟩ 32)
    (updK : (⟨2, ![Ep, C]⟩ : Shape).Idx → EReal) (updR : (⟨2, ![E, C]⟩ : Shape).Idx → EReal)
    (hidx : ∀ e : Fin E, idxK (ix2 (Fin.castLE h e) (0 : Fin 1)) = idxR (ix2 e (0 : Fin 1)))
    (hupd : ∀ (e : Fin E) (f : Fin C), updK (ix2 (Fin.castLE h e) f) = updR (ix2 e f))
    (htail : ∀ (e : Fin Ep) (f : Fin C), E ≤ e.val → updK (ix2 e f) = 0) :
    Ideal.hostScatterAdd (rowsScatter Nn C Ep wfK) (fun _ => 0) idxK updK
      = Ideal.hostScatterAdd (rowsScatter Nn C E wfR) (fun _ => 0) idxR updR := by
  funext i
  obtain ⟨r, f, rfl⟩ : ∃ (r : Fin Nn) (f : Fin C), i = ix2 r f := ⟨i 0, i 1, eq_ix2 i⟩
  rw [scatter_rows_entry, scatter_rows_entry]
  congr 1
  exact sum_filter_head h _ _ _ _ (fun e he => htail e f he) (fun e => by rw [hidx e]) (fun e => hupd e f)

/-! ## The layer in its two spellings -/

/-- A column number as the gather reads it: a negative one is moved up by the table's length `k`. -/
abbrev wrapVec {n : ℕ} (k : BitVec 32)
    (hs : (⟨0, ![]⟩ : Shape).BroadcastsInDim ⟨1, ![n]⟩ (![] : Fin 0 → Fin (⟨1, ![n]⟩ : Shape).rank))
    (c : IVec ⟨1, ![n]⟩ 32) : IVec ⟨1, ![n]⟩ 32 :=
  select (cmpi .slt c (broadcastInDim ⟨1, ![n]⟩ ![] hs (constantI ⟨0, ![]⟩ 32 0#32)))
    (addi c (broadcastInDim ⟨1, ![n]⟩ ![] hs (constantI ⟨0, ![]⟩ 32 k))) c

/-- The same on one word. -/
def wrapWord (k b : BitVec 32) : BitVec 32 := Scalar.select (IntOp.cmpi .slt b 0#32) (IntOp.addi b k) b

theorem wrapVec_apply {n : ℕ} (k : BitVec 32)
    (hs : (⟨0, ![]⟩ : Shape).BroadcastsInDim ⟨1, ![n]⟩ (![] : Fin 0 → Fin (⟨1, ![n]⟩ : Shape).rank))
    (c : IVec ⟨1, ![n]⟩ 32) (e : Fin n) : wrapVec k hs c (ix1 e) = wrapWord k (c (ix1 e)) := rfl

/-- Reading a table's row at a clamped word depends on the word only. -/
theorem row_congr (x : (⟨2, ![Nn, C]⟩ : Shape).Idx → EReal) (f : Fin C) (w w' : BitVec 32) (hw : w = w')
    (p : min w.toInt.toNat (Nn - 1) < Nn) (p' : min w'.toInt.toNat (Nn - 1) < Nn) :
    x (ix2 (⟨min w.toInt.toNat (Nn - 1), p⟩ : Fin Nn) f) = x (ix2 (⟨min w'.toInt.toNat (Nn - 1), p'⟩ : Fin Nn) f) := by
  subst hw; rfl

/-- The integer zero converted to a float is zero. -/
theorem sitofp_zero (hu : 0 < (⟨0, ![]⟩ : Shape).numel) :
    sitofp (F := Ideal) .f32 (constantI ⟨0, ![]⟩ 32 0#32) (Shape.Idx.first hu) = 0 := by
  show (((0#32 : BitVec 32).toInt : ℝ) : EReal) = 0
  simp

/-- THE LAYER OVER PADDED EDGES IS THE LAYER OVER THE EDGES.  Left: row numbers, column numbers and weights padded with
    zeros from `E` to `E'`, every gathered row scaled by its edge's weight (the weights a column `[E', 1]`), scattered
    into zeros.  Right: the same over the `E` edges, the weights spread across the features before the product. -/
theorem layer_eq (h : E ≤ Ep) (hN : 0 < Nn) (k : BitVec 32)
    (wfK : ScatterDims.WF ⟨2, ![Nn, C]⟩ ⟨2, ![Ep, 1]⟩ ⟨2, ![Ep, C]⟩ [1] [0] [0] 1)
    (wfR : ScatterDims.WF ⟨2, ![Nn, C]⟩ ⟨2, ![E, 1]⟩ ⟨2, ![E, C]⟩ [1] [0] [0] 1)
    (gwfK : GatherDims.WF ⟨2, ![Nn, C]⟩ ⟨2, ![Ep, 1]⟩ ⟨2, ![Ep, C]⟩ [1] [0] [] [0] [] 1 ![1, C])
    (gwfR : GatherDims.WF ⟨2, ![Nn, C]⟩ ⟨2, ![E, 1]⟩ ⟨2, ![E, C]⟩ [1] [0] [] [0] [] 1 ![1, C])
    (hp : (⟨1, ![E]⟩ : Shape).Pads (![0] : Fin 1 → Nat) ![K] ![0] ⟨1, ![Ep]⟩) (hu : 0 < (⟨0, ![]⟩ : Shape).numel)
    (hcK : (⟨1, ![Ep]⟩ : Shape).BroadcastsInDim ⟨2, ![Ep, 1]⟩ ![0])
    (hcR : (⟨1, ![E]⟩ : Shape).BroadcastsInDim ⟨2, ![E, 1]⟩ ![0])
    (hlR : (⟨2, ![E, 1]⟩ : Shape).BroadcastsInDim ⟨2, ![E, C]⟩ ![0, 1])
    (hsK : (⟨0, ![]⟩ : Shape).BroadcastsInDim ⟨1, ![Ep]⟩ (![] : Fin 0 → Fin (⟨1, ![Ep]⟩ : Shape).rank))
    (hsR : (⟨0, ![]⟩ : Shape).BroadcastsInDim ⟨1, ![E]⟩ (![] : Fin 0 → Fin (⟨1, ![E]⟩ : Shape).rank))
    (vals : (⟨1, ![E]⟩ : Shape).Idx → EReal) (rows cols : IVec ⟨1, ![E]⟩ 32)
    (x : (⟨2, ![Nn, C]⟩ : Shape).Idx → EReal) :
    Ideal.hostScatterAdd (rowsScatter Nn C Ep wfK) (fun _ => 0)
        (broadcastInDim ⟨2, ![Ep, 1]⟩ ![0] hcK (pad ⟨1, ![Ep]⟩ ![0] ![K] ![0] rows (id (constantI ⟨0, ![]⟩ 32 0#32)) hp hu))
        (fun i => (broadcastInDim ⟨2, ![Ep, 1]⟩ ![0] hcK
              (pad ⟨1, ![Ep]⟩ ![0] ![K] ![0] vals (sitofp (F := Ideal) .f32 (constantI ⟨0, ![]⟩ 32 0#32)) hp hu))
              (ix2 (⟨(i 0).val, idx2_lt0 i⟩ : Fin Ep) (0 : Fin 1))
            * Host.gather (rowsDims Nn C Ep gwfK) x (broadcastInDim ⟨2, ![Ep, 1]⟩ ![0] hcK
                (wrapVec k hsK (pad ⟨1, ![Ep]⟩ ![0] ![K] ![0] cols (id (constantI ⟨0, ![]⟩ 32 0#32)) hp hu))) i)
      = Ideal.hostScatterAdd (rowsScatter Nn C E wfR) (fun _ => 0) (broadcastInDim ⟨2, ![E, 1]⟩ ![0] hcR rows)
        (fun i => (broadcastInDim ⟨2, ![E, C]⟩ ![0, 1] hlR (broadcastInDim ⟨2, ![E, 1]⟩ ![0] hcR vals)) i
            * Host.gather (rowsDims Nn C E gwfR) x (broadcastInDim ⟨2, ![E, 1]⟩ ![0] hcR (wrapVec k hsR cols)) i) := by
  refine scatter_padded h wfK wfR _ _ _ _ ?_ ?_ ?_
  · intro e
    rw [broadcastInDim_a_a1_apply, broadcastInDim_a_a1_apply]
    exact pad_head rows _ hp hu (Fin.castLE h e) e.isLt
  · intro e f
    show (broadcastInDim ⟨2, ![Ep, 1]⟩ ![0] hcK
          (pad ⟨1, ![Ep]⟩ ![0] ![K] ![0] vals (sitofp (F := Ideal) .f32 (constantI ⟨0, ![]⟩ 32 0#32)) hp hu))
          (ix2 (Fin.castLE h e) (0 : Fin 1))
        * Host.gather (rowsDims Nn C Ep gwfK) x _ (ix2 (Fin.castLE h e) f)
      = (broadcastInDim ⟨2, ![E, C]⟩ ![0, 1] hlR (broadcastInDim ⟨2, ![E, 1]⟩ ![0] hcR vals)) (ix2 e f)
        * Host.gather (rowsDims Nn C E gwfR) x _ (ix2 e f)
    rw [gather_rows_apply hN, gather_rows_apply hN, column_apply]
    rw [broadcastInDim_a_a1_apply
        (pad ⟨1, ![Ep]⟩ ![0] ![K] ![0] vals (sitofp (F := Ideal) .f32 (constantI ⟨0, ![]⟩ 32 0#32)) hp hu) hcK (Fin.castLE h e) 0,
      pad_head vals _ hp hu (Fin.castLE h e) e.isLt]
    refine congrArg₂ (· * ·) rfl (row_congr x f _ _ ?_ _ _)
    rw [broadcastInDim_a_a1_apply _ hcK (Fin.castLE h e) 0, broadcastInDim_a_a1_apply _ hcR e 0,
      wrapVec_apply, wrapVec_apply, pad_head cols _ hp hu (Fin.castLE h e) e.isLt]
    rfl
  · intro e f he
    show (broadcastInDim ⟨2, ![Ep, 1]⟩ ![0] hcK
          (pad ⟨1, ![Ep]⟩ ![0] ![K] ![0] vals (sitofp (F := Ideal) .f32 (constantI ⟨0, ![]⟩ 32 0#32)) hp hu))
          (ix2 e (0 : Fin 1)) * _ = 0
    rw [broadcastInDim_a_a1_apply, pad_tail vals _ hp hu e he, sitofp_zero hu, zero_mul]

end Cert.EdgeLayer

end
-- ==== Proof.Bridge.lean ====
/-
  The kernel's result is the reference's.

  Both programs join the two embedding tables into the node table `x₀`, apply one propagation layer three times,
  add the three layers to `x₀`, take a quarter and keep the leading 50000 rows.  They differ in three places.
  The kernel's layer runs over 256 padding edges besides the real ones: it is the reference's layer, because a padding
  edge has weight zero and `0 · y = 0` for every extended real `y`.  The kernel keeps the leading rows before
  scaling, the reference after: scaling is entrywise, so the order does not matter.  The kernel multiplies by the
  constant of word `0x3E800000`, which is `1/4`, where the reference divides by the one of word `0x40800000`,
  which is `4`: on the extended reals `y / 4 = y · (1/4)` for every `y`, the infinities included.
-/
import proofs.«124646_j1812476199038_1_alg».proof.Proof.Boundary
import proofs.«124646_j1812476199038_1_alg».proof.Proof.LibPaddedEdges
import proofs.«124646_j1812476199038_1_alg».proof.Proof.Gen.ReferenceIdeal.Read
import Idealize.ShloMosaic.Lib.IdealHost

set_option maxRecDepth 16384

noncomputable section

namespace Cert.Bridge

open Idealize.ShloMosaic Idealize.ShloMosaic.ValueIdx
open Cert.KernelIdeal.Tables Cert.KernelIdeal.Boundary

/-- The word `0x3E800000` denotes one quarter. -/
theorem quarter_word : Ideal.ofBits .f32 0x3E800000#32 = (((1 : ℝ) / 4 : ℝ) : EReal) := by
  simp [Ideal.ofBits, Ideal.ieee, -EReal.coe_mul]; norm_num

/-- The word `0x40800000` denotes four. -/
theorem four_word : Ideal.ofBits .f32 0x40800000#32 = ((4 : ℝ) : EReal) := by
  simp [Ideal.ofBits, Ideal.ieee, -EReal.coe_mul]; norm_num

/-- A table of the zero word is the zero table. -/
theorem zeros_eq {T : Shape} (h : (⟨0, ![]⟩ : Shape).BroadcastsInDim T ![]) :
    broadcastInDim T ![] h (constant (F := Ideal) ⟨0, ![]⟩ .f32 0x00000000#32) = fun _ => (0 : EReal) := by
  funext i
  show Ideal.ofBits .f32 0x00000000#32 = 0
  exact Ideal.ofBits_zero_f32

/-- The reference's layer: the table's rows gathered at the column numbers, times the weights spread across the
    features, scattered into zeros at the row numbers. -/
def refLayer (a2 : (⟨Cert.ReferenceIdeal.S2400000, .f32⟩ : BufTy).Contents (Elt Ideal))
    (a3 a4 : (⟨Cert.ReferenceIdeal.S2400000, .i32⟩ : BufTy).Contents (Elt Ideal))
    (x : (⟨Cert.ReferenceIdeal.S150000x64, .f32⟩ : BufTy).Contents (Elt Ideal)) :
    (⟨Cert.ReferenceIdeal.S150000x64, .f32⟩ : BufTy).Contents (Elt Ideal) :=
  Host.scatterAdd (F := Ideal) Cert.ReferenceIdeal.scatter_S150000x64_S2400000x1_S2400000x64_1_0_0_1
    (broadcastInDim Cert.ReferenceIdeal.S150000x64 ![] Cert.ReferenceIdeal.Gen.bcast_S_S150000x64
      (constant (F := Ideal) Cert.ReferenceIdeal.S_ .f32 0x00000000#32))
    (broadcastInDim Cert.ReferenceIdeal.S2400000x1 ![0] Cert.ReferenceIdeal.Gen.bcast_S2400000_S2400000x1_0 a3)
    (mulf (F := Ideal) (broadcastInDim Cert.ReferenceIdeal.S2400000x64 ![0, 1] Cert.ReferenceIdeal.Gen.bcast_S2400000x1_S2400000x64_0_1
        (broadcastInDim Cert.ReferenceIdeal.S2400000x1 ![0] Cert.ReferenceIdeal.Gen.bcast_S2400000_S2400000x1_0 a2))
      (Host.gather Cert.ReferenceIdeal.gather_S150000x64_S2400000x1_S2400000x64_1_0_n_n_0_1_164 x
        (broadcastInDim Cert.ReferenceIdeal.S2400000x1 ![0] Cert.ReferenceIdeal.Gen.bcast_S2400000_S2400000x1_0
          (select (cmpi .slt a4 (broadcastInDim Cert.ReferenceIdeal.S2400000 ![] Cert.ReferenceIdeal.Gen.bcast_S_S2400000
              (constantI Cert.ReferenceIdeal.S_ 32 0#32)))
            (addi a4 (broadcastInDim Cert.ReferenceIdeal.S2400000 ![] Cert.ReferenceIdeal.Gen.bcast_S_S2400000
              (constantI Cert.ReferenceIdeal.S_ 32 150000#32))) a4))))

/-- THE KERNEL'S LAYER IS THE REFERENCE'S, on every table. -/
theorem layer_bridge (a2 : (⟨Cert.ReferenceIdeal.S2400000, .f32⟩ : BufTy).Contents (Elt Ideal))
    (a3 a4 : (⟨Cert.ReferenceIdeal.S2400000, .i32⟩ : BufTy).Contents (Elt Ideal))
    (x : (⟨Cert.ReferenceIdeal.S150000x64, .f32⟩ : BufTy).Contents (Elt Ideal)) :
    layerOf (F := Ideal) a2 a3 a4 x = refLayer a2 a3 a4 x := by
  unfold layerOf scattered refLayer
  show Ideal.hostScatterAdd _ (broadcastInDim _ ![] _ (constant (F := Ideal) ⟨0, ![]⟩ .f32 0x00000000#32)) _ _
    = Ideal.hostScatterAdd _ (broadcastInDim _ ![] _ (constant (F := Ideal) ⟨0, ![]⟩ .f32 0x00000000#32)) _ _
  rw [zeros_eq]
  exact Cert.EdgeLayer.layer_eq (Nn := 150000) (C := 64) (E := 2400000) (K := 256) (Ep := 2400256)
    (by norm_num) (by norm_num) 150000#32
    Cert.KernelIdeal.Gen.scatter_S150000x64_S2400256x1_S2400256x64_1_0_0_1_wf
    Cert.ReferenceIdeal.Gen.scatter_S150000x64_S2400000x1_S2400000x64_1_0_0_1_wf
    Cert.KernelIdeal.Gen.gather_S150000x64_S2400256x1_S2400256x64_1_0_n_n_0_1_164_wf
    Cert.ReferenceIdeal.Gen.gather_S150000x64_S2400000x1_S2400000x64_1_0_n_n_0_1_164_wf
    Cert.KernelIdeal.Gen.pads_S2400000_S2400256_02560 Cert.KernelIdeal.Gen.h_S_
    Cert.KernelIdeal.Gen.bcast_S2400256_S2400256x1_0 Cert.ReferenceIdeal.Gen.bcast_S2400000_S2400000x1_0
    Cert.ReferenceIdeal.Gen.bcast_S2400000x1_S2400000x64_0_1
    Cert.KernelIdeal.Gen.bcast_S_S2400256 Cert.ReferenceIdeal.Gen.bcast_S_S2400000 a2 a3 a4 x

/-- The reference's table before the quarter: `((x₀ + L x₀) + L L x₀) + L L L x₀`, stage by stage. -/
theorem reference_sum (a0 : (⟨Cert.ReferenceIdeal.S50000x64, .f32⟩ : BufTy).Contents (Elt Ideal))
    (a1 : (⟨Cert.ReferenceIdeal.S100000x64, .f32⟩ : BufTy).Contents (Elt Ideal))
    (a2 : (⟨Cert.ReferenceIdeal.S2400000, .f32⟩ : BufTy).Contents (Elt Ideal))
    (a3 a4 : (⟨Cert.ReferenceIdeal.S2400000, .i32⟩ : BufTy).Contents (Elt Ideal)) :
    Cert.ReferenceIdeal.Read.val_main_v42 (F := Ideal) a0 a1 a2 a3 a4
      = Cert.KernelIdeal.Accumulate1.tableSum (Cert.KernelIdeal.Accumulate1.tableSum (Cert.KernelIdeal.Accumulate1.tableSum
          (nodeTable a0 a1) (refLayer a2 a3 a4 (nodeTable a0 a1)))
          (refLayer a2 a3 a4 (refLayer a2 a3 a4 (nodeTable a0 a1))))
          (refLayer a2 a3 a4 (refLayer a2 a3 a4 (refLayer a2 a3 a4 (nodeTable a0 a1)))) := rfl

/-- THE KERNEL'S RESULT IS THE REFERENCE'S, as functions of the five argument arrays. -/
theorem result_eq (a0 : (⟨Cert.ReferenceIdeal.S50000x64, .f32⟩ : BufTy).Contents (Elt Ideal))
    (a1 : (⟨Cert.ReferenceIdeal.S100000x64, .f32⟩ : BufTy).Contents (Elt Ideal))
    (a2 : (⟨Cert.ReferenceIdeal.S2400000, .f32⟩ : BufTy).Contents (Elt Ideal))
    (a3 a4 : (⟨Cert.ReferenceIdeal.S2400000, .i32⟩ : BufTy).Contents (Elt Ideal)) :
    resultOf (F := Ideal) a0 a1 a2 a3 a4 = Cert.ReferenceIdeal.Read.val_main_v45 (F := Ideal) a0 a1 a2 a3 a4 := by
  have hL : layerOf (F := Ideal) a2 a3 a4 = refLayer a2 a3 a4 := funext (layer_bridge a2 a3 a4)
  unfold resultOf
  rw [hL, ← reference_sum a0 a1 a2 a3 a4]
  funext i
  rw [Cert.ReferenceIdeal.Read.val_main_v45_apply, Cert.ReferenceIdeal.Read.val_main_v44_apply]
  generalize Cert.ReferenceIdeal.Read.val_main_v42 (F := Ideal) a0 a1 a2 a3 a4 = T
  have hj : (ix2 (⟨(i 0).val, by have := idx2_lt0 i; omega⟩ : Fin 150000) (⟨(i 1).val, idx2_lt1 i⟩ : Fin 64) :
      Cert.ReferenceIdeal.S150000x64.Idx) = Cert.ReferenceIdeal.Read.idx_main_v45 i :=
    funext fun a => match a with
      | ⟨0, _⟩ => rfl
      | ⟨1, _⟩ => rfl
  show T (ix2 (⟨(i 0).val, by have := idx2_lt0 i; omega⟩ : Fin 150000) (⟨(i 1).val, idx2_lt1 i⟩ : Fin 64))
      * Ideal.ofBits .f32 0x3E800000#32
    = Ideal.div (T (Cert.ReferenceIdeal.Read.idx_main_v45 i)) (Ideal.ofBits .f32 0x40800000#32)
  rw [hj, quarter_word, four_word, Ideal.div_coe (by norm_num : (4 : ℝ) ≠ 0)]

end Cert.Bridge

end
-- ==== Proof.lean ====
/-
  The certificate of a three-layer graph propagation: a kernel that pads its edge list and runs the dense parts of
  each layer as tiled launches, against the plain reference.

  With `x₀` the node table (the two embedding tables one above the other) and `L` one propagation layer — row `r`
  of `L x` is the sum over the edges `e` with row number `r` of `w(e) · x[col(e)]` — both programs return the
  leading 50000 rows of `(((x₀ + L x₀) + L L x₀) + L L L x₀) / 4`.

  The frames: each program terminates without a fault and leaves its arguments unchanged (the kernel's two by its
  launch segments, the reference's by its run).  The idealization rewrote nothing, so there is nothing to preserve.
  The values: the kernel's run ends with its result buffer at the last boundary's contents, which the boundary walk
  reads as one function of the five arguments; that function is the reference's (the padding edges carry weight zero
  and contribute nothing; a product with one quarter is the quotient by four); the reference's run ends at the same
  function of arguments that agree.
-/
import proofs.«124646_j1812476199038_1_alg».proof.Defs
import proofs.«124646_j1812476199038_1_alg».proof.Proof.Gen.Kernel
import proofs.«124646_j1812476199038_1_alg».proof.Proof.Gen.Kernel.Frame
import proofs.«124646_j1812476199038_1_alg».proof.Proof.Gen.KernelIdeal
import proofs.«124646_j1812476199038_1_alg».proof.Proof.Gen.KernelIdeal.Frame
import proofs.«124646_j1812476199038_1_alg».proof.Proof.Gen.ReferenceIdeal
import proofs.«124646_j1812476199038_1_alg».proof.Proof.Gen.ReferenceIdeal.Run
import proofs.«124646_j1812476199038_1_alg».proof.Proof.Gen.ReferenceIdeal.Read
import proofs.«124646_j1812476199038_1_alg».proof.Proof.Gen.Pre_finite_inputs
import proofs.«124646_j1812476199038_1_alg».proof.Proof.Run
import proofs.«124646_j1812476199038_1_alg».proof.Proof.Boundary
import proofs.«124646_j1812476199038_1_alg».proof.Proof.Bridge
import Idealize.ShloMosaic.Adequacy
import Idealize.ShloMosaic.Init

noncomputable section

namespace Cert.Proof

open Idealize.ShloMosaic Idealize.ShloMosaic.TcCoe Idealize.SL.Sem

/-- The kernel as printed runs and keeps its arguments. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and keeps its arguments: its run, the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both idealized programs end with the same result: the reference's function of the kernel's arguments. -/
theorem algebraic : Cert.algebraic_KernelIdeal_ReferenceIdeal := by
  intro m ρ m' ρ' _ hagree
  refine ⟨fun c => Cert.ReferenceIdeal.Read.val_main_v45 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)), ?_, ?_⟩
  · refine (θ_run Cert.KernelIdeal.defs _ _).mono (fun r h c => ⟨(h c).1.trans ?_, (h c).2⟩)
      (Cert.KernelIdeal.Run.run_result (F := Ideal) m ρ)
    exact (Cert.KernelIdeal.Boundary.result m ρ c).trans (Cert.Bridge.result_eq _ _ _ _ _)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v45_eq m' c, (hagree c).1, (hagree c).2.1, (hagree c).2.2.1,
      (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
